-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S1x4x32 : Shape := ⟨3, ![1, 4, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x4x32 : S_.BroadcastsInDim S1x4x32 (![] : Fin 0 → Fin S1x4x32.rank)
  reducesTo_S1x4x32_S_d0_1_2 : S1x4x32.ReducesTo [0, 1, 2] S_

variable [Facts]

def fn_part1 {F : FTy → Type} [FloatOps F] (main_v13 : IVec S_ 1) (main_v16 : IVec S1x4x32 1) : IVec S_ 1 :=
  let main_c_5 : IVec S_ 1 := constantI S_ 1 1#1
  let main_v17 : IVec S_ 1 := (fun x v => Host.reduce IntOp.andi x v reducesTo_S1x4x32_S_d0_1_2 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S1x4x32 .f32) (main_arg4 : FVec F S1x4x32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1x4x32 .f32 := Host.absf main_arg3
  let main_cst_2 : FVec F S_ .f32 := constant S_ .f32 0x7F800000#32
  let main_v10 : FVec F S1x4x32 .f32 := broadcastInDim S1x4x32 ![] bcast_S_S1x4x32 main_cst_2
  let main_v11 : IVec S1x4x32 1 := cmpf .olt main_v9 main_v10
  let main_c_3 : IVec S_ 1 := constantI S_ 1 1#1
  let main_v12 : IVec S_ 1 := (fun x v => Host.reduce IntOp.andi x v reducesTo_S1x4x32_S_d0_1_2 h_S_) main_v11 main_c_3
  let main_v13 : IVec S_ 1 := andi main_v8 main_v12
  let main_v14 : FVec F S1x4x32 .f32 := Host.absf main_arg4
  let main_cst_4 : FVec F S_ .f32 := constant S_ .f32 0x7F800000#32
  let main_v15 : FVec F S1x4x32 .f32 := broadcastInDim S1x4x32 ![] bcast_S_S1x4x32 main_cst_4
  let main_v16 : IVec S1x4x32 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S1x4x32 : Shape := ⟨3, ![1, 4, 32]⟩
abbrev S1x1600000 : Shape := ⟨2, ![1, 1600000]⟩
abbrev S1600000 : Shape := ⟨1, ![1600000]⟩
abbrev S128 : Shape := ⟨1, ![128]⟩
abbrev S_ : Shape := ⟨0, ![]⟩
abbrev S4 : Shape := ⟨1, ![4]⟩
abbrev S128x1 : Shape := ⟨2, ![128, 1]⟩
abbrev S1x4 : Shape := ⟨2, ![1, 4]⟩
abbrev S128x4 : Shape := ⟨2, ![128, 4]⟩
abbrev S128x8 : Shape := ⟨2, ![128, 8]⟩
abbrev S100000x8 : Shape := ⟨2, ![100000, 8]⟩
abbrev S10000x128 : Shape := ⟨2, ![10000, 128]⟩
abbrev S10000x8 : Shape := ⟨2, ![10000, 8]⟩
abbrev S100000x4 : Shape := ⟨2, ![100000, 4]⟩
abbrev S1600000x1 : Shape := ⟨2, ![1600000, 1]⟩
abbrev S1600000x4 : Shape := ⟨2, ![1600000, 4]⟩
abbrev S1600000x128 : Shape := ⟨2, ![1600000, 128]⟩
abbrev S4x1 : Shape := ⟨2, ![4, 1]⟩
abbrev S1x128 : Shape := ⟨2, ![1, 128]⟩
abbrev S4x128 : Shape := ⟨2, ![4, 128]⟩
abbrev S8000x128 : Shape := ⟨2, ![8000, 128]⟩
abbrev S8000x4 : Shape := ⟨2, ![8000, 4]⟩

abbrev nBuf : Space → Nat
  | .hbm => 138
  | .vmem => 15
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S1x4x32, .f32⟩
  | 4 => ⟨S1x4x32, .f32⟩
  | 5 => ⟨S1x1600000, .i32⟩
  | 6 => ⟨S1600000, .i32⟩
  | 7 => ⟨S1x1600000, .i32⟩
  | 8 => ⟨S1600000, .i32⟩
  | 9 => ⟨S128, .f32⟩
  | 10 => ⟨S128, .f32⟩
  | 11 => ⟨S128, .i32⟩
  | 12 => ⟨S_, .i32⟩
  | 13 => ⟨S_, .i32⟩
  | 14 => ⟨S128, .i32⟩
  | 15 => ⟨S128, .i32⟩
  | 16 => ⟨S128, .i32⟩
  | 17 => ⟨S_, .i32⟩
  | 18 => ⟨S128, .i32⟩
  | 19 => ⟨S128, .i1⟩
  | 20 => ⟨S128, .i32⟩
  | 21 => ⟨S128, .i32⟩
  | 22 => ⟨S_, .i32⟩
  | 23 => ⟨S128, .i32⟩
  | 24 => ⟨S128, .i1⟩
  | 25 => ⟨S128, .i1⟩
  | 26 => ⟨S_, .i32⟩
  | 27 => ⟨S128, .i32⟩
  | 28 => ⟨S128, .i32⟩
  | 29 => ⟨S128, .i32⟩
  | 30 => ⟨S4, .i32⟩
  | 31 => ⟨S128x1, .i32⟩
  | 32 => ⟨S1x4, .i32⟩
  | 33 => ⟨S128x4, .i32⟩
  | 34 => ⟨S128x4, .i32⟩
  | 35 => ⟨S128x4, .i1⟩
  | 36 => ⟨S128x4, .f32⟩
  | 37 => ⟨S128x1, .f32⟩
  | 38 => ⟨S128x4, .f32⟩
  | 39 => ⟨S128x4, .f32⟩
  | 40 => ⟨S128x1, .f32⟩
  | 41 => ⟨S128x4, .f32⟩
  | 42 => ⟨S128x4, .f32⟩
  | 43 => ⟨S128x8, .f32⟩
  | 44 => ⟨S128x8, .bf16⟩
  | 45 => ⟨S100000x128, .f32⟩
  | 46 => ⟨S100000x8, .f32⟩
  | 47 => ⟨S100000x4, .f32⟩
  | 48 => ⟨S100000x4, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x4, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x4, .f32⟩
  | 67 => ⟨S1600000x4, .f32⟩
  | 68 => ⟨S_, .f32⟩
  | 69 => ⟨S_, .f32⟩
  | 70 => ⟨S1600000x4, .f32⟩
  | 71 => ⟨S1600000x4, .i1⟩
  | 72 => ⟨S_, .f32⟩
  | 73 => ⟨S1600000x4, .f32⟩
  | 74 => ⟨S1600000x4, .f32⟩
  | 75 => ⟨S1600000x4, .f32⟩
  | 76 => ⟨S_, .f32⟩
  | 77 => ⟨S_, .f32⟩
  | 78 => ⟨S1600000x4, .f32⟩
  | 79 => ⟨S1600000x4, .f32⟩
  | 80 => ⟨S1600000x4, .f32⟩
  | 81 => ⟨S_, .f32⟩
  | 82 => ⟨S100000x4, .f32⟩
  | 83 => ⟨S1600000x1, .i32⟩
  | 84 => ⟨S100000x4, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x4, .f32⟩
  | 94 => ⟨S_, .f32⟩
  | 95 => ⟨S1600000x4, .f32⟩
  | 96 => ⟨S1600000x4, .f32⟩
  | 97 => ⟨S1600000x4, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S4, .i32⟩
  | 108 => ⟨S4x1, .i32⟩
  | 109 => ⟨S128, .i32⟩
  | 110 => ⟨S1x128, .i32⟩
  | 111 => ⟨S_, .i32⟩
  | 112 => ⟨S_, .i32⟩
  | 113 => ⟨S1x128, .i32⟩
  | 114 => ⟨S1x128, .i32⟩
  | 115 => ⟨S1x128, .i32⟩
  | 116 => ⟨S_, .i32⟩
  | 117 => ⟨S1x128, .i32⟩
  | 118 => ⟨S1x128, .i1⟩
  | 119 => ⟨S1x128, .i32⟩
  | 120 => ⟨S1x128, .i32⟩
  | 121 => ⟨S_, .i32⟩
  | 122 => ⟨S1x128, .i32⟩
  | 123 => ⟨S1x128, .i1⟩
  | 124 => ⟨S1x128, .i1⟩
  | 125 => ⟨S_, .i32⟩
  | 126 => ⟨S1x128, .i32⟩
  | 127 => ⟨S1x128, .i32⟩
  | _ => ⟨S100000x128, .f32⟩

abbrev hbmTy0_1 (i : Nat) : BufTy := match i % 128 with
  | 0 => ⟨S1x128, .i32⟩
  | 1 => ⟨S4x128, .i32⟩
  | 2 => ⟨S4x128, .i32⟩
  | 3 => ⟨S4x128, .i1⟩
  | 4 => ⟨S4x128, .f32⟩
  | 5 => ⟨S1600000x128, .f32⟩
  | 6 => ⟨S_, .f32⟩
  | 7 => ⟨S100000x128, .f32⟩
  | 8 => ⟨S1600000x1, .i32⟩
  | 9 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128x8, .bf16⟩
  | .local _ .vmem, ⟨4, _⟩ => ⟨S10000x128, .f32⟩
  | .local _ .vmem, ⟨5, _⟩ => ⟨S10000x128, .f32⟩
  | .local _ .vmem, ⟨6, _⟩ => ⟨S10000x8, .f32⟩
  | .local _ .vmem, ⟨7, _⟩ => ⟨S10000x8, .f32⟩
  | .local _ .vmem, ⟨8, _⟩ => ⟨S8000x128, .f32⟩
  | .local _ .vmem, ⟨9, _⟩ => ⟨S8000x128, .f32⟩
  | .local _ .vmem, ⟨10, _⟩ => ⟨S8000x4, .f32⟩
  | .local _ .vmem, ⟨11, _⟩ => ⟨S8000x4, .f32⟩
  | .local _ .vmem, ⟨12, _⟩ => ⟨S4x128, .f32⟩
  | .local _ .vmem, ⟨13, _⟩ => ⟨S8000x128, .f32⟩
  | .local _ .vmem, ⟨14, _⟩ => ⟨S8000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23_0 : Ref sig .tc := ⟨.hbm, 45, rfl⟩
abbrev main_v23_1 : Ref sig .tc := ⟨.hbm, 46, rfl⟩
abbrev main_v24 : Ref sig .tc := ⟨.hbm, 47, rfl⟩
abbrev main_v25 : Ref sig .tc := ⟨.hbm, 48, rfl⟩
abbrev main_c_0 : Ref sig .tc := ⟨.hbm, 49, rfl⟩
abbrev main_v26 : Ref sig .tc := ⟨.hbm, 50, rfl⟩
abbrev main_v27 : Ref sig .tc := ⟨.hbm, 51, rfl⟩
abbrev main_c_1 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_2 : Ref sig .tc := ⟨.hbm, 58, rfl⟩
abbrev main_v33 : Ref sig .tc := ⟨.hbm, 59, rfl⟩
abbrev main_v34 : Ref sig .tc := ⟨.hbm, 60, rfl⟩
abbrev main_c_3 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v41 : Ref sig .tc := ⟨.hbm, 75, rfl⟩
abbrev main_cst_4 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_5 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_c_6 : Ref sig .tc := ⟨.hbm, 85, rfl⟩
abbrev main_v49 : Ref sig .tc := ⟨.hbm, 86, rfl⟩
abbrev main_v50 : Ref sig .tc := ⟨.hbm, 87, rfl⟩
abbrev main_c_7 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_8 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_c_9 : Ref sig .tc := ⟨.hbm, 98, rfl⟩
abbrev main_v59 : Ref sig .tc := ⟨.hbm, 99, rfl⟩
abbrev main_v60 : Ref sig .tc := ⟨.hbm, 100, rfl⟩
abbrev main_c_10 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_11 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_c : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_c_0 : Ref sig .tc := ⟨.hbm, 125, rfl⟩
abbrev main_call2_v12 : Ref sig .tc := ⟨.hbm, 126, rfl⟩
abbrev main_call2_v13 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_cst_12 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1x4x32_S128 : S1x4x32.ShapeCasts S128
  bcast_S_S128 : S_.BroadcastsInDim S128 (![] : Fin 0 → Fin S128.rank)
  bcast_S128_S128x1_0 : S128.BroadcastsInDim S128x1 (![0] : Fin 1 → Fin S128x1.rank)
  bcast_S4_S1x4_1 : S4.BroadcastsInDim S1x4 (![1] : Fin 1 → Fin S1x4.rank)
  bcast_S128x1_S128x4_0_1 : S128x1.BroadcastsInDim S128x4 (![0, 1] : Fin 2 → Fin S128x4.rank)
  bcast_S1x4_S128x4_0_1 : S1x4.BroadcastsInDim S128x4 (![0, 1] : Fin 2 → Fin S128x4.rank)
  concatenates_S128x4_S128x4_S128x8_d1 : Shape.Concatenates [S128x4, S128x4] S128x8 1
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S10000x8_S10000x8_0_0 : ∀ a, (![0, 0] : Fin 2 → Nat) a + S10000x8.size a ≤ S10000x8.size a
  h_S10000x8 : 0 < S10000x8.numel
  slices_S100000x8_S100000x4_0_0 : S100000x8.Slices ![0, 0] S100000x4
  slices_S100000x8_S100000x4_0_4 : S100000x8.Slices ![0, 4] S100000x4
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x4 : S_.BroadcastsInDim S1600000x4 (![] : Fin 0 → Fin S1600000x4.rank)
  reducesTo_S1600000x4_S_d0_1 : S1600000x4.ReducesTo [0, 1] S_
  h_S_ : 0 < S_.numel
  bcast_S_S100000x4 : S_.BroadcastsInDim S100000x4 (![] : Fin 0 → Fin S100000x4.rank)
  bcast_S4_S4x1_0 : S4.BroadcastsInDim S4x1 (![0] : Fin 1 → Fin S4x1.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S4x128_0_1 : S1x128.BroadcastsInDim S4x128 (![0, 1] : Fin 2 → Fin S4x128.rank)
  bcast_S4x1_S4x128_0_1 : S4x1.BroadcastsInDim S4x128 (![0, 1] : Fin 2 → Fin S4x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x4_S8000x4_0_0 : ∀ a, (![0, 0] : Fin 2 → Nat) a + S8000x4.size a ≤ S8000x4.size a
  h_S8000x4 : 0 < S8000x4.numel
  shapeCasts_S8000x4_S8000x4 : S8000x4.ShapeCasts S8000x4
  inb_S4x128_S4x128_0_0 : ∀ a, (![0, 0] : Fin 2 → Nat) a + S4x128.size a ≤ S4x128.size a
  h_S4x128 : 0 < S4x128.numel
  shapeCasts_S4x128_S4x128 : S4x128.ShapeCasts S4x128
  bcast_S_S100000x128 : S_.BroadcastsInDim S100000x128 (![] : Fin 0 → Fin S100000x128.rank)
  dot_S10000x128_S128x128_S10000x128_1_0_0_1_n_n_wf : DotDims.WF S10000x128 S128x128 S10000x128 [1] [0] [0] [1] [] []
  dot_S10000x128_S128x8_S10000x8_1_0_0_1_n_n_wf : DotDims.WF S10000x128 S128x8 S10000x8 [1] [0] [0] [1] [] []
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  gather_S100000x128_S1600000x1_S1600000x128_1_0_n_n_0_1_1128_wf : GatherDims.WF S100000x128 S1600000x1 S1600000x128 [1] [0] [] [0] [] 1 ![1, 128]
  dot_S8000x4_S4x128_S8000x128_1_0_0_1_n_n_wf : DotDims.WF S8000x4 S4x128 S8000x128 [1] [0] [0] [1] [] []
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x8.size a ≤ S128x8.size a
  hwx0_2 : ∀ i : grid0.Coords, EltTy.bits .bf16 = 32 ∨ (Rect.block (s := S128x8) S128x8.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x8.size a ≤ S100000x8.size a
  hwx0_4 : ∀ i : grid0.Coords, EltTy.bits .f32 = 32 ∨ (Rect.block (s := S100000x8) S10000x8.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1600000x128.size a
  hwx1_0 : ∀ i : grid1.Coords, EltTy.bits .f32 = 32 ∨ (Rect.block (s := S1600000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x4.size a ≤ S1600000x4.size a
  hwx1_1 : ∀ i : grid1.Coords, EltTy.bits .f32 = 32 ∨ (Rect.block (s := S1600000x4) S8000x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x128.size a ≤ S4x128.size a
  hwx1_2 : ∀ i : grid1.Coords, EltTy.bits .f32 = 32 ∨ (Rect.block (s := S4x128) S4x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S1600000x128.size a
  hwx1_3 : ∀ i : grid1.Coords, EltTy.bits .f32 = 32 ∨ (Rect.block (s := S1600000x128) S8000x128.size (cc1_transform_3 i) (hinb1_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x8_S10000x8_1_0_0_1_n_n : DotDims S10000x128 S128x8 S10000x8 where
  lhsContracting := [1]
  rhsContracting := [0]
  lhsNonContracting := [0]
  rhsNonContracting := [1]
  lhsBatch := []
  rhsBatch := []
  wf := dot_S10000x128_S128x8_S10000x8_1_0_0_1_n_n_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S8000x4_S4x128_S8000x128_1_0_0_1_n_n : DotDims S8000x4 S4x128 S8000x128 where
  lhsContracting := [1]
  rhsContracting := [0]
  lhsNonContracting := [0]
  rhsNonContracting := [1]
  lhsBatch := []
  rhsBatch := []
  wf := dot_S8000x4_S4x128_S8000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23_1) S10000x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v65) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S8000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v74) S4x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v75) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S1x4x32 : Shape := ⟨3, ![1, 4, 32]⟩
abbrev S100000x4x32 : Shape := ⟨3, ![100000, 4, 32]⟩
abbrev S_ : Shape := ⟨0, ![]⟩
abbrev S100000x4 : Shape := ⟨2, ![100000, 4]⟩
abbrev S1x1600000 : Shape := ⟨2, ![1, 1600000]⟩
abbrev S1600000 : Shape := ⟨1, ![1600000]⟩
abbrev S1600000x1 : Shape := ⟨2, ![1600000, 1]⟩
abbrev S1600000x4 : Shape := ⟨2, ![1600000, 4]⟩
abbrev S1600000x4x32 : Shape := ⟨3, ![1600000, 4, 32]⟩
abbrev S1600000x4x1 : Shape := ⟨3, ![1600000, 4, 1]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S1x4x32, .f32⟩
  | .hbm, ⟨4, _⟩ => ⟨S1x4x32, .f32⟩
  | .hbm, ⟨5, _⟩ => ⟨S100000x128, .f32⟩
  | .hbm, ⟨6, _⟩ => ⟨S100000x4x32, .f32⟩
  | .hbm, ⟨7, _⟩ => ⟨S100000x4x32, .f32⟩
  | .hbm, ⟨8, _⟩ => ⟨S100000x4x32, .f32⟩
  | .hbm, ⟨9, _⟩ => ⟨S_, .f32⟩
  | .hbm, ⟨10, _⟩ => ⟨S100000x4, .f32⟩
  | .hbm, ⟨11, _⟩ => ⟨S100000x4x32, .f32⟩
  | .hbm, ⟨12, _⟩ => ⟨S100000x4x32, .f32⟩
  | .hbm, ⟨13, _⟩ => ⟨S_, .f32⟩
  | .hbm, ⟨14, _⟩ => ⟨S100000x4, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x4, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x4, .f32⟩
  | .hbm, ⟨37, _⟩ => ⟨S1600000x4, .f32⟩
  | .hbm, ⟨38, _⟩ => ⟨S_, .f32⟩
  | .hbm, ⟨39, _⟩ => ⟨S_, .f32⟩
  | .hbm, ⟨40, _⟩ => ⟨S1600000x4, .f32⟩
  | .hbm, ⟨41, _⟩ => ⟨S1600000x4, .i1⟩
  | .hbm, ⟨42, _⟩ => ⟨S_, .f32⟩
  | .hbm, ⟨43, _⟩ => ⟨S1600000x4, .f32⟩
  | .hbm, ⟨44, _⟩ => ⟨S1600000x4, .f32⟩
  | .hbm, ⟨45, _⟩ => ⟨S1600000x4, .f32⟩
  | .hbm, ⟨46, _⟩ => ⟨S_, .f32⟩
  | .hbm, ⟨47, _⟩ => ⟨S_, .f32⟩
  | .hbm, ⟨48, _⟩ => ⟨S1600000x4, .f32⟩
  | .hbm, ⟨49, _⟩ => ⟨S1600000x4, .f32⟩
  | .hbm, ⟨50, _⟩ => ⟨S1600000x4, .f32⟩
  | .hbm, ⟨51, _⟩ => ⟨S_, .f32⟩
  | .hbm, ⟨52, _⟩ => ⟨S100000x4, .f32⟩
  | .hbm, ⟨53, _⟩ => ⟨S1600000x1, .i32⟩
  | .hbm, ⟨54, _⟩ => ⟨S100000x4, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x4, .f32⟩
  | .hbm, ⟨64, _⟩ => ⟨S_, .f32⟩
  | .hbm, ⟨65, _⟩ => ⟨S1600000x4, .f32⟩
  | .hbm, ⟨66, _⟩ => ⟨S1600000x4, .f32⟩
  | .hbm, ⟨67, _⟩ => ⟨S1600000x4, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x4x32, .f32⟩
  | .hbm, ⟨77, _⟩ => ⟨S1600000x4x1, .f32⟩
  | .hbm, ⟨78, _⟩ => ⟨S1600000x4x32, .f32⟩
  | .hbm, ⟨79, _⟩ => ⟨S1600000x4x32, .f32⟩
  | .hbm, ⟨80, _⟩ => ⟨S_, .f32⟩
  | .hbm, ⟨81, _⟩ => ⟨S100000x4x32, .f32⟩
  | .hbm, ⟨82, _⟩ => ⟨S1600000x1, .i32⟩
  | .hbm, ⟨83, _⟩ => ⟨S100000x4x32, .f32⟩
  | .hbm, ⟨84, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_c_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]

class Facts₀ : Prop where
  shapeCasts_S100000x128_S100000x4x32 : S100000x128.ShapeCasts S100000x4x32
  bcast_S1x4x32_S100000x4x32_0_1_2 : S1x4x32.BroadcastsInDim S100000x4x32 (![0, 1, 2] : Fin 3 → Fin S100000x4x32.rank)
  reducesTo_S100000x4x32_S100000x4_d2 : S100000x4x32.ReducesTo [2] S100000x4
  h_S_ : 0 < S_.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x4 : S_.BroadcastsInDim S1600000x4 (![] : Fin 0 → Fin S1600000x4.rank)
  reducesTo_S1600000x4_S_d0_1 : S1600000x4.ReducesTo [0, 1] S_
  bcast_S_S100000x4 : S_.BroadcastsInDim S100000x4 (![] : Fin 0 → Fin S100000x4.rank)
  bcast_S1600000x4_S1600000x4x1_0_1 : S1600000x4.BroadcastsInDim S1600000x4x1 (![0, 1] : Fin 2 → Fin S1600000x4x1.rank)
  bcast_S1600000x4x1_S1600000x4x32_0_1_2 : S1600000x4x1.BroadcastsInDim S1600000x4x32 (![0, 1, 2] : Fin 3 → Fin S1600000x4x32.rank)
  bcast_S_S100000x4x32 : S_.BroadcastsInDim S100000x4x32 (![] : Fin 0 → Fin S100000x4x32.rank)
  shapeCasts_S100000x4x32_S100000x128 : S100000x4x32.ShapeCasts S100000x128
  dot_S100000x128_S128x128_S100000x128_1_0_0_1_n_n_wf : DotDims.WF S100000x128 S128x128 S100000x128 [1] [0] [0] [1] [] []
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  gather_S100000x4x32_S1600000x1_S1600000x4x32_12_0_n_n_0_1_1432_wf : GatherDims.WF S100000x4x32 S1600000x1 S1600000x4x32 [1, 2] [0] [] [0] [] 1 ![1, 4, 32]
  scatter_S100000x4x32_S1600000x1_S1600000x4x32_12_0_0_1_wf : ScatterDims.WF S100000x4x32 S1600000x1 S1600000x4x32 [1, 2] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def gather_S100000x4x32_S1600000x1_S1600000x4x32_12_0_n_n_0_1_1432 : GatherDims S100000x4x32 S1600000x1 S1600000x4x32 where
  offsetDims := [1, 2]
  collapsedSliceDims := [0]
  operandBatchingDims := []
  startIndicesBatchingDims := []
  startIndexMap := [0]
  indexVectorDim := 1
  sliceSizes := ![1, 4, 32]
  wf := gather_S100000x4x32_S1600000x1_S1600000x4x32_12_0_n_n_0_1_1432_wf
def scatter_S100000x4x32_S1600000x1_S1600000x4x32_12_0_0_1 : ScatterDims S100000x4x32 S1600000x1 S1600000x4x32 where
  updateWindowDims := [1, 2]
  insertedWindowDims := [0]
  scatterDimsToOperandDims := [0]
  indexVectorDim := 1
  wf := scatter_S100000x4x32_S1600000x1_S1600000x4x32_12_0_0_1_wf

class Facts : Prop extends Facts₀ where

variable [Facts]
-- ==== Proof.KernelRun.lean ====
/-
  The idealized kernel's run with its result NAMED.

  @main is eleven segments: host stretches and two pipelined regions. The generated frame module folds the
  TensorCore's buffer contents through them (`Gen.W0 … Gen.W11`) and shows that every weakly fair execution ends with
  every unscoped buffer at the last boundary's contents `W11`. Its frame theorem keeps of that only the five argument
  arrays; here the same launch is read once more at the result buffer too, so that the value proof can speak of
  `W11 … main_v78`: the scatter-add of the second region's output rows over the destination nodes.
-/
import proofs.«171934_j74148315398470_2_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, the result buffer holds the last boundary's
    contents, and the five argument arrays are as launched. -/
theorem run : θ_run defs (onTc (τ := τ) (main (F := F))) ⟨m, fun _ => 0, ρ⟩ (fun r => ∀ c : Dev nD,
      r.2.mem ((c.tc : Thread nD τ).loc main_v78) = W11 m ρ c (Proc.devRef .tc main_v78)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v78 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c)⟩)

end Cert.KernelIdeal.NamedRun

end
-- ==== Proof.EdgeStages.lean ====
/-
  The host operations between and after the kernel's two regions, as pure terms in named stages.

  Each definition is the literal composition of the printed host operations, read at the ideal float instance, as a
  function of the arrays it starts from: the two rows of the edge list; a row used as gather indices (negative entries
  wrapped by the node count) or as scatter indices (as it is); the two halves of the score array; the pre-activation
  s_src[src] + s_dst[dst]; the leaky rectifier; the exponential shifted by the global maximum; the per-destination
  sums and the normalised weights; the gathered projections; and the final sum over incoming edges.
-/
import proofs.«171934_j74148315398470_2_alg».proof.KernelIdeal
import Idealize.ShloMosaic.PureOps.Ideal

noncomputable section

namespace Cert.KernelIdeal.EdgeStages

open Cert.KernelIdeal Idealize.ShloMosaic Idealize.SL.Sem

variable [Facts]
open Facts₀ Facts

/-- Row 0 of the edge list: each edge's source node. -/
def srcRow (adj : IVec S2x1600000 32) : IVec S1600000 32 :=
  shapeCast S1600000 (extractStridedSlice S1x1600000 ![0, 0] adj slices_S2x1600000_S1x1600000_0_0) shapeCasts_S1x1600000_S1600000

/-- Row 1 of the edge list: each edge's destination node. -/
def dstRow (adj : IVec S2x1600000 32) : IVec S1600000 32 :=
  shapeCast S1600000 (extractStridedSlice S1x1600000 ![1, 0] adj slices_S2x1600000_S1x1600000_1_0) shapeCasts_S1x1600000_S1600000

/-- A row as gather indices: a negative entry is wrapped by adding the node count, then one index per edge. -/
def normIdx (row : IVec S1600000 32) : IVec S1600000x1 32 :=
  broadcastInDim S1600000x1 ![0] bcast_S1600000_S1600000x1_0
    (select (cmpi .slt row (broadcastInDim S1600000 ![] bcast_S_S1600000 (constantI S_ 32 0#32)))
      (addi row (broadcastInDim S1600000 ![] bcast_S_S1600000 (constantI S_ 32 100000#32))) row)

/-- A row as scatter indices: as it is, one index per edge. -/
def rawIdx (row : IVec S1600000 32) : IVec S1600000x1 32 :=
  broadcastInDim S1600000x1 ![0] bcast_S1600000_S1600000x1_0 row

/-- The source half (columns 0–3) of the score array. -/
def headsL (s : FVec Ideal S100000x8 .f32) : FVec Ideal S100000x4 .f32 :=
  extractStridedSlice S100000x4 ![0, 0] s slices_S100000x8_S100000x4_0_0

/-- The destination half (columns 4–7) of the score array. -/
def headsR (s : FVec Ideal S100000x8 .f32) : FVec Ideal S100000x4 .f32 :=
  extractStridedSlice S100000x4 ![0, 4] s slices_S100000x8_S100000x4_0_4

/-- Per edge and head: the source score of the edge's source plus the destination score of its destination. -/
def preact (ssrc sdst : FVec Ideal S100000x4 .f32) (src dst : IVec S1600000 32) : FVec Ideal S1600000x4 .f32 :=
  addf (F := Ideal) (Host.gather gather_S100000x4_S1600000x1_S1600000x4_1_0_n_n_0_1_14 ssrc (normIdx src))
    (Host.gather gather_S100000x4_S1600000x1_S1600000x4_1_0_n_n_0_1_14 sdst (normIdx dst))

/-- The leaky rectifier with slope 0.2: e where e ≥ 0, 0.2·e elsewhere. -/
def leaky (e : FVec Ideal S1600000x4 .f32) : FVec Ideal S1600000x4 .f32 :=
  select (cmpf (F := Ideal) .oge e (broadcastInDim S1600000x4 ![] bcast_S_S1600000x4 (constant (F := Ideal) S_ .f32 0x00000000#32))) e
    (mulf (F := Ideal) (broadcastInDim S1600000x4 ![] bcast_S_S1600000x4 (id (constant (F := Ideal) S_ .f32 0x3E4CCCCD#32))) e)

/-- exp (e − max e), the maximum over every edge and head. -/
def expo (e : FVec Ideal S1600000x4 .f32) : FVec Ideal S1600000x4 .f32 :=
  Host.exp (F := Ideal) (subf (F := Ideal) e (broadcastInDim S1600000x4 ![] bcast_S_S1600000x4
    (Host.reduce FloatOps.maximumf e (constant (F := Ideal) S_ .f32 0xFF800000#32) reducesTo_S1600000x4_S_d0_1 h_S_)))

/-- Per node and head: the sum of the exponentials over the edges arriving at the node. -/
def denom (ex : FVec Ideal S1600000x4 .f32) (dst : IVec S1600000 32) : FVec Ideal S100000x4 .f32 :=
  Host.scatterAdd (F := Ideal) scatter_S100000x4_S1600000x1_S1600000x4_1_0_0_1
    (broadcastInDim S100000x4 ![] bcast_S_S100000x4 (constant (F := Ideal) S_ .f32 0x00000000#32)) (rawIdx dst) ex

/-- The attention weights: each exponential over (its destination's sum + 1e-16). -/
def normalize (ex : FVec Ideal S1600000x4 .f32) (dst : IVec S1600000 32) : FVec Ideal S1600000x4 .f32 :=
  Host.divf (F := Ideal) ex (addf (F := Ideal) (Host.gather gather_S100000x4_S1600000x1_S1600000x4_1_0_n_n_0_1_14 (denom ex dst) (normIdx dst))
    (broadcastInDim S1600000x4 ![] bcast_S_S1600000x4 (constant (F := Ideal) S_ .f32 0x24E69595#32)))

/-- The attention weights from the two score halves and the two rows of the edge list. -/
def alpha (ssrc sdst : FVec Ideal S100000x4 .f32) (src dst : IVec S1600000 32) : FVec Ideal S1600000x4 .f32 :=
  normalize (expo (leaky (preact ssrc sdst src dst))) dst

/-- Per edge: the projection row of its source node. -/
def projSrc (P : FVec Ideal S100000x128 .f32) (src : IVec S1600000 32) : FVec Ideal S1600000x128 .f32 :=
  Host.gather gather_S100000x128_S1600000x1_S1600000x128_1_0_n_n_0_1_1128 P (normIdx src)

/-- Per node: the sum of the weighted rows of the edges arriving at it. -/
def aggregate (wt : FVec Ideal S1600000x128 .f32) (dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) (rawIdx dst) wt

end Cert.KernelIdeal.EdgeStages

end
-- ==== Proof.HostFold.lean ====
/-
  The buffer contents at the kernel's segment boundaries, read as the stage terms.

  The generated frame folds the TensorCore's buffers through @main's host stretches and regions. Here each stretch is
  opened once, over an arbitrary valuation it starts from: the buffers it writes are the stage terms of the buffers it
  reads, and the buffers it does not write are as before.
-/
import proofs.«171934_j74148315398470_2_alg».proof.Proof.Gen.KernelIdeal.Frame
import proofs.«171934_j74148315398470_2_alg».proof.Proof.EdgeStages
import Idealize.ShloMosaic.Lib.StableHlo.Run
import Idealize.ShloMosaic.PureOps.Ideal

set_option maxRecDepth 16384

noncomputable section

namespace Cert.KernelIdeal.HostFold

open Idealize.ShloMosaic Idealize.ShloMosaic.TcCoe Idealize.SL.Sem
open Cert.KernelIdeal Cert.KernelIdeal.Gen Cert.KernelIdeal.EdgeStages

/-- A buffer no operation of a stretch writes is, after the stretch, as before it. -/
macro "unwritten " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem keep_v1_s0_1 (Z : Valuation τ sig (Elt Ideal)) :
    StableHlo.after (hostOps0_1 (F := Ideal)) Z (Proc.devRef .tc main_v1) = Z (Proc.devRef .tc main_v1) := by unwritten hostOps0_1
theorem keep_v1_s0_2 (Z : Valuation τ sig (Elt Ideal)) :
    StableHlo.after (hostOps0_2 (F := Ideal)) Z (Proc.devRef .tc main_v1) = Z (Proc.devRef .tc main_v1) := by unwritten hostOps0_2
theorem keep_v3_s0_1 (Z : Valuation τ sig (Elt Ideal)) :
    StableHlo.after (hostOps0_1 (F := Ideal)) Z (Proc.devRef .tc main_v3) = Z (Proc.devRef .tc main_v3) := by unwritten hostOps0_1
theorem keep_v3_s0_2 (Z : Valuation τ sig (Elt Ideal)) :
    StableHlo.after (hostOps0_2 (F := Ideal)) Z (Proc.devRef .tc main_v3) = Z (Proc.devRef .tc main_v3) := by unwritten hostOps0_2
theorem keep_v1_s1 (Z : Valuation τ sig (Elt Ideal)) :
    StableHlo.after (hostOps1 (F := Ideal)) Z (Proc.devRef .tc main_v1) = Z (Proc.devRef .tc main_v1) := by unwritten hostOps1
theorem keep_v1_s1_1 (Z : Valuation τ sig (Elt Ideal)) :
    StableHlo.after (hostOps1_1 (F := Ideal)) Z (Proc.devRef .tc main_v1) = Z (Proc.devRef .tc main_v1) := by unwritten hostOps1_1
theorem keep_v3_s1 (Z : Valuation τ sig (Elt Ideal)) :
    StableHlo.after (hostOps1 (F := Ideal)) Z (Proc.devRef .tc main_v3) = Z (Proc.devRef .tc main_v3) := by unwritten hostOps1
theorem keep_v3_s1_1 (Z : Valuation τ sig (Elt Ideal)) :
    StableHlo.after (hostOps1_1 (F := Ideal)) Z (Proc.devRef .tc main_v3) = Z (Proc.devRef .tc main_v3) := by unwritten hostOps1_1
theorem keep_v3_s1_2 (Z : Valuation τ sig (Elt Ideal)) :
    StableHlo.after (hostOps1_2 (F := Ideal)) Z (Proc.devRef .tc main_v3) = Z (Proc.devRef .tc main_v3) := by unwritten hostOps1_2
theorem keep_v3_s1_3 (Z : Valuation τ sig (Elt Ideal)) :
    StableHlo.after (hostOps1_3 (F := Ideal)) Z (Proc.devRef .tc main_v3) = Z (Proc.devRef .tc main_v3) := by unwritten hostOps1_3
theorem keep_v3_s1_4 (Z : Valuation τ sig (Elt Ideal)) :
    StableHlo.after (hostOps1_4 (F := Ideal)) Z (Proc.devRef .tc main_v3) = Z (Proc.devRef .tc main_v3) := by unwritten hostOps1_4
theorem keep_v23_0_s1 (Z : Valuation τ sig (Elt Ideal)) :
    StableHlo.after (hostOps1 (F := Ideal)) Z (Proc.devRef .tc main_v23_0) = Z (Proc.devRef .tc main_v23_0) := by unwritten hostOps1
theorem keep_v23_0_s1_1 (Z : Valuation τ sig (Elt Ideal)) :
    StableHlo.after (hostOps1_1 (F := Ideal)) Z (Proc.devRef .tc main_v23_0) = Z (Proc.devRef .tc main_v23_0) := by unwritten hostOps1_1
theorem keep_v58_s1_3 (Z : Valuation τ sig (Elt Ideal)) :
    StableHlo.after (hostOps1_3 (F := Ideal)) Z (Proc.devRef .tc main_v58) = Z (Proc.devRef .tc main_v58) := by unwritten hostOps1_3
theorem keep_v58_s1_4 (Z : Valuation τ sig (Elt Ideal)) :
    StableHlo.after (hostOps1_4 (F := Ideal)) Z (Proc.devRef .tc main_v58) = Z (Proc.devRef .tc main_v58) := by unwritten hostOps1_4
theorem keep_v65_s1_3 (Z : Valuation τ sig (Elt Ideal)) :
    StableHlo.after (hostOps1_3 (F := Ideal)) Z (Proc.devRef .tc main_v65) = Z (Proc.devRef .tc main_v65) := by unwritten hostOps1_3
theorem keep_v65_s1_4 (Z : Valuation τ sig (Elt Ideal)) :
    StableHlo.after (hostOps1_4 (F := Ideal)) Z (Proc.devRef .tc main_v65) = Z (Proc.devRef .tc main_v65) := by unwritten hostOps1_4
theorem keep_arg0_s0 (Z : Valuation τ sig (Elt Ideal)) :
    StableHlo.after (hostOps0 (F := Ideal)) Z (Proc.devRef .tc main_arg0) = Z (Proc.devRef .tc main_arg0) := by unwritten hostOps0
theorem keep_arg0_s0_1 (Z : Valuation τ sig (Elt Ideal)) :
    StableHlo.after (hostOps0_1 (F := Ideal)) Z (Proc.devRef .tc main_arg0) = Z (Proc.devRef .tc main_arg0) := by unwritten hostOps0_1
theorem keep_arg0_s0_2 (Z : Valuation τ sig (Elt Ideal)) :
    StableHlo.after (hostOps0_2 (F := Ideal)) Z (Proc.devRef .tc main_arg0) = Z (Proc.devRef .tc main_arg0) := by unwritten hostOps0_2
theorem keep_arg2_s0 (Z : Valuation τ sig (Elt Ideal)) :
    StableHlo.after (hostOps0 (F := Ideal)) Z (Proc.devRef .tc main_arg2) = Z (Proc.devRef .tc main_arg2) := by unwritten hostOps0
theorem keep_arg2_s0_1 (Z : Valuation τ sig (Elt Ideal)) :
    StableHlo.after (hostOps0_1 (F := Ideal)) Z (Proc.devRef .tc main_arg2) = Z (Proc.devRef .tc main_arg2) := by unwritten hostOps0_1
theorem keep_arg2_s0_2 (Z : Valuation τ sig (Elt Ideal)) :
    StableHlo.after (hostOps0_2 (F := Ideal)) Z (Proc.devRef .tc main_arg2) = Z (Proc.devRef .tc main_arg2) := by unwritten hostOps0_2

/-! ## The stretches, opened -/

/-- The first stretch leaves the two rows of the edge list. -/
theorem s0_src (Z : Valuation τ sig (Elt Ideal)) :
    StableHlo.after (hostOps0 (F := Ideal)) Z (Proc.devRef .tc main_v1) = srcRow (Z (Proc.devRef .tc main_arg1)) := by
  after_results; rfl
theorem s0_dst (Z : Valuation τ sig (Elt Ideal)) :
    StableHlo.after (hostOps0 (F := Ideal)) Z (Proc.devRef .tc main_v3) = dstRow (Z (Proc.devRef .tc main_arg1)) := by
  after_results; rfl

/-- After the first region: the pre-activation from the two halves of the score array and the two rows. -/
theorem s1_preact (Z : Valuation τ sig (Elt Ideal)) :
    StableHlo.after (hostOps1 (F := Ideal)) Z (Proc.devRef .tc main_v40)
      = preact (headsL (Z (Proc.devRef .tc main_v23_1))) (headsR (Z (Proc.devRef .tc main_v23_1)))
          (Z (Proc.devRef .tc main_v1)) (Z (Proc.devRef .tc main_v3)) := by
  after_results_simp; rfl
theorem s1_slope (Z : Valuation τ sig (Elt Ideal)) :
    StableHlo.after (hostOps1 (F := Ideal)) Z (Proc.devRef .tc main_cst) = constant (F := Ideal) S_ .f32 0x3E4CCCCD#32 := by
  after_results_simp

/-- The rectifier with its slope as an argument (the call receives the slope in a buffer). -/
def leakyWith (k : FVec Ideal S_ .f32) (e : FVec Ideal S1600000x4 .f32) : FVec Ideal S1600000x4 .f32 :=
  select (cmpf (F := Ideal) .oge e (broadcastInDim S1600000x4 ![] Facts₀.bcast_S_S1600000x4 (constant (F := Ideal) S_ .f32 0x00000000#32))) e
    (mulf (F := Ideal) (broadcastInDim S1600000x4 ![] Facts₀.bcast_S_S1600000x4 (id k)) e)

theorem leakyWith_slope (e : FVec Ideal S1600000x4 .f32) : leakyWith (constant (F := Ideal) S_ .f32 0x3E4CCCCD#32) e = leaky e := rfl

/-- The rectifier call. -/
theorem s11_leaky (Z : Valuation τ sig (Elt Ideal)) :
    StableHlo.after (hostOps1_1 (F := Ideal)) Z (Proc.devRef .tc main_v41)
      = leakyWith (Z (Proc.devRef .tc main_cst)) (Z (Proc.devRef .tc main_v40)) := by
  after_results; rfl

/-- The weights and the gathered projections. -/
theorem s12_alpha (Z : Valuation τ sig (Elt Ideal)) :
    StableHlo.after (hostOps1_2 (F := Ideal)) Z (Proc.devRef .tc main_v58)
      = normalize (expo (Z (Proc.devRef .tc main_v41))) (Z (Proc.devRef .tc main_v3)) := by
  after_results_simp; rfl
theorem s12_proj (Z : Valuation τ sig (Elt Ideal)) :
    StableHlo.after (hostOps1_2 (F := Ideal)) Z (Proc.devRef .tc main_v65)
      = projSrc (Z (Proc.devRef .tc main_v23_0)) (Z (Proc.devRef .tc main_v1)) := by
  after_results_simp; rfl

/-- The last stretch: the sum over incoming edges. -/
theorem s2_out (Z : Valuation τ sig (Elt Ideal)) :
    StableHlo.after (hostOps2 (F := Ideal)) Z (Proc.devRef .tc main_v78)
      = aggregate (Z (Proc.devRef .tc main_v75)) (Z (Proc.devRef .tc main_v3)) := by
  after_results; rfl

end Cert.KernelIdeal.HostFold

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.LibMatProd.lean ====
/-
  The product of an M×K and a K×N array of extended reals as ONE function of the two arrays: entry (i, q) is the sum over
  k of l(i, k) · r(k, q). A host dot product with plain matrix-product dimension numbers, and a matrix-unit product into
  a zero accumulator, are that function at the ideal instance; and an entry of the product depends only on row i of the
  left operand and column q of the right one, so the product of a block of rows with the right operand is that block of
  rows of the whole product.
-/
import proofs.«171934_j74148315398470_2_alg».proof.Proof.LibDotPlain

noncomputable section

open scoped BigOperators

namespace Idealize.ShloMosaic.MatProd

open Idealize.ShloMosaic Idealize.ShloMosaic.ValueIdx Idealize.ShloMosaic.DotPlain

/-- Entry (i, q) of the product: the sum over k of l(i, k) · r(k, q). -/
def matProd {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

variable {M K N : Nat} {d : DotDims ⟨2, ![M, K]⟩ ⟨2, ![K, N]⟩ ⟨2, ![M, N]⟩}

/-- A host dot product with plain dimension numbers is the product. -/
theorem dotGeneral_eq (h : IsPlain d) (prec : Option ContractPrecision) {φ₁ φ₂ : FTy}
    (l : FVec Ideal ⟨2, ![M, K]⟩ φ₁) (r : FVec Ideal ⟨2, ![K, N]⟩ φ₂) :
    Host.dotGeneral d prec l r = matProd l r :=
  funext fun j => DotPlain.dotGeneral_apply h prec l r j

/-- A matrix-unit product into a zero accumulator is the product, at an entry. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = matProd l r j :=
  DotPlain.matmul_zero_apply h prec l r j

/-- An entry of a product of a block of rows (and a copy of the right operand) is the entry of the whole product whose
    row the block's row is: the sums agree term by term. -/
theorem matProd_of_rows {B : Nat} (lb : (⟨2, ![B, K]⟩ : Shape).Idx → EReal) (rb : (⟨2, ![K, N]⟩ : Shape).Idx → EReal)
    (l : (⟨2, ![M, K]⟩ : Shape).Idx → EReal) (r : (⟨2, ![K, N]⟩ : Shape).Idx → EReal)
    (p : Fin B) (q : Fin N) (i : Fin M)
    (hl : ∀ k : Fin K, lb (ix2 p k) = l (ix2 i k)) (hr : ∀ k : Fin K, rb (ix2 k q) = r (ix2 k q)) :
    matProd lb rb (ix2 p q) = matProd l r (ix2 i q) :=
  Finset.sum_congr rfl fun k _ => by
    show lb (ix2 p k) * rb (ix2 k q) = l (ix2 i k) * r (ix2 k q)
    rw [hl k, hr k]

end Idealize.ShloMosaic.MatProd

end
-- ==== Proof.NodeRegion.lean ====
/-
  The first pipelined region (the node projection), read as values at the ideal instance.

  At grid point t the region stages rows 10000·t … 10000·t + 9999 of x, all of W and all of the attention matrix A, and
  writes back two blocks: the block's rows of x·W, and those rows of (x·W)·A. A matrix product's entry (i, q) depends only
  on row i of the left factor, so the block written at t is the block of rows of the WHOLE product; the ten blocks
  cover all 100000 rows, so after the region the two output arrays are x·W and (x·W)·A of the arrays the region found.
  (Rounding to bf16 on the way into the matrix unit is the identity on extended reals.)
-/
import proofs.«171934_j74148315398470_2_alg».proof.Proof.Gen.KernelIdeal.Frame
import proofs.«171934_j74148315398470_2_alg».proof.Proof.LibMatProd
import Idealize.ShloMosaic.Lib.Pipeline.Value
import Idealize.ShloMosaic.Lib.ValueIdx

set_option maxRecDepth 16384

noncomputable section

open scoped BigOperators

namespace Cert.KernelIdeal.NodeRegion

open Idealize.ShloMosaic Idealize.ShloMosaic.TcCoe Idealize.SL.Sem
open Idealize.ShloMosaic.ValueIdx Idealize.ShloMosaic.MatProd Idealize.ShloMosaic.DotPlain
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

theorem plain_proj : IsPlain dot_S10000x128_S128x128_S10000x128_1_0_0_1_n_n := ⟨rfl, rfl, rfl, rfl, rfl, rfl⟩
theorem plain_score : IsPlain dot_S10000x128_S128x8_S10000x8_1_0_0_1_n_n := ⟨rfl, rfl, rfl, rfl, rfl, rfl⟩

/-- The first stored value is the product of the two loaded blocks. -/
theorem pay_proj (v0 : Vec Ideal S10000x128 .f32) (v2 : Vec Ideal S128x128 .f32) :
    k0_pay1 v0 v2 = matProd v0 v2 :=
  funext fun j => by
    unfold k0_pay1
    exact MatProd.matmul_zero_apply plain_proj none _ _ j

/-- The second stored value is the product of the first with the loaded attention block. -/
theorem pay_score (v0 : Vec Ideal S10000x128 .f32) (v2 : Vec Ideal S128x128 .f32) (v7 : Vec Ideal S128x8 .bf16) :
    k0_pay2 v0 v2 v7 = matProd (matProd v0 v2) v7 :=
  funext fun j => by
    unfold k0_pay2
    rw [pay_proj, shapeCast_self]
    exact MatProd.matmul_zero_apply plain_score none _ _ j

/-- The printed index maps over the ten grid points: x's window and both outputs' windows are on block row t, the
    windows of W and of the attention matrix on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of x's block at t is row 10000·t + p of x. -/
theorem xblk_apply (c : Dev nD) (t : Fin cfg0.N) (p : Fin 10000) (k : Fin 128) (i : Fin 100000)
    (hi : i.val = t.val * 10000 + p.val) :
    (iblk0 V c 0 t : Vec Ideal S10000x128 .f32) (ix2 p k) = (V c main_arg0 : S100000x128.Idx → EReal) (ix2 i k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 10000 + 1 * p.val = i.val; rw [e0, hi]; omega
  | ⟨1, _⟩ => show win0_0.index t (1 : Fin 2) * 128 + 1 * k.val = k.val; rw [e1]; omega

/-- The block of W at any point is W. -/
theorem wblk_apply (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The block of the attention matrix at any point is the matrix. -/
theorem ablk_apply (c : Dev nD) (t : Fin cfg0.N) (k : Fin 128) (q : Fin 8) :
    (iblk0 V c 2 t : Vec Ideal S128x8 .bf16) (ix2 k q) = (V c main_v22 : S128x8.Idx → EReal) (ix2 k q) := by
  obtain ⟨-, -, -, -, e4, e5, -⟩ := idx_facts t
  unfold iblk0
  rw [View.read_apply]
  show V c main_v22 _ = V c main_v22 _
  congr 1
  funext a
  apply Fin.ext
  match a with
  | ⟨0, _⟩ => show win0_2.index t (0 : Fin 2) * 128 + 1 * k.val = k.val; rw [e4]; omega
  | ⟨1, _⟩ => show win0_2.index t (1 : Fin 2) * 8 + 1 * q.val = q.val; rw [e5]; omega

/-- Where the block of an output window at t sits: rows 10000·t …, every column. -/
theorem row_lt (t : Fin cfg0.N) (p : Fin 10000) : t.val * 10000 + p.val < 100000 := by
  have h1 := t.isLt
  have h2 : cfg0.N = 10 := N_0
  have h3 := p.isLt
  omega

/-- WHAT POINT t WRITES BACK through the projection's window is block t of x·W. -/
theorem flushed_proj (c : Dev nD) (t : Fin cfg0.N) :
    (dat0 V c).flushed 3 t = ((cfg0.win 3).blk t).view.read (Elt Ideal)
      (matProd (V c main_arg0 : S100000x128.Idx → EReal) (V c main_arg2 : S128x128.Idx → EReal)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz]
  rw [pay_proj]
  obtain ⟨-, -, -, -, -, -, e6, e7, -⟩ := idx_facts t
  funext j
  show matProd (iblk0 V c 0 t) (iblk0 V c 1 t) j
    = matProd (V c main_arg0 : S100000x128.Idx → EReal) (V c main_arg2 : S128x128.Idx → EReal) (((cfg0.win 3).blk t).view.emb j)
  have hj : (j : S10000x128.Idx) = ix2 (j 0) (j 1) := eq_ix2 j
  have he : ((cfg0.win 3).blk t).view.emb j = ix2 (⟨t.val * 10000 + (j 0).val, row_lt t (j 0)⟩ : Fin 100000) (j 1) := by
    funext a; apply Fin.ext
    match a with
    | ⟨0, _⟩ => show win0_3.index t (0 : Fin 2) * 10000 + 1 * (j 0).val = t.val * 10000 + (j 0).val; rw [e6]; omega
    | ⟨1, _⟩ => show win0_3.index t (1 : Fin 2) * 128 + 1 * (j 1).val = (j 1).val; rw [e7]; omega
  rw [he]
  refine (congrArg (matProd (iblk0 V c 0 t) (iblk0 V c 1 t)) hj).trans ?_
  exact matProd_of_rows (iblk0 V c 0 t) (iblk0 V c 1 t) (V c main_arg0 : S100000x128.Idx → EReal) (V c main_arg2 : S128x128.Idx → EReal)
    (j 0) (j 1) ⟨t.val * 10000 + (j 0).val, row_lt t (j 0)⟩
    (fun k => xblk_apply V c t (j 0) k _ rfl) (fun k => wblk_apply V c t k (j 1))

/-- WHAT POINT t WRITES BACK through the scores' window is block t of (x·W)·A. -/
theorem flushed_score (c : Dev nD) (t : Fin cfg0.N) :
    (dat0 V c).flushed 4 t = ((cfg0.win 4).blk t).view.read (Elt Ideal)
      (matProd (matProd (V c main_arg0 : S100000x128.Idx → EReal) (V c main_arg2 : S128x128.Idx → EReal)) (V c main_v22 : S128x8.Idx → EReal)) := by
  show (cfg0.win 4).cut (grid0.coords t) ((dat0 V c).after 4 t) = _
  rw [after0_4]
  unfold out0_4
  rw [View.canon_unit_zero hz]
  simp only [View.ld_unit_zero (S := S10000x128) hz, View.ld_unit_zero (S := S128x128) hz, View.ld_unit_zero (S := S128x8) hz]
  rw [pay_score]
  obtain ⟨-, -, -, -, -, -, -, -, e8, e9⟩ := idx_facts t
  funext j
  show matProd (matProd (iblk0 V c 0 t) (iblk0 V c 1 t)) (iblk0 V c 2 t) j
    = matProd (matProd (V c main_arg0 : S100000x128.Idx → EReal) (V c main_arg2 : S128x128.Idx → EReal)) (V c main_v22 : S128x8.Idx → EReal)
        (((cfg0.win 4).blk t).view.emb j)
  have hj : (j : S10000x8.Idx) = ix2 (j 0) (j 1) := eq_ix2 j
  have he : ((cfg0.win 4).blk t).view.emb j = ix2 (⟨t.val * 10000 + (j 0).val, row_lt t (j 0)⟩ : Fin 100000) (j 1) := by
    funext a; apply Fin.ext
    match a with
    | ⟨0, _⟩ => show win0_4.index t (0 : Fin 2) * 10000 + 1 * (j 0).val = t.val * 10000 + (j 0).val; rw [e8]; omega
    | ⟨1, _⟩ => show win0_4.index t (1 : Fin 2) * 8 + 1 * (j 1).val = (j 1).val; rw [e9]; omega
  rw [he]
  refine (congrArg (matProd (matProd (iblk0 V c 0 t) (iblk0 V c 1 t)) (iblk0 V c 2 t)) hj).trans ?_
  exact matProd_of_rows (matProd (iblk0 V c 0 t) (iblk0 V c 1 t)) (iblk0 V c 2 t)
    (matProd (V c main_arg0 : S100000x128.Idx → EReal) (V c main_arg2 : S128x128.Idx → EReal)) (V c main_v22 : S128x8.Idx → EReal)
    (j 0) (j 1) ⟨t.val * 10000 + (j 0).val, row_lt t (j 0)⟩
    (fun k => matProd_of_rows (iblk0 V c 0 t) (iblk0 V c 1 t) (V c main_arg0 : S100000x128.Idx → EReal) (V c main_arg2 : S128x128.Idx → EReal)
      (j 0) k ⟨t.val * 10000 + (j 0).val, row_lt t (j 0)⟩ (fun k' => xblk_apply V c t (j 0) k' _ rfl) (fun k' => wblk_apply V c t k' k))
    (fun k => ablk_apply V c t k (j 1))

/-- The point whose blocks hold row r. -/
def pointOf (r : Fin 100000) : Fin cfg0.N := ⟨r.val / 10000, by
  have h : cfg0.N = 10 := N_0
  have := r.isLt
  rw [h]; omega⟩

/-- AFTER THE REGION the projection's array is x·W of the arrays the region found: the ten blocks cover it. -/
theorem final_proj (c : Dev nD) :
    (dat0 V c).arrAt 3 cfg0.N = matProd (V c main_arg0 : S100000x128.Idx → EReal) (V c main_arg2 : S128x128.Idx → EReal) :=
  (dat0 V c).arrAt_eq_of_cover 3 _ (fun t _ => flushed_proj V c t) fun i => by
    refine ⟨pointOf (i 0), flush0_3 _, ?_⟩
    obtain ⟨-, -, -, -, -, -, e6, e7, -⟩ := idx_facts (pointOf (i 0))
    show i ∈ ((View.whole main_v23_0).slice (win0_3.rect (pointOf (i 0)))).set
    rw [View.set_slice_whole, Rect.mem_set_unit]
    intro a
    have h0 : (i 0).val < 100000 := (i 0).isLt
    have h1 : (i 1).val < 128 := (i 1).isLt
    have hp : (pointOf (i 0)).val = (i 0).val / 10000 := rfl
    match a with
    | ⟨0, _⟩ =>
      show win0_3.index (pointOf (i 0)) (0 : Fin 2) * 10000 ≤ (i 0).val ∧ (i 0).val < win0_3.index (pointOf (i 0)) (0 : Fin 2) * 10000 + 10000
      rw [e6, hp]; omega
    | ⟨1, _⟩ =>
      show win0_3.index (pointOf (i 0)) (1 : Fin 2) * 128 ≤ (i 1).val ∧ (i 1).val < win0_3.index (pointOf (i 0)) (1 : Fin 2) * 128 + 128
      rw [e7]; omega

/-- AFTER THE REGION the scores' array is (x·W)·A of the arrays the region found. -/
theorem final_score (c : Dev nD) :
    (dat0 V c).arrAt 4 cfg0.N
      = matProd (matProd (V c main_arg0 : S100000x128.Idx → EReal) (V c main_arg2 : S128x128.Idx → EReal)) (V c main_v22 : S128x8.Idx → EReal) :=
  (dat0 V c).arrAt_eq_of_cover 4 _ (fun t _ => flushed_score V c t) fun i => by
    refine ⟨pointOf (i 0), flush0_4 _, ?_⟩
    obtain ⟨-, -, -, -, -, -, -, -, e8, e9⟩ := idx_facts (pointOf (i 0))
    show i ∈ ((View.whole main_v23_1).slice (win0_4.rect (pointOf (i 0)))).set
    rw [View.set_slice_whole, Rect.mem_set_unit]
    intro a
    have h0 : (i 0).val < 100000 := (i 0).isLt
    have h1 : (i 1).val < 8 := (i 1).isLt
    have hp : (pointOf (i 0)).val = (i 0).val / 10000 := rfl
    match a with
    | ⟨0, _⟩ =>
      show win0_4.index (pointOf (i 0)) (0 : Fin 2) * 10000 ≤ (i 0).val ∧ (i 0).val < win0_4.index (pointOf (i 0)) (0 : Fin 2) * 10000 + 10000
      rw [e8, hp]; omega
    | ⟨1, _⟩ =>
      show win0_4.index (pointOf (i 0)) (1 : Fin 2) * 8 ≤ (i 1).val ∧ (i 1).val < win0_4.index (pointOf (i 0)) (1 : Fin 2) * 8 + 8
      rw [e9]; omega

end Cert.KernelIdeal.NodeRegion

end
-- ==== Proof.EdgeRegion.lean ====
/-
  The second pipelined region (the edge weighting), read as values at the ideal instance.

  At grid point t the region stages rows 8000·t … 8000·t + 7999 of the gathered projections P and of the attention
  weights α, and all of the 4×128 head-expansion matrix X, and writes back those rows of P ∘ (α·X): entry (e, c) is
  P(e, c) times the sum over the four heads h of α(e, h)·X(h, c). Row e of the result depends only on row e of P and
  of α, so the block written at t is the block of rows of the WHOLE array, and the two hundred blocks cover all
  1600000 rows.
-/
import proofs.«171934_j74148315398470_2_alg».proof.Proof.Gen.KernelIdeal.Frame
import proofs.«171934_j74148315398470_2_alg».proof.Proof.LibMatProd
import Idealize.ShloMosaic.Lib.Pipeline.Value
import Idealize.ShloMosaic.Lib.ValueIdx

set_option maxRecDepth 16384

noncomputable section

open scoped BigOperators

namespace Cert.KernelIdeal.EdgeRegion

open Idealize.ShloMosaic Idealize.ShloMosaic.TcCoe Idealize.SL.Sem
open Idealize.ShloMosaic.ValueIdx Idealize.ShloMosaic.MatProd Idealize.ShloMosaic.DotPlain
open Cert.KernelIdeal Cert.KernelIdeal.Gen

/-- Rows of projections, each scaled column by column by its row of head weights expanded over the columns. -/
def weightRows {M : Nat} (ps : (⟨2, ![M, 128]⟩ : Shape).Idx → EReal) (al : (⟨2, ![M, 4]⟩ : Shape).Idx → EReal)
    (X : (⟨2, ![4, 128]⟩ : Shape).Idx → EReal) : (⟨2, ![M, 128]⟩ : Shape).Idx → EReal :=
  fun i => ps i * matProd al X i

/-- An entry of the weighted rows of a block of rows (and a copy of the expansion matrix) is the entry of the whole
    arrays' weighted rows on the row the block's row is. -/
theorem weightRows_of_rows {B M : Nat} (pb : (⟨2, ![B, 128]⟩ : Shape).Idx → EReal) (ab : (⟨2, ![B, 4]⟩ : Shape).Idx → EReal)
    (Xb : (⟨2, ![4, 128]⟩ : Shape).Idx → EReal) (p : (⟨2, ![M, 128]⟩ : Shape).Idx → EReal) (a : (⟨2, ![M, 4]⟩ : Shape).Idx → EReal)
    (X : (⟨2, ![4, 128]⟩ : Shape).Idx → EReal) (r : Fin B) (q : Fin 128) (i : Fin M)
    (hp : pb (ix2 r q) = p (ix2 i q)) (ha : ∀ k : Fin 4, ab (ix2 r k) = a (ix2 i k)) (hx : ∀ k : Fin 4, Xb (ix2 k q) = X (ix2 k q)) :
    weightRows pb ab Xb (ix2 r q) = weightRows p a X (ix2 i q) := by
  show pb (ix2 r q) * matProd ab Xb (ix2 r q) = p (ix2 i q) * matProd a X (ix2 i q)
  rw [hp, matProd_of_rows ab Xb a X r q i ha hx]

variable (V : (c : Dev nD) → (b : Ref sig .tc) → Buf (Elt Ideal) ((c : Thread nD τ).loc b))

theorem hz : (![0, 0] : Fin 2 → Nat) = fun _ => 0 := funext fun a => by fin_cases a <;> rfl

theorem plain_edge : IsPlain dot_S8000x4_S4x128_S8000x128_1_0_0_1_n_n := ⟨rfl, rfl, rfl, rfl, rfl, rfl⟩

/-- The stored value is the loaded projections scaled by the expanded loaded weights. -/
theorem pay_edge (v0 : Vec Ideal S8000x128 .f32) (v2 : Vec Ideal S8000x4 .f32) (v4 : Vec Ideal S4x128 .f32) :
    k1_pay1 v0 v2 v4 = weightRows v0 v2 v4 :=
  funext fun j => by
    unfold k1_pay1
    rw [shapeCast_self, shapeCast_self, shapeCast_self]
    show v0 j * _ = v0 j * matProd v2 v4 j
    rw [MatProd.matmul_zero_apply plain_edge (some .fp32)]

/-- The printed index maps over the two hundred grid points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem row_lt (t : Fin cfg1.N) (p : Fin 8000) : t.val * 8000 + p.val < 1600000 := by
  have h1 := t.isLt
  have h2 : cfg1.N = 200 := N_1
  have h3 := p.isLt
  omega

/-- Row p of the projections' block at t is row 8000·t + p of the gathered projections. -/
theorem pblk_apply (c : Dev nD) (t : Fin cfg1.N) (p : Fin 8000) (k : Fin 128) (i : Fin 1600000)
    (hi : i.val = t.val * 8000 + p.val) :
    (iblk1 V c 0 t : Vec Ideal S8000x128 .f32) (ix2 p k) = (V c main_v65 : S1600000x128.Idx → EReal) (ix2 i k) := by
  obtain ⟨e0, e1, -⟩ := idx_facts t
  unfold iblk1
  rw [View.read_apply]
  show V c main_v65 _ = V c main_v65 _
  congr 1
  funext a
  apply Fin.ext
  match a with
  | ⟨0, _⟩ => show win1_0.index t (0 : Fin 2) * 8000 + 1 * p.val = i.val; rw [e0, hi]; omega
  | ⟨1, _⟩ => show win1_0.index t (1 : Fin 2) * 128 + 1 * k.val = k.val; rw [e1]; omega

/-- Row p of the weights' block at t is row 8000·t + p of the weights. -/
theorem ablk_apply (c : Dev nD) (t : Fin cfg1.N) (p : Fin 8000) (k : Fin 4) (i : Fin 1600000)
    (hi : i.val = t.val * 8000 + p.val) :
    (iblk1 V c 1 t : Vec Ideal S8000x4 .f32) (ix2 p k) = (V c main_v58 : S1600000x4.Idx → EReal) (ix2 i k) := by
  obtain ⟨-, -, e2, e3, -⟩ := idx_facts t
  unfold iblk1
  rw [View.read_apply]
  show V c main_v58 _ = V c main_v58 _
  congr 1
  funext a
  apply Fin.ext
  match a with
  | ⟨0, _⟩ => show win1_1.index t (0 : Fin 2) * 8000 + 1 * p.val = i.val; rw [e2, hi]; omega
  | ⟨1, _⟩ => show win1_1.index t (1 : Fin 2) * 4 + 1 * k.val = k.val; rw [e3]; omega

/-- The block of the expansion matrix at any point is the matrix. -/
theorem xblk_apply (c : Dev nD) (t : Fin cfg1.N) (k : Fin 4) (q : Fin 128) :
    (iblk1 V c 2 t : Vec Ideal S4x128 .f32) (ix2 k q) = (V c main_v74 : S4x128.Idx → EReal) (ix2 k q) := by
  obtain ⟨-, -, -, -, e4, e5, -⟩ := idx_facts t
  unfold iblk1
  rw [View.read_apply]
  show V c main_v74 _ = V c main_v74 _
  congr 1
  funext a
  apply Fin.ext
  match a with
  | ⟨0, _⟩ => show win1_2.index t (0 : Fin 2) * 4 + 1 * k.val = k.val; rw [e4]; omega
  | ⟨1, _⟩ => show win1_2.index t (1 : Fin 2) * 128 + 1 * q.val = q.val; rw [e5]; omega

/-- WHAT POINT t WRITES BACK is block t of the weighted rows of the whole arrays. -/
theorem flushed_edge (c : Dev nD) (t : Fin cfg1.N) :
    (dat1 V c).flushed 3 t = ((cfg1.win 3).blk t).view.read (Elt Ideal)
      (weightRows (V c main_v65 : S1600000x128.Idx → EReal) (V c main_v58 : S1600000x4.Idx → EReal) (V c main_v74 : S4x128.Idx → EReal)) := by
  show (cfg1.win 3).cut (grid1.coords t) ((dat1 V c).after 3 t) = _
  rw [after1_3]
  unfold out1_3
  rw [View.canon_unit_zero hz]
  simp only [View.ld_unit_zero (S := S8000x128) hz, View.ld_unit_zero (S := S8000x4) hz, View.ld_unit_zero (S := S4x128) hz]
  rw [pay_edge]
  obtain ⟨-, -, -, -, -, -, e6, e7⟩ := idx_facts t
  funext j
  show weightRows (iblk1 V c 0 t) (iblk1 V c 1 t) (iblk1 V c 2 t) j
    = weightRows (V c main_v65 : S1600000x128.Idx → EReal) (V c main_v58 : S1600000x4.Idx → EReal) (V c main_v74 : S4x128.Idx → EReal)
        (((cfg1.win 3).blk t).view.emb j)
  have hj : (j : S8000x128.Idx) = ix2 (j 0) (j 1) := eq_ix2 j
  have he : ((cfg1.win 3).blk t).view.emb j = ix2 (⟨t.val * 8000 + (j 0).val, row_lt t (j 0)⟩ : Fin 1600000) (j 1) := by
    funext a; apply Fin.ext
    match a with
    | ⟨0, _⟩ => show win1_3.index t (0 : Fin 2) * 8000 + 1 * (j 0).val = t.val * 8000 + (j 0).val; rw [e6]; omega
    | ⟨1, _⟩ => show win1_3.index t (1 : Fin 2) * 128 + 1 * (j 1).val = (j 1).val; rw [e7]; omega
  rw [he]
  refine (congrArg (weightRows (iblk1 V c 0 t) (iblk1 V c 1 t) (iblk1 V c 2 t)) hj).trans ?_
  exact weightRows_of_rows (iblk1 V c 0 t) (iblk1 V c 1 t) (iblk1 V c 2 t)
    (V c main_v65 : S1600000x128.Idx → EReal) (V c main_v58 : S1600000x4.Idx → EReal) (V c main_v74 : S4x128.Idx → EReal)
    (j 0) (j 1) ⟨t.val * 8000 + (j 0).val, row_lt t (j 0)⟩
    (pblk_apply V c t (j 0) (j 1) _ rfl) (fun k => ablk_apply V c t (j 0) k _ rfl) (fun k => xblk_apply V c t k (j 1))

/-- The point whose block holds row r. -/
def pointOf (r : Fin 1600000) : Fin cfg1.N := ⟨r.val / 8000, by
  have h : cfg1.N = 200 := N_1
  have := r.isLt
  rw [h]; omega⟩

/-- AFTER THE REGION the output array is the weighted rows of the arrays the region found. -/
theorem final_edge (c : Dev nD) :
    (dat1 V c).arrAt 3 cfg1.N
      = weightRows (V c main_v65 : S1600000x128.Idx → EReal) (V c main_v58 : S1600000x4.Idx → EReal) (V c main_v74 : S4x128.Idx → EReal) :=
  (dat1 V c).arrAt_eq_of_cover 3 _ (fun t _ => flushed_edge V c t) fun i => by
    refine ⟨pointOf (i 0), flush1_3 _, ?_⟩
    obtain ⟨-, -, -, -, -, -, e6, e7⟩ := idx_facts (pointOf (i 0))
    show i ∈ ((View.whole main_v75).slice (win1_3.rect (pointOf (i 0)))).set
    rw [View.set_slice_whole, Rect.mem_set_unit]
    intro a
    have h0 : (i 0).val < 1600000 := (i 0).isLt
    have h1 : (i 1).val < 128 := (i 1).isLt
    have hp : (pointOf (i 0)).val = (i 0).val / 8000 := rfl
    match a with
    | ⟨0, _⟩ =>
      show win1_3.index (pointOf (i 0)) (0 : Fin 2) * 8000 ≤ (i 0).val ∧ (i 0).val < win1_3.index (pointOf (i 0)) (0 : Fin 2) * 8000 + 8000
      rw [e6, hp]; omega
    | ⟨1, _⟩ =>
      show win1_3.index (pointOf (i 0)) (1 : Fin 2) * 128 ≤ (i 1).val ∧ (i 1).val < win1_3.index (pointOf (i 0)) (1 : Fin 2) * 128 + 128
      rw [e7]; omega

end Cert.KernelIdeal.EdgeRegion

end
-- ==== Proof.KernelValue.lean ====
/-
  The idealized kernel's result as one term of its arguments.

  Walking the generated fold of buffer contents through @main: the two rows of the edge list are computed first and
  never written again; the first region leaves P = x·W and S = P·A (A the attention matrix the region is entered with);
  the host stretch between the regions leaves the gathered projections P[src] and the attention weights α computed from
  the two halves of S; the second region leaves the weighted rows P[src] ∘ (α·X) (X the head-expansion matrix it is
  entered with); the last stretch sums the weighted rows over the edges arriving at each node.
-/
import proofs.«171934_j74148315398470_2_alg».proof.Proof.HostFold
import proofs.«171934_j74148315398470_2_alg».proof.Proof.NodeRegion
import proofs.«171934_j74148315398470_2_alg».proof.Proof.EdgeRegion

set_option maxRecDepth 16384

noncomputable section

namespace Cert.KernelIdeal.KernelValue

open Idealize.ShloMosaic Idealize.ShloMosaic.TcCoe Idealize.SL.Sem Idealize.ShloMosaic.MatProd
open Cert.KernelIdeal Cert.KernelIdeal.Gen Cert.KernelIdeal.EdgeStages Cert.KernelIdeal.HostFold
open Cert.KernelIdeal.EdgeRegion (weightRows)

variable (m : (ℓ : Loc nD τ sig) → Buf (Elt Ideal) ℓ) (ρ : Dev nD → PrngReg)

/-- The attention matrix the first region is entered with. -/
abbrev attM (c : Dev nD) : S128x8.Idx → EReal := V3 m ρ c main_v22
/-- The head-expansion matrix the second region is entered with. -/
abbrev expandM (c : Dev nD) : S4x128.Idx → EReal := V9 m ρ c main_v74
/-- The projection x·W of the launch arguments. -/
abbrev projM (c : Dev nD) : S100000x128.Idx → EReal :=
  matProd (m ((c : Thread nD τ).loc main_arg0) : S100000x128.Idx → EReal) (m ((c : Thread nD τ).loc main_arg2) : S128x128.Idx → EReal)
/-- The score array (x·W)·A. -/
abbrev scoreM (c : Dev nD) : S100000x8.Idx → EReal := matProd (projM m c) (attM m ρ c)

/-! ## The edge list's rows at every boundary that reads them -/

theorem src_W1 (c : Dev nD) : W1 m ρ c (Proc.devRef .tc main_v1) = srcRow (m ((c : Thread nD τ).loc main_arg1)) := s0_src (W0 m ρ c)
theorem dst_W1 (c : Dev nD) : W1 m ρ c (Proc.devRef .tc main_v3) = dstRow (m ((c : Thread nD τ).loc main_arg1)) := s0_dst (W0 m ρ c)

theorem src_W4 (c : Dev nD) : W4 m ρ c (Proc.devRef .tc main_v1) = srcRow (m ((c : Thread nD τ).loc main_arg1)) :=
  (W4_of_ne m ρ c main_v1 (by decide)).trans ((keep_v1_s0_2 (W2 m ρ c)).trans ((keep_v1_s0_1 (W1 m ρ c)).trans (src_W1 m ρ c)))
theorem dst_W4 (c : Dev nD) : W4 m ρ c (Proc.devRef .tc main_v3) = dstRow (m ((c : Thread nD τ).loc main_arg1)) :=
  (W4_of_ne m ρ c main_v3 (by decide)).trans ((keep_v3_s0_2 (W2 m ρ c)).trans ((keep_v3_s0_1 (W1 m ρ c)).trans (dst_W1 m ρ c)))

theorem src_W6 (c : Dev nD) : W6 m ρ c (Proc.devRef .tc main_v1) = srcRow (m ((c : Thread nD τ).loc main_arg1)) :=
  (keep_v1_s1_1 (W5 m ρ c)).trans ((keep_v1_s1 (W4 m ρ c)).trans (src_W4 m ρ c))
theorem dst_W6 (c : Dev nD) : W6 m ρ c (Proc.devRef .tc main_v3) = dstRow (m ((c : Thread nD τ).loc main_arg1)) :=
  (keep_v3_s1_1 (W5 m ρ c)).trans ((keep_v3_s1 (W4 m ρ c)).trans (dst_W4 m ρ c))
theorem dst_W10 (c : Dev nD) : W10 m ρ c (Proc.devRef .tc main_v3) = dstRow (m ((c : Thread nD τ).loc main_arg1)) :=
  (W10_of_ne m ρ c main_v3 (by decide)).trans ((keep_v3_s1_4 (W8 m ρ c)).trans ((keep_v3_s1_3 (W7 m ρ c)).trans
    ((keep_v3_s1_2 (W6 m ρ c)).trans (dst_W6 m ρ c))))

/-! ## The first region's arrays -/

theorem arg0_W3 (c : Dev nD) : V3 m ρ c main_arg0 = m ((c : Thread nD τ).loc main_arg0) :=
  (keep_arg0_s0_2 (W2 m ρ c)).trans ((keep_arg0_s0_1 (W1 m ρ c)).trans (keep_arg0_s0 (W0 m ρ c)))
theorem arg2_W3 (c : Dev nD) : V3 m ρ c main_arg2 = m ((c : Thread nD τ).loc main_arg2) :=
  (keep_arg2_s0_2 (W2 m ρ c)).trans ((keep_arg2_s0_1 (W1 m ρ c)).trans (keep_arg2_s0 (W0 m ρ c)))

theorem proj_W4 (c : Dev nD) : W4 m ρ c (Proc.devRef .tc main_v23_0) = projM m c :=
  (W4_arr m ρ c 3).trans ((NodeRegion.final_proj (V3 m ρ) c).trans (by rw [arg0_W3, arg2_W3]))
theorem score_W4 (c : Dev nD) : W4 m ρ c (Proc.devRef .tc main_v23_1) = scoreM m ρ c :=
  (W4_arr m ρ c 4).trans ((NodeRegion.final_score (V3 m ρ) c).trans (by rw [arg0_W3, arg2_W3]))

/-! ## Between the regions -/

theorem proj_W6 (c : Dev nD) : W6 m ρ c (Proc.devRef .tc main_v23_0) = projM m c :=
  (keep_v23_0_s1_1 (W5 m ρ c)).trans ((keep_v23_0_s1 (W4 m ρ c)).trans (proj_W4 m ρ c))

/-- The gathered projections the second region is entered with. -/
theorem projSrc_W9 (c : Dev nD) :
    V9 m ρ c main_v65 = projSrc (projM m c) (srcRow (m ((c : Thread nD τ).loc main_arg1))) :=
  (keep_v65_s1_4 (W8 m ρ c)).trans ((keep_v65_s1_3 (W7 m ρ c)).trans
    ((s12_proj (W6 m ρ c)).trans (by rw [proj_W6, src_W6])))

/-- The rectified pre-activation. -/
theorem leaky_W6 (c : Dev nD) :
    W6 m ρ c (Proc.devRef .tc main_v41)
      = leaky (preact (headsL (scoreM m ρ c)) (headsR (scoreM m ρ c)) (srcRow (m ((c : Thread nD τ).loc main_arg1))) (dstRow (m ((c : Thread nD τ).loc main_arg1)))) :=
  (s11_leaky (W5 m ρ c)).trans (by
    rw [show W5 m ρ c (Proc.devRef .tc main_v40) = _ from s1_preact (W4 m ρ c),
      show W5 m ρ c (Proc.devRef .tc main_cst) = _ from s1_slope (W4 m ρ c), score_W4, src_W4, dst_W4, leakyWith_slope])

/-- The attention weights the second region is entered with. -/
theorem alpha_W9 (c : Dev nD) :
    V9 m ρ c main_v58
      = alpha (headsL (scoreM m ρ c)) (headsR (scoreM m ρ c)) (srcRow (m ((c : Thread nD τ).loc main_arg1))) (dstRow (m ((c : Thread nD τ).loc main_arg1))) :=
  (keep_v58_s1_4 (W8 m ρ c)).trans ((keep_v58_s1_3 (W7 m ρ c)).trans
    ((s12_alpha (W6 m ρ c)).trans (by rw [leaky_W6, dst_W6]; rfl)))

/-! ## The second region and the result -/

theorem weighted_W10 (c : Dev nD) :
    W10 m ρ c (Proc.devRef .tc main_v75)
      = weightRows (projSrc (projM m c) (srcRow (m ((c : Thread nD τ).loc main_arg1))))
          (alpha (headsL (scoreM m ρ c)) (headsR (scoreM m ρ c)) (srcRow (m ((c : Thread nD τ).loc main_arg1))) (dstRow (m ((c : Thread nD τ).loc main_arg1))))
          (expandM m ρ c) :=
  (W10_arr m ρ c 3).trans ((EdgeRegion.final_edge (V9 m ρ) c).trans (by rw [projSrc_W9, alpha_W9]))

/-- THE KERNEL'S RESULT: per node, the sum over the edges arriving at it of the source's projection row, each column
    scaled by the edge's attention weight for the column's head. -/
theorem result_eq (c : Dev nD) :
    W11 m ρ c (Proc.devRef .tc main_v78)
      = aggregate (weightRows (projSrc (projM m c) (srcRow (m ((c : Thread nD τ).loc main_arg1))))
          (alpha (headsL (scoreM m ρ c)) (headsR (scoreM m ρ c)) (srcRow (m ((c : Thread nD τ).loc main_arg1))) (dstRow (m ((c : Thread nD τ).loc main_arg1))))
          (expandM m ρ c)) (dstRow (m ((c : Thread nD τ).loc main_arg1))) :=
  (s2_out (W10 m ρ c)).trans (by rw [weighted_W10, dst_W10])

end Cert.KernelIdeal.KernelValue

end
-- ==== Proof.LibHeadMask.lean ====
/-
  One-hot matrices from a floor division of an index by a block length.

  An index `r` below 128 is grouped into blocks of 32: its block is `r / 32`. A program computes that block with
  integer operations on 32-bit words: the truncating quotient and remainder, the signs of both operands, and a
  correction of the quotient by one where the signs differ and the remainder is not zero (floor division written
  with truncating division). On words of indices below 128 divided by 32 nothing is negative, the correction never
  fires, and the result is the word of `r / 32`.

  Comparing that word for equality with the word of a block number `h` and converting the one-bit answer to a
  float gives, over the extended reals, `1` where `r / 32 = h` and `0` elsewhere: one entry of a one-hot matrix.

  The word facts are decided by evaluation over the 128 indices; the vector facts read the operations at an index.
-/
import Idealize.ShloMosaic.Lib.ValueIdx

noncomputable section

namespace Idealize.ShloMosaic.HeadMask

open Idealize.ShloMosaic Idealize.ShloMosaic.ValueIdx

/-! ## Words -/

/-- The sign word of a 32-bit word: `0`, `-1` or `1` (what `signi` reads at an index). -/
def sgn (x : BitVec 32) : BitVec 32 := if x = 0 then 0 else if x.msb then -1 else 1

/-- The sign of a vector of words, read at an index. -/
theorem signi_apply {s : Shape} (x : IVec s 32) (i : s.Idx) : signi x i = sgn (x i) := rfl

/-- Floor division written with truncating division, on one pair of words `x`, `d` (`c0`, `c1` the words the
    remainder is compared with and the quotient is corrected by): the truncating quotient, less `c1` where the signs of
    `x` and `d` differ and the remainder is not `c0`. -/
def floorDivWord (x d c0 c1 : BitVec 32) : BitVec 32 :=
  Scalar.select
    (IntOp.andi (IntOp.cmpi .ne (sgn x) (sgn d)) (IntOp.cmpi .ne (IntOp.remsi .host x d) c0))
    (IntOp.subi (IntOp.divsi .host x d) c1) (IntOp.divsi .host x d)

/-- On the word of an index below 128, divided by 32: the word of the index's block. -/
theorem floorDivWord_fin (r : Fin 128) :
    floorDivWord (BitVec.ofNat 32 r.val) 32#32 0#32 1#32 = BitVec.ofNat 32 (r.val / 32) := by
  revert r; decide +kernel

/-- The same for a natural number below 128. -/
theorem floorDivWord_lt {n : Nat} (hn : n < 128) :
    floorDivWord (BitVec.ofNat 32 n) 32#32 0#32 1#32 = BitVec.ofNat 32 (n / 32) :=
  floorDivWord_fin ⟨n, hn⟩

/-- Two words of naturals below `2 ^ 32` are equal exactly when the naturals are. -/
theorem ofNat_eq_ofNat_iff {m n : Nat} (hm : m < 2 ^ 32) (hn : n < 2 ^ 32) :
    BitVec.ofNat 32 m = BitVec.ofNat 32 n ↔ m = n := by
  constructor
  · intro h
    have e := congrArg BitVec.toNat h
    rw [BitVec.toNat_ofNat, BitVec.toNat_ofNat, Nat.mod_eq_of_lt hm, Nat.mod_eq_of_lt hn] at e
    exact e
  · rintro rfl; rfl

/-- The word of an index's block equals the word of a block number exactly when the block is that number. -/
theorem blockWord_eq_iff {r h : Nat} (hr : r < 128) (hh : h < 4) :
    BitVec.ofNat 32 (r / 32) = BitVec.ofNat 32 h ↔ r / 32 = h :=
  ofNat_eq_ofNat_iff (by omega) (by omega)

/-! ## Vectors, read at an index -/

/-- FLOOR DIVISION OF A VECTOR OF INDEX WORDS BY 32, READ AT AN INDEX. `io` holds at `i` the word of a natural `n`
    below 128; `d₁`, `d₂` hold 32 there (the divisor, as the quotient's and as the remainder's operand), `sd` the sign
    of 32, `z` zero and `o` one. Then the corrected quotient at `i` is the word of `n / 32`. -/
theorem floorDiv_apply {s : Shape} (io d₁ sd d₂ z o : IVec s 32) (i : s.Idx) {n : Nat} (hn : n < 128)
    (hio : io i = BitVec.ofNat 32 n) (hd₁ : d₁ i = 32#32) (hsd : sd i = sgn 32#32) (hd₂ : d₂ i = 32#32)
    (hz : z i = 0#32) (ho : o i = 1#32) :
    select (andi (cmpi .ne (signi io) sd) (cmpi .ne (Host.remsi io d₂) z)) (subi (Host.divsi io d₁) o)
      (Host.divsi io d₁) i = BitVec.ofNat 32 (n / 32) := by
  show Scalar.select
      (IntOp.andi (IntOp.cmpi .ne (sgn (io i)) (sd i)) (IntOp.cmpi .ne (IntOp.remsi .host (io i) (d₂ i)) (z i)))
      (IntOp.subi (IntOp.divsi .host (io i) (d₁ i)) (o i)) (IntOp.divsi .host (io i) (d₁ i)) = _
  rw [hio, hd₁, hsd, hd₂, hz, ho]
  exact floorDivWord_lt hn

/-- The one-axis iota of extent 128 divided by the broadcast scalar 32, the constants 0 and 1 broadcast alike:
    at index `i` the word of `i / 32`. -/
theorem floorDiv_iota (hb : (⟨0, ![]⟩ : Shape).BroadcastsInDim ⟨1, ![128]⟩ ![]) (i : (⟨1, ![128]⟩ : Shape).Idx) :
    select
      (andi
        (cmpi .ne (signi (iotaInDim ⟨1, ![128]⟩ 32 0))
          (broadcastInDim ⟨1, ![128]⟩ ![] hb (signi (constantI ⟨0, ![]⟩ 32 32#32))))
        (cmpi .ne
          (Host.remsi (iotaInDim ⟨1, ![128]⟩ 32 0) (broadcastInDim ⟨1, ![128]⟩ ![] hb (constantI ⟨0, ![]⟩ 32 32#32)))
          (broadcastInDim ⟨1, ![128]⟩ ![] hb (constantI ⟨0, ![]⟩ 32 0#32))))
      (subi
        (Host.divsi (iotaInDim ⟨1, ![128]⟩ 32 0) (broadcastInDim ⟨1, ![128]⟩ ![] hb (constantI ⟨0, ![]⟩ 32 32#32)))
        (broadcastInDim ⟨1, ![128]⟩ ![] hb (constantI ⟨0, ![]⟩ 32 1#32)))
      (Host.divsi (iotaInDim ⟨1, ![128]⟩ 32 0) (broadcastInDim ⟨1, ![128]⟩ ![] hb (constantI ⟨0, ![]⟩ 32 32#32))) i
      = BitVec.ofNat 32 ((i 0).val / 32) :=
  floorDiv_apply _ _ _ _ _ _ i (i 0).isLt rfl rfl rfl rfl rfl rfl

/-- The same iota laid along the second axis of a `[1, 128]` array first: at index `j` the word of `j 1 / 32`. -/
theorem floorDiv_iota_row (hb : (⟨0, ![]⟩ : Shape).BroadcastsInDim ⟨2, ![1, 128]⟩ ![])
    (hr : (⟨1, ![128]⟩ : Shape).BroadcastsInDim ⟨2, ![1, 128]⟩ ![1]) (j : (⟨2, ![1, 128]⟩ : Shape).Idx) :
    select
      (andi
        (cmpi .ne (signi (broadcastInDim ⟨2, ![1, 128]⟩ ![1] hr (iotaInDim ⟨1, ![128]⟩ 32 0)))
          (broadcastInDim ⟨2, ![1, 128]⟩ ![] hb (signi (constantI ⟨0, ![]⟩ 32 32#32))))
        (cmpi .ne
          (Host.remsi (broadcastInDim ⟨2, ![1, 128]⟩ ![1] hr (iotaInDim ⟨1, ![128]⟩ 32 0))
            (broadcastInDim ⟨2, ![1, 128]⟩ ![] hb (constantI ⟨0, ![]⟩ 32 32#32)))
          (broadcastInDim ⟨2, ![1, 128]⟩ ![] hb (constantI ⟨0, ![]⟩ 32 0#32))))
      (subi
        (Host.divsi (broadcastInDim ⟨2, ![1, 128]⟩ ![1] hr (iotaInDim ⟨1, ![128]⟩ 32 0))
          (broadcastInDim ⟨2, ![1, 128]⟩ ![] hb (constantI ⟨0, ![]⟩ 32 32#32)))
        (broadcastInDim ⟨2, ![1, 128]⟩ ![] hb (constantI ⟨0, ![]⟩ 32 1#32)))
      (Host.divsi (broadcastInDim ⟨2, ![1, 128]⟩ ![1] hr (iotaInDim ⟨1, ![128]⟩ 32 0))
        (broadcastInDim ⟨2, ![1, 128]⟩ ![] hb (constantI ⟨0, ![]⟩ 32 32#32))) j
      = BitVec.ofNat 32 ((j 1).val / 32) :=
  floorDiv_apply _ _ _ _ _ _ j (j 1).isLt rfl rfl rfl rfl rfl rfl

/-! ## One-hot entries over the extended reals -/

/-- The one-bit answer of an equality test, converted to a float, is over the extended reals `1` where the two words are
    equal and `0` where they differ. -/
theorem oneHot_word {w : Nat} (φ : FTy) (x y : BitVec w) :
    (FloatOps.uitofp (F := Ideal) φ (IntOp.cmpi .eq x y) : EReal) = if x = y then (1 : EReal) else 0 := by
  show (((IntOp.cmpi .eq x y).toNat : ℝ) : EReal) = _
  unfold IntOp.cmpi
  by_cases h : x = y
  · simp [h]
  · simp [h]

/-- ONE-HOT ENTRY: an equality test of two word vectors converted to a float, read at an index. -/
theorem oneHot {s : Shape} {w : Nat} (φ : FTy) (a b : IVec s w) (i : s.Idx) :
    ((uitofp φ (cmpi .eq a b) : FVec Ideal s φ) i : EReal) = if a i = b i then (1 : EReal) else 0 :=
  oneHot_word φ (a i) (b i)

/-- ONE-HOT ENTRY OF A BLOCK: where `a` holds at `i` the word of the block `r / 32` of an index `r` below 128 and `b`
    the word of a block number `h` below 4, the entry is `1` if `r / 32 = h` and `0` otherwise. -/
theorem oneHot_block {s : Shape} (φ : FTy) (a b : IVec s 32) (i : s.Idx) {r h : Nat} (hr : r < 128) (hh : h < 4)
    (ha : a i = BitVec.ofNat 32 (r / 32)) (hb : b i = BitVec.ofNat 32 h) :
    ((uitofp φ (cmpi .eq a b) : FVec Ideal s φ) i : EReal) = if r / 32 = h then (1 : EReal) else 0 := by
  rw [oneHot, ha, hb]
  simp only [blockWord_eq_iff hr hh]

end Idealize.ShloMosaic.HeadMask

end
-- ==== Proof.HeadMatrices.lean ====
/-
  The two one-hot "head" matrices the kernel's regions are entered with, read at an index over the extended reals.

  The 128 feature columns are grouped into 4 heads of 32 columns: column `r` belongs to head `r / 32`.

  • The attention matrix `Att` (128 rows, 8 columns) carries the two attention vectors, each of 128 entries, spread
    over the heads: `Att[r, h] = [r / 32 = h] · a_src[r]` for `h < 4` and `Att[r, 4 + h] = [r / 32 = h] · a_dst[r]`,
    where `a_src`, `a_dst` are the two `[1, 4, 32]` arguments read in row-major order as vectors of 128 entries.
    A product with `Att` therefore sums, head by head, a row's entries weighted by the attention vector.
  • The expansion matrix `X` (4 rows, 128 columns) is `X[h, c] = [c / 32 = h]`: a product with it repeats a head's
    value over the head's 32 columns.

  Both are computed by host operations before the regions: the head of a column by a floor division of an iota by 32
  (written with truncating division, signs and a correction), compared for equality with an iota of head numbers,
  the one-bit answer converted to a float. Over the extended reals that conversion is `1` or `0`, and the narrowing
  of `Att` to a 16-bit float format is the identity.

  Each stretch of host operations is read as a function of the buffer contents before it, whatever they are, so that
  nothing is ever computed with the long buffers the same stretches also write.
-/
import proofs.«171934_j74148315398470_2_alg».proof.Proof.Gen.KernelIdeal.Frame
import proofs.«171934_j74148315398470_2_alg».proof.Proof.LibHeadMask
import Idealize.ShloMosaic.Lib.Pipeline.Value

set_option maxRecDepth 16384

noncomputable section

namespace Cert.KernelIdeal.HeadMatrices

open Idealize.ShloMosaic Idealize.ShloMosaic.TcCoe Idealize.ShloMosaic.ValueIdx Idealize.ShloMosaic.HeadMask
open Idealize.ShloMosaic.StableHlo (after_cons after_nil)
open Cert.KernelIdeal Cert.KernelIdeal.Gen

variable (m : (ℓ : Loc nD τ sig) → Buf (Elt Ideal) ℓ) (ρ : Dev nD → PrngReg)

/-! ## The expansion matrix `X[h, c] = [c / 32 = h]`

It is computed by three stretches of host operations from iotas and constants only; each stretch is read as a function
of the buffer contents before it, whatever they are. -/

section Expand
open Idealize.ShloMosaic.StableHlo

/-- Last stretch: the equality test of the block words (laid along the rows) with the block numbers (laid along the
    columns), as a float. -/
theorem v74_after (X : Valuation τ sig (Elt Ideal)) :
    @Eq (FVec Ideal S4x128 .f32) (StableHlo.after (hostOps1_4 (F := Ideal)) X (Proc.devRef .tc main_v74))
      (uitofp .f32 (cmpi .eq
          (broadcastInDim S4x128 ![0, 1] bcast_S1x128_S4x128_0_1 (X (Proc.devRef .tc main_v70) : IVec S1x128 32))
          (broadcastInDim S4x128 ![0, 1] bcast_S4x1_S4x128_0_1 (X (Proc.devRef .tc main_v67) : IVec S4x1 32)))) := by
  after_results

/-- Middle stretch (the floor division): the corrected truncating quotient of the index words by the divisor. -/
theorem v70_after (Y : Valuation τ sig (Elt Ideal)) :
    @Eq (IVec S1x128 32) (StableHlo.after (hostOps1_3 (F := Ideal)) Y (Proc.devRef .tc main_v70))
      (select
        (andi
          (cmpi .ne (signi (Y (Proc.devRef .tc main_v69) : IVec S1x128 32))
            (broadcastInDim S1x128 ![] bcast_S_S1x128 (signi (Y (Proc.devRef .tc main_c_11) : IVec S_ 32))))
          (cmpi .ne
            (Host.remsi (Y (Proc.devRef .tc main_v69) : IVec S1x128 32)
              (broadcastInDim S1x128 ![] bcast_S_S1x128 (Y (Proc.devRef .tc main_c_11) : IVec S_ 32)))
            (broadcastInDim S1x128 ![] bcast_S_S1x128 (constantI S_ 32 0#32))))
        (subi
          (Host.divsi (Y (Proc.devRef .tc main_v69) : IVec S1x128 32)
            (broadcastInDim S1x128 ![] bcast_S_S1x128 (Y (Proc.devRef .tc main_c_11) : IVec S_ 32)))
          (broadcastInDim S1x128 ![] bcast_S_S1x128 (constantI S_ 32 1#32)))
        (Host.divsi (Y (Proc.devRef .tc main_v69) : IVec S1x128 32)
          (broadcastInDim S1x128 ![] bcast_S_S1x128 (Y (Proc.devRef .tc main_c_11) : IVec S_ 32)))) := by
  after_results_simp
  rfl

/-- The middle stretch leaves the block numbers' column alone. -/
theorem v67_after3 (Y : Valuation τ sig (Elt Ideal)) :
    StableHlo.after (hostOps1_3 (F := Ideal)) Y (Proc.devRef .tc main_v67) = Y (Proc.devRef .tc main_v67) := by
  after_results_simp

/-- First stretch: the index words `0 … 127` laid along a row, -/
theorem v69_after2 (Z : Valuation τ sig (Elt Ideal)) :
    @Eq (IVec S1x128 32) (StableHlo.after (hostOps1_2 (F := Ideal)) Z (Proc.devRef .tc main_v69))
      (broadcastInDim S1x128 ![1] bcast_S128_S1x128_1 (iotaInDim S128 32 0)) := by
  after_results_simp

/-- the divisor 32, -/
theorem c11_after2 (Z : Valuation τ sig (Elt Ideal)) :
    @Eq (IVec S_ 32) (StableHlo.after (hostOps1_2 (F := Ideal)) Z (Proc.devRef .tc main_c_11)) (constantI S_ 32 32#32) := by
  after_results_simp

/-- and the block numbers `0 … 3` laid along a column. -/
theorem v67_after2 (Z : Valuation τ sig (Elt Ideal)) :
    @Eq (IVec S4x1 32) (StableHlo.after (hostOps1_2 (F := Ideal)) Z (Proc.devRef .tc main_v67))
      (broadcastInDim S4x1 ![0] bcast_S4_S4x1_0 (iotaInDim S4 32 0)) := by
  after_results_simp

end Expand

/-- THE EXPANSION MATRIX AT THE SECOND REGION'S ENTRY: entry `(h, c)` is `1` if column `c` lies in block `h`
    (`c / 32 = h`) and `0` otherwise. -/
theorem expand_apply (c : Dev nD) (h : Fin 4) (cc : Fin 128) :
    @Eq EReal ((V9 m ρ c main_v74 : S4x128.Idx → EReal) (ix2 h cc)) (if cc.val / 32 = h.val then 1 else 0) := by
  show @Eq EReal ((StableHlo.after (hostOps1_4 (F := Ideal)) (StableHlo.after (hostOps1_3 (F := Ideal))
      (StableHlo.after (hostOps1_2 (F := Ideal)) (W6 m ρ c))) (Proc.devRef .tc main_v74) : FVec Ideal S4x128 .f32) (ix2 h cc)) _
  generalize W6 m ρ c = Z
  rw [v74_after]
  refine oneHot_block .f32 _ _ _ cc.isLt h.isLt ?_ ?_
  · refine (broadcastInDim_apply ![0, 1] bcast_S1x128_S4x128_0_1 _ (ix2 h cc) (ix2 0 cc)
      (fun a => match a with | ⟨0, _⟩ => rfl | ⟨1, _⟩ => rfl)).trans ?_
    rw [v70_after]
    refine floorDiv_apply _ _ _ _ _ _ _ cc.isLt ?_ ?_ ?_ ?_ rfl rfl
    · rw [v69_after2]; rfl
    · rw [c11_after2]; rfl
    · rw [c11_after2]; rfl
    · rw [c11_after2]; rfl
  · refine (broadcastInDim_apply ![0, 1] bcast_S4x1_S4x128_0_1 _ (ix2 h cc) (ix2 h 0)
      (fun a => match a with | ⟨0, _⟩ => rfl | ⟨1, _⟩ => rfl)).trans ?_
    rw [v67_after3, v67_after2]; rfl

/-! ## The attention matrix `Att[r, h] = [r / 32 = h] · a_src[r]`, `Att[r, 4 + h] = [r / 32 = h] · a_dst[r]` -/

section Att
open Idealize.ShloMosaic.StableHlo

/-- One half of the attention matrix: a vector `v` of 128 entries spread over the 4 heads by the block words `q` —
    entry `(r, h)` is `v r` where `q r` is the word of `h` and `0` elsewhere. -/
def spread (q : IVec S128 32) (v : FVec Ideal S128 .f32) : FVec Ideal S128x4 .f32 :=
  mulf
    (uitofp .f32 (cmpi .eq
      (broadcastInDim S128x4 ![0, 1] bcast_S128x1_S128x4_0_1 (broadcastInDim S128x1 ![0] bcast_S128_S128x1_0 q))
      (broadcastInDim S128x4 ![0, 1] bcast_S1x4_S128x4_0_1 (broadcastInDim S1x4 ![1] bcast_S4_S1x4_1 (iotaInDim S4 32 0)))))
    (broadcastInDim S128x4 ![0, 1] bcast_S128x1_S128x4_0_1 (broadcastInDim S128x1 ![0] bcast_S128_S128x1_0 v))

/-- A vector of 128 entries laid along the rows of a `[128, 4]` array, read at `(r, h)`: its entry `r`. -/
theorem rows_apply {α : Type} (v : S128.Idx → α) (r : Fin 128) (h : Fin 4) :
    broadcastInDim S128x4 ![0, 1] bcast_S128x1_S128x4_0_1 (broadcastInDim S128x1 ![0] bcast_S128_S128x1_0 v) (ix2 r h)
      = v (ix1 r) :=
  (broadcastInDim_apply ![0, 1] bcast_S128x1_S128x4_0_1 _ (ix2 r h) (ix2 r 0)
      (fun a => match a with | ⟨0, _⟩ => rfl | ⟨1, _⟩ => rfl)).trans
    (broadcastInDim_apply ![0] bcast_S128_S128x1_0 v (ix2 r 0) (ix1 r) (fun a => match a with | ⟨0, _⟩ => rfl))

/-- The spread read at `(r, h)`, for block words that are the words of `r / 32`. -/
theorem spread_apply (q : IVec S128 32) (v : FVec Ideal S128 .f32) (r : Fin 128) (h : Fin 4)
    (hq : q (ix1 r) = BitVec.ofNat 32 (r.val / 32)) :
    @Eq EReal (spread q v (ix2 r h)) (if r.val / 32 = h.val then v (ix1 r) else 0) := by
  unfold spread
  rw [mulf_apply, oneHot_block .f32 _ _ _ r.isLt h.isLt ((rows_apply q r h).trans hq) rfl, rows_apply]
  split_ifs
  · exact one_mul _
  · exact zero_mul _

/-- Last stretch before the first region: the two halves side by side, narrowed to the 16-bit format. -/
theorem v22_after (X : Valuation τ sig (Elt Ideal)) :
    @Eq (FVec Ideal S128x8 .bf16) (StableHlo.after (hostOps0_2 (F := Ideal)) X (Proc.devRef .tc main_v22))
      (truncf .bf16 (concatenate S128x8 1
        [⟨S128x4, spread (X (Proc.devRef .tc main_v7)) (X (Proc.devRef .tc main_v4))⟩,
         ⟨S128x4, spread (X (Proc.devRef .tc main_v7)) (X (Proc.devRef .tc main_v5))⟩]
        concatenates_S128x4_S128x4_S128x8_d1) bitsLt_bf16_f32) := by
  after_results_simp
  rfl

end Att

section AttSteps
open Idealize.ShloMosaic.StableHlo

/-- The floor division before it: the corrected truncating quotient of the index words by the divisor. -/
theorem v7_after (Y : Valuation τ sig (Elt Ideal)) :
    @Eq (IVec S128 32) (StableHlo.after (hostOps0_1 (F := Ideal)) Y (Proc.devRef .tc main_v7))
      (select
        (andi
          (cmpi .ne (signi (Y (Proc.devRef .tc main_v6) : IVec S128 32))
            (broadcastInDim S128 ![] bcast_S_S128 (signi (Y (Proc.devRef .tc main_c) : IVec S_ 32))))
          (cmpi .ne
            (Host.remsi (Y (Proc.devRef .tc main_v6) : IVec S128 32)
              (broadcastInDim S128 ![] bcast_S_S128 (Y (Proc.devRef .tc main_c) : IVec S_ 32)))
            (broadcastInDim S128 ![] bcast_S_S128 (constantI S_ 32 0#32))))
        (subi
          (Host.divsi (Y (Proc.devRef .tc main_v6) : IVec S128 32)
            (broadcastInDim S128 ![] bcast_S_S128 (Y (Proc.devRef .tc main_c) : IVec S_ 32)))
          (broadcastInDim S128 ![] bcast_S_S128 (constantI S_ 32 1#32)))
        (Host.divsi (Y (Proc.devRef .tc main_v6) : IVec S128 32)
          (broadcastInDim S128 ![] bcast_S_S128 (Y (Proc.devRef .tc main_c) : IVec S_ 32)))) := by
  after_results_simp
  rfl

/-- The floor division leaves the two attention vectors alone. -/
theorem v4_after1 (Y : Valuation τ sig (Elt Ideal)) :
    StableHlo.after (hostOps0_1 (F := Ideal)) Y (Proc.devRef .tc main_v4) = Y (Proc.devRef .tc main_v4) := by
  after_results_simp
theorem v5_after1 (Y : Valuation τ sig (Elt Ideal)) :
    StableHlo.after (hostOps0_1 (F := Ideal)) Y (Proc.devRef .tc main_v5) = Y (Proc.devRef .tc main_v5) := by
  after_results_simp

/-- First stretch: the two `[1, 4, 32]` arguments in row-major order as vectors of 128 entries, -/
theorem v4_after0 (W : Valuation τ sig (Elt Ideal)) :
    @Eq (FVec Ideal S128 .f32) (StableHlo.after (hostOps0 (F := Ideal)) W (Proc.devRef .tc main_v4))
      (shapeCast S128 (W (Proc.devRef .tc main_arg3) : FVec Ideal S1x4x32 .f32) shapeCasts_S1x4x32_S128) := by
  after_results_simp
  rfl
theorem v5_after0 (W : Valuation τ sig (Elt Ideal)) :
    @Eq (FVec Ideal S128 .f32) (StableHlo.after (hostOps0 (F := Ideal)) W (Proc.devRef .tc main_v5))
      (shapeCast S128 (W (Proc.devRef .tc main_arg4) : FVec Ideal S1x4x32 .f32) shapeCasts_S1x4x32_S128) := by
  after_results_simp
  rfl
/-- the index words `0 … 127`, -/
theorem v6_after0 (W : Valuation τ sig (Elt Ideal)) :
    @Eq (IVec S128 32) (StableHlo.after (hostOps0 (F := Ideal)) W (Proc.devRef .tc main_v6)) (iotaInDim S128 32 0) := by
  after_results_simp
/-- and the divisor 32. -/
theorem c_after0 (W : Valuation τ sig (Elt Ideal)) :
    @Eq (IVec S_ 32) (StableHlo.after (hostOps0 (F := Ideal)) W (Proc.devRef .tc main_c)) (constantI S_ 32 32#32) := by
  after_results_simp

/-- A `[1, 4, 32]` array in row-major order as a vector of 128 entries, read at `r`: the entry `(0, r / 32, r % 32)`. -/
theorem flat_apply {α : Type} (x : S1x4x32.Idx → α) (r : Fin 128) :
    shapeCast S128 x shapeCasts_S1x4x32_S128 (ix1 r)
      = x (ix3 0 ⟨r.val / 32, by have := r.isLt; omega⟩ ⟨r.val % 32, Nat.mod_lt _ (by decide)⟩) := by
  refine shapeCast_apply x _ (ix1 r) _ ?_
  rw [Shape.rowMajor_val_three, Shape.rowMajor_val_one]
  show ((0 : Nat) * 4 + r.val / 32) * 32 + r.val % 32 = r.val
  omega

end AttSteps

/-- THE ATTENTION MATRIX AT THE FIRST REGION'S ENTRY: in row `r`, column `h < 4` holds the source attention vector's
    entry `(0, r / 32, r % 32)` if `r` lies in head `h` and `0` otherwise; column `4 + h` holds the destination attention
    vector's entry alike. -/
theorem att_apply (c : Dev nD) (r : Fin 128) (j : Fin 8) :
    @Eq EReal ((V3 m ρ c main_v22 : S128x8.Idx → EReal) (ix2 r j))
      (if j.val < 4 then
        (if r.val / 32 = j.val then
          (m ((c : Thread nD τ).loc main_arg3) : S1x4x32.Idx → EReal)
            (ix3 0 ⟨r.val / 32, by have := r.isLt; omega⟩ ⟨r.val % 32, Nat.mod_lt _ (by decide)⟩)
        else 0)
      else
        (if r.val / 32 = j.val - 4 then
          (m ((c : Thread nD τ).loc main_arg4) : S1x4x32.Idx → EReal)
            (ix3 0 ⟨r.val / 32, by have := r.isLt; omega⟩ ⟨r.val % 32, Nat.mod_lt _ (by decide)⟩)
        else 0)) := by
  show @Eq EReal ((StableHlo.after (hostOps0_2 (F := Ideal)) (StableHlo.after (hostOps0_1 (F := Ideal))
      (StableHlo.after (hostOps0 (F := Ideal)) (W0 m ρ c))) (Proc.devRef .tc main_v22) : FVec Ideal S128x8 .bf16) (ix2 r j)) _
  have hq : (StableHlo.after (hostOps0_1 (F := Ideal)) (StableHlo.after (hostOps0 (F := Ideal)) (W0 m ρ c))
      (Proc.devRef .tc main_v7) : IVec S128 32) (ix1 r) = BitVec.ofNat 32 (r.val / 32) := by
    rw [v7_after]
    refine floorDiv_apply _ _ _ _ _ _ _ r.isLt ?_ ?_ ?_ ?_ rfl rfl
    · rw [v6_after0]; rfl
    · rw [c_after0]; rfl
    · rw [c_after0]; rfl
    · rw [c_after0]; rfl
  rw [v22_after]
  by_cases hj : j.val < 4
  · rw [if_pos hj]
    refine (concatenate_pair_apply_left (t := S128x8) (s₁ := S128x4) (s₂ := S128x4) (1 : Fin 2) _ _
      concatenates_S128x4_S128x4_S128x8_d1 (ix2 r j) rfl (ix2 r (⟨j.val, hj⟩ : Fin 4)) (fun b => match b with | ⟨0, _⟩ => rfl | ⟨1, _⟩ => rfl)).trans ?_
    rw [spread_apply _ _ r ⟨j.val, hj⟩ hq, v4_after1, v4_after0, flat_apply]
  · rw [if_neg hj]
    have hj4 : j.val - 4 < 4 := by have := j.isLt; omega
    refine (concatenate_pair_apply_right (t := S128x8) (s₁ := S128x4) (s₂ := S128x4) (1 : Fin 2) _ _
      concatenates_S128x4_S128x4_S128x8_d1 (ix2 r j) rfl rfl (ix2 r (⟨j.val - 4, hj4⟩ : Fin 4)) (fun b => match b with | ⟨0, _⟩ => fun _ => rfl | ⟨1, _⟩ => fun hb => absurd rfl hb)
      (by show j.val - 4 + 4 = j.val; omega)).trans ?_
    rw [spread_apply _ _ r ⟨j.val - 4, hj4⟩ hq, v5_after1, v5_after0, flat_apply]

end Cert.KernelIdeal.HeadMatrices
end
-- ==== Proof.RefStages.lean ====
/-
  The reference's result as pure terms, in named stages.

  Each definition below is the literal composition of the operations of the reference
  program, in the order the program performs them, read at the ideal float instance:
  the projection x·W split into 4 heads of 32 features, the two per-head attention scores,
  the two rows of the edge list, their use as (wrapped or raw) indices, the leaky rectifier,
  the softmax over incoming edges (shifted by the global maximum) and the weighted
  aggregation over incoming edges.
-/
import proofs.«171934_j74148315398470_2_alg».proof.ReferenceIdeal
import Idealize.ShloMosaic.PureOps.Ideal

noncomputable section

namespace Cert.ReferenceIdeal.RefStages

open Cert.ReferenceIdeal Idealize.ShloMosaic Idealize.SL.Sem

variable [Facts]
open Facts₀ Facts

/-- %1: the projection `x · W`, its 128 columns read as 4 heads of 32 features. -/
def proj3 (x : FVec Ideal S100000x128 .f32) (W : FVec Ideal S128x128 .f32) : FVec Ideal S100000x4x32 .f32 :=
  shapeCast S100000x4x32
    (Host.dotGeneral (F := Ideal) dot_S100000x128_S128x128_S100000x128_1_0_0_1_n_n none x W)
    shapeCasts_S100000x128_S100000x4x32

/-- %4 (and %7, at the other attention vector): per node and head, the sum over the 32
    features of the projection times the attention vector. -/
def score (p : FVec Ideal S100000x4x32 .f32) (att : FVec Ideal S1x4x32 .f32) : FVec Ideal S100000x4 .f32 :=
  Host.reduceAdd (F := Ideal)
    (mulf (F := Ideal) p (broadcastInDim S100000x4x32 ![0, 1, 2] bcast_S1x4x32_S100000x4x32_0_1_2 att))
    (constant (F := Ideal) S_ .f32 0x00000000#32) reducesTo_S100000x4x32_S100000x4_d2 h_S_

/-- %9: row 0 of the edge list (each edge's source node). -/
def srcRow (adj : IVec S2x1600000 32) : IVec S1600000 32 :=
  shapeCast S1600000
    (extractStridedSlice S1x1600000 ![0, 0] adj slices_S2x1600000_S1x1600000_0_0)
    shapeCasts_S1x1600000_S1600000

/-- %11: row 1 of the edge list (each edge's destination node). -/
def dstRow (adj : IVec S2x1600000 32) : IVec S1600000 32 :=
  shapeCast S1600000
    (extractStridedSlice S1x1600000 ![1, 0] adj slices_S2x1600000_S1x1600000_1_0)
    shapeCasts_S1x1600000_S1600000

/-- %17 (= %24, %40, %50 at their rows): a row of node numbers as gather indices — a negative
    number is wrapped by adding the node count 100000 — as a column `[E, 1]`. -/
def normIdx (row : IVec S1600000 32) : IVec S1600000x1 32 :=
  broadcastInDim S1600000x1 ![0] bcast_S1600000_S1600000x1_0
    (select
      (cmpi .slt row (broadcastInDim S1600000 ![] bcast_S_S1600000 (constantI S_ 32 0#32)))
      (addi row (broadcastInDim S1600000 ![] bcast_S_S1600000 (constantI S_ 32 100000#32)))
      row)

/-- %33 (= %56): a row of node numbers as scatter indices, as a column `[E, 1]`, not wrapped. -/
def rawIdx (row : IVec S1600000 32) : IVec S1600000x1 32 :=
  broadcastInDim S1600000x1 ![0] bcast_S1600000_S1600000x1_0 row

/-- %27: the leaky rectifier of slope 0.2: `e` where `e ≥ 0`, `0.2 · e` elsewhere. -/
def leaky (e : FVec Ideal S1600000x4 .f32) : FVec Ideal S1600000x4 .f32 :=
  select
    (cmpf (F := Ideal) .oge e (broadcastInDim S1600000x4 ![] bcast_S_S1600000x4 (constant (F := Ideal) S_ .f32 0x00000000#32)))
    e
    (mulf (F := Ideal) (broadcastInDim S1600000x4 ![] bcast_S_S1600000x4 (id (constant (F := Ideal) S_ .f32 0x3E4CCCCD#32))) e)

/-- %27 from the scores: per edge and head, the rectified sum of the source's and the
    destination's score. -/
def edge (ssrc sdst : FVec Ideal S100000x4 .f32) (adj : IVec S2x1600000 32) : FVec Ideal S1600000x4 .f32 :=
  leaky (addf (F := Ideal)
    (Host.gather gather_S100000x4_S1600000x1_S1600000x4_1_0_n_n_0_1_14 ssrc (normIdx (srcRow adj)))
    (Host.gather gather_S100000x4_S1600000x1_S1600000x4_1_0_n_n_0_1_14 sdst (normIdx (dstRow adj))))

/-- %31: the exponential of `e` less its maximum over all edges and heads. -/
def expo (e : FVec Ideal S1600000x4 .f32) : FVec Ideal S1600000x4 .f32 :=
  Host.exp (F := Ideal) (subf (F := Ideal) e (broadcastInDim S1600000x4 ![] bcast_S_S1600000x4
    (Host.reduce FloatOps.maximumf e (constant (F := Ideal) S_ .f32 0xFF800000#32) reducesTo_S1600000x4_S_d0_1 h_S_)))

/-- %34: per node and head, the sum of `ex` over the edges into the node. -/
def denom (ex : FVec Ideal S1600000x4 .f32) (adj : IVec S2x1600000 32) : FVec Ideal S100000x4 .f32 :=
  Host.scatterAdd (F := Ideal) scatter_S100000x4_S1600000x1_S1600000x4_1_0_0_1
    (broadcastInDim S100000x4 ![] bcast_S_S100000x4 (constant (F := Ideal) S_ .f32 0x00000000#32))
    (rawIdx (dstRow adj)) ex

/-- %44 from %31: each edge's weight, its exponential over (its destination's sum plus 1e-16). -/
def normalize (ex : FVec Ideal S1600000x4 .f32) (adj : IVec S2x1600000 32) : FVec Ideal S1600000x4 .f32 :=
  Host.divf (F := Ideal) ex (addf (F := Ideal)
    (Host.gather gather_S100000x4_S1600000x1_S1600000x4_1_0_n_n_0_1_14 (denom ex adj) (normIdx (dstRow adj)))
    (broadcastInDim S1600000x4 ![] bcast_S_S1600000x4 (constant (F := Ideal) S_ .f32 0x24E69595#32)))

/-- %44: the attention weights, from the two scores and the edge list. -/
def alpha (ssrc sdst : FVec Ideal S100000x4 .f32) (adj : IVec S2x1600000 32) : FVec Ideal S1600000x4 .f32 :=
  normalize (expo (edge ssrc sdst adj)) adj

/-- %58: per node, the sum over the edges into it of the source's projection times the edge's
    weight, the 4 heads of 32 features read as 128 columns. -/
def out (p : FVec Ideal S100000x4x32 .f32) (a : FVec Ideal S1600000x4 .f32) (adj : IVec S2x1600000 32) : FVec Ideal S100000x128 .f32 :=
  shapeCast S100000x128
    (Host.scatterAdd (F := Ideal) scatter_S100000x4x32_S1600000x1_S1600000x4x32_12_0_0_1
      (broadcastInDim S100000x4x32 ![] bcast_S_S100000x4x32 (constant (F := Ideal) S_ .f32 0x00000000#32))
      (rawIdx (dstRow adj))
      (mulf
        (Host.gather gather_S100000x4x32_S1600000x1_S1600000x4x32_12_0_n_n_0_1_1432 p (normIdx (srcRow adj)))
        (broadcastInDim S1600000x4x32 ![0, 1, 2] bcast_S1600000x4x1_S1600000x4x32_0_1_2
          (broadcastInDim S1600000x4x1 ![0, 1] bcast_S1600000x4_S1600000x4x1_0_1 a))))
    shapeCasts_S100000x4x32_S100000x128

/-- The reference's result, from its five arguments. -/
def result (x : FVec Ideal S100000x128 .f32) (adj : IVec S2x1600000 32) (W : FVec Ideal S128x128 .f32)
    (attS attD : FVec Ideal S1x4x32 .f32) : FVec Ideal S100000x128 .f32 :=
  out (proj3 x W) (alpha (score (proj3 x W) attS) (score (proj3 x W) attD) adj) adj

end Cert.ReferenceIdeal.RefStages

end
-- ==== Proof.RefRunOps.lean ====
/-
  The reference program as one straight line of host operations.

  The program is two windows run in order, the first of which calls the leaky rectifier, which
  itself calls the selection; unfolding the two calls at their call sites (each callee operation
  over the buffers of that call) gives one list of 80 operations, and the program is that list
  run in order.
-/
import proofs.«171934_j74148315398470_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The reference's 80 operations, in order: the 34 before the call, the call's 7 (the leaky
    rectifier's 6 and the selection's 1, over the call's buffers), then the 39 after it. -/
abbrev ops : List (HloOp τ sig (Elt F)) :=
  [ StableHlo.binary main_arg0 main_arg2 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.reshape main_v0 main_v1 rfl shapeCasts_S100000x128_S100000x4x32,
    StableHlo.unary main_arg3 main_v2 (broadcastInDim S100000x4x32 ![0, 1, 2] bcast_S1x4x32_S100000x4x32_0_1_2 : (⟨S1x4x32, .f32⟩ : BufTy).Contents (Elt F) → (⟨S100000x4x32, .f32⟩ : BufTy).Contents (Elt F)),
    StableHlo.binary main_v1 main_v2 main_v3 (mulf : (⟨S100000x4x32, .f32⟩ : BufTy).Contents (Elt F) → (⟨S100000x4x32, .f32⟩ : BufTy).Contents (Elt F) → (⟨S100000x4x32, .f32⟩ : BufTy).Contents (Elt F)),
    StableHlo.nullary main_cst (constant S_ .f32 0x00000000#32),
    StableHlo.binary main_v3 main_cst main_v4 ((fun x v => Host.reduceAdd x v reducesTo_S100000x4x32_S100000x4_d2 h_S_) : (⟨S100000x4x32, .f32⟩ : BufTy).Contents (Elt F) → (⟨S_, .f32⟩ : BufTy).Contents (Elt F) → (⟨S100000x4, .f32⟩ : BufTy).Contents (Elt F)),
    StableHlo.unary main_arg4 main_v5 (broadcastInDim S100000x4x32 ![0, 1, 2] bcast_S1x4x32_S100000x4x32_0_1_2 : (⟨S1x4x32, .f32⟩ : BufTy).Contents (Elt F) → (⟨S100000x4x32, .f32⟩ : BufTy).Contents (Elt F)),
    StableHlo.binary main_v1 main_v5 main_v6 (mulf : (⟨S100000x4x32, .f32⟩ : BufTy).Contents (Elt F) → (⟨S100000x4x32, .f32⟩ : BufTy).Contents (Elt F) → (⟨S100000x4x32, .f32⟩ : BufTy).Contents (Elt F)),
    StableHlo.nullary main_cst_0 (constant S_ .f32 0x00000000#32),
    StableHlo.binary main_v6 main_cst_0 main_v7 ((fun x v => Host.reduceAdd x v reducesTo_S100000x4x32_S100000x4_d2 h_S_) : (⟨S100000x4x32, .f32⟩ : BufTy).Contents (Elt F) → (⟨S_, .f32⟩ : BufTy).Contents (Elt F) → (⟨S100000x4, .f32⟩ : BufTy).Contents (Elt F)),
    StableHlo.unary main_arg1 main_v8 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v8 main_v9 rfl shapeCasts_S1x1600000_S1600000,
    StableHlo.unary main_arg1 main_v10 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v10 main_v11 rfl shapeCasts_S1x1600000_S1600000,
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v9 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 100000#32),
    StableHlo.unary main_c_1 main_v14 (broadcastInDim S1600000 ![] bcast_S_S1600000 : (⟨S_, .i32⟩ : BufTy).Contents (Elt F) → (⟨S1600000, .i32⟩ : BufTy).Contents (Elt F)),
    StableHlo.binary main_v9 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v9 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v4 main_v17 main_v18 ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)),
    StableHlo.nullary main_c_2 (constantI S_ 32 0#32),
    StableHlo.unary main_c_2 main_v19 (broadcastInDim S1600000 ![] bcast_S_S1600000 : (⟨S_, .i32⟩ : BufTy).Contents (Elt F) → (⟨S1600000, .i32⟩ : BufTy).Contents (Elt F)),
    StableHlo.binary main_v11 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v21 (broadcastInDim S1600000 ![] bcast_S_S1600000 : (⟨S_, .i32⟩ : BufTy).Contents (Elt F) → (⟨S1600000, .i32⟩ : BufTy).Contents (Elt F)),
    StableHlo.binary main_v11 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v11 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v7 main_v24 main_v25 ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)),
    StableHlo.binary main_v18 main_v25 main_v26 (addf : (⟨S1600000x4, .f32⟩ : BufTy).Contents (Elt F) → (⟨S1600000x4, .f32⟩ : BufTy).Contents (Elt F) → (⟨S1600000x4, .f32⟩ : BufTy).Contents (Elt F)),
    StableHlo.nullary main_cst_4 (constant S_ .f32 0x3E4CCCCD#32),
    TRef.nullary main_call0.cst (constant S_ .f32 0x00000000#32),
    TRef.unary main_call0.cst main_call0.v0 (broadcastInDim S1600000x4 ![] bcast_S_S1600000x4),
    TRef.binary (.of main_v26) main_call0.v0 main_call0.v1 (cmpf .oge),
    TRef.unary (.of main_cst_4) main_call0.v2 id,
    TRef.unary main_call0.v2 main_call0.v3 (broadcastInDim S1600000x4 ![] bcast_S_S1600000x4),
    TRef.binary main_call0.v3 (.of main_v26) main_call0.v4 mulf,
    TRef.ternary main_call0.v1 (.of main_v26) main_call0.v4 main_call0.call0.v0 select,
    StableHlo.nullary main_cst_5 (constant S_ .f32 0xFF800000#32),
    StableHlo.binary main_v27 main_cst_5 main_v28 ((fun x v => Host.reduce FloatOps.maximumf x v reducesTo_S1600000x4_S_d0_1 h_S_) : (⟨S1600000x4, .f32⟩ : BufTy).Contents (Elt F) → (⟨S_, .f32⟩ : BufTy).Contents (Elt F) → (⟨S_, .f32⟩ : BufTy).Contents (Elt F)),
    StableHlo.unary main_v28 main_v29 (broadcastInDim S1600000x4 ![] bcast_S_S1600000x4 : (⟨S_, .f32⟩ : BufTy).Contents (Elt F) → (⟨S1600000x4, .f32⟩ : BufTy).Contents (Elt F)),
    StableHlo.binary main_v27 main_v29 main_v30 (subf : (⟨S1600000x4, .f32⟩ : BufTy).Contents (Elt F) → (⟨S1600000x4, .f32⟩ : BufTy).Contents (Elt F) → (⟨S1600000x4, .f32⟩ : BufTy).Contents (Elt F)),
    StableHlo.unary main_v30 main_v31 (Host.exp : (⟨S1600000x4, .f32⟩ : BufTy).Contents (Elt F) → (⟨S1600000x4, .f32⟩ : BufTy).Contents (Elt F)),
    StableHlo.nullary main_cst_6 (constant S_ .f32 0x00000000#32),
    StableHlo.unary main_cst_6 main_v32 (broadcastInDim S100000x4 ![] bcast_S_S100000x4 : (⟨S_, .f32⟩ : BufTy).Contents (Elt F) → (⟨S100000x4, .f32⟩ : BufTy).Contents (Elt F)),
    StableHlo.unary main_v11 main_v33 (broadcastInDim S1600000x1 ![0] bcast_S1600000_S1600000x1_0 : (⟨S1600000, .i32⟩ : BufTy).Contents (Elt F) → (⟨S1600000x1, .i32⟩ : BufTy).Contents (Elt F)),
    StableHlo.ternary main_v32 main_v33 main_v31 main_v34 ((fun x i u => Host.scatterAdd scatter_S100000x4_S1600000x1_S1600000x4_1_0_0_1 x i u) : (⟨S100000x4, .f32⟩ : BufTy).Contents (Elt F) → (⟨S1600000x1, .i32⟩ : BufTy).Contents (Elt F) → (⟨S1600000x4, .f32⟩ : BufTy).Contents (Elt F) → (⟨S100000x4, .f32⟩ : BufTy).Contents (Elt F)),
    StableHlo.nullary main_c_7 (constantI S_ 32 0#32),
    StableHlo.unary main_c_7 main_v35 (broadcastInDim S1600000 ![] bcast_S_S1600000 : (⟨S_, .i32⟩ : BufTy).Contents (Elt F) → (⟨S1600000, .i32⟩ : BufTy).Contents (Elt F)),
    StableHlo.binary main_v11 main_v35 main_v36 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v37 (broadcastInDim S1600000 ![] bcast_S_S1600000 : (⟨S_, .i32⟩ : BufTy).Contents (Elt F) → (⟨S1600000, .i32⟩ : BufTy).Contents (Elt F)),
    StableHlo.binary main_v11 main_v37 main_v38 (addi : (⟨S1600000, .i32⟩ : BufTy).Contents (Elt F) → (⟨S1600000, .i32⟩ : BufTy).Contents (Elt F) → (⟨S1600000, .i32⟩ : BufTy).Contents (Elt F)),
    StableHlo.ternary main_v36 main_v38 main_v11 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v39 main_v40 (broadcastInDim S1600000x1 ![0] bcast_S1600000_S1600000x1_0 : (⟨S1600000, .i32⟩ : BufTy).Contents (Elt F) → (⟨S1600000x1, .i32⟩ : BufTy).Contents (Elt F)),
    StableHlo.binary main_v34 main_v40 main_v41 ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)),
    StableHlo.nullary main_cst_9 (constant S_ .f32 0x24E69595#32),
    StableHlo.unary main_cst_9 main_v42 (broadcastInDim S1600000x4 ![] bcast_S_S1600000x4 : (⟨S_, .f32⟩ : BufTy).Contents (Elt F) → (⟨S1600000x4, .f32⟩ : BufTy).Contents (Elt F)),
    StableHlo.binary main_v41 main_v42 main_v43 (addf : (⟨S1600000x4, .f32⟩ : BufTy).Contents (Elt F) → (⟨S1600000x4, .f32⟩ : BufTy).Contents (Elt F) → (⟨S1600000x4, .f32⟩ : BufTy).Contents (Elt F)),
    StableHlo.binary main_v31 main_v43 main_v44 (Host.divf : (⟨S1600000x4, .f32⟩ : BufTy).Contents (Elt F) → (⟨S1600000x4, .f32⟩ : BufTy).Contents (Elt F) → (⟨S1600000x4, .f32⟩ : BufTy).Contents (Elt F)),
    StableHlo.nullary main_c_10 (constantI S_ 32 0#32),
    StableHlo.unary main_c_10 main_v45 (broadcastInDim S1600000 ![] bcast_S_S1600000 : (⟨S_, .i32⟩ : BufTy).Contents (Elt F) → (⟨S1600000, .i32⟩ : BufTy).Contents (Elt F)),
    StableHlo.binary main_v9 main_v45 main_v46 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v47 (broadcastInDim S1600000 ![] bcast_S_S1600000 : (⟨S_, .i32⟩ : BufTy).Contents (Elt F) → (⟨S1600000, .i32⟩ : BufTy).Contents (Elt F)),
    StableHlo.binary main_v9 main_v47 main_v48 (addi : (⟨S1600000, .i32⟩ : BufTy).Contents (Elt F) → (⟨S1600000, .i32⟩ : BufTy).Contents (Elt F) → (⟨S1600000, .i32⟩ : BufTy).Contents (Elt F)),
    StableHlo.ternary main_v46 main_v48 main_v9 main_v49 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v49 main_v50 (broadcastInDim S1600000x1 ![0] bcast_S1600000_S1600000x1_0 : (⟨S1600000, .i32⟩ : BufTy).Contents (Elt F) → (⟨S1600000x1, .i32⟩ : BufTy).Contents (Elt F)),
    StableHlo.binary main_v1 main_v50 main_v51 ((fun x i => Host.gather gather_S100000x4x32_S1600000x1_S1600000x4x32_12_0_n_n_0_1_1432 x i) : (⟨S100000x4x32, .f32⟩ : BufTy).Contents (Elt F) → (⟨S1600000x1, .i32⟩ : BufTy).Contents (Elt F) → (⟨S1600000x4x32, .f32⟩ : BufTy).Contents (Elt F)),
    StableHlo.unary main_v44 main_v52 (broadcastInDim S1600000x4x1 ![0, 1] bcast_S1600000x4_S1600000x4x1_0_1 : (⟨S1600000x4, .f32⟩ : BufTy).Contents (Elt F) → (⟨S1600000x4x1, .f32⟩ : BufTy).Contents (Elt F)),
    StableHlo.unary main_v52 main_v53 (broadcastInDim S1600000x4x32 ![0, 1, 2] bcast_S1600000x4x1_S1600000x4x32_0_1_2 : (⟨S1600000x4x1, .f32⟩ : BufTy).Contents (Elt F) → (⟨S1600000x4x32, .f32⟩ : BufTy).Contents (Elt F)),
    StableHlo.binary main_v51 main_v53 main_v54 (mulf : (⟨S1600000x4x32, .f32⟩ : BufTy).Contents (Elt F) → (⟨S1600000x4x32, .f32⟩ : BufTy).Contents (Elt F) → (⟨S1600000x4x32, .f32⟩ : BufTy).Contents (Elt F)),
    StableHlo.nullary main_cst_12 (constant S_ .f32 0x00000000#32),
    StableHlo.unary main_cst_12 main_v55 (broadcastInDim S100000x4x32 ![] bcast_S_S100000x4x32 : (⟨S_, .f32⟩ : BufTy).Contents (Elt F) → (⟨S100000x4x32, .f32⟩ : BufTy).Contents (Elt F)),
    StableHlo.unary main_v11 main_v56 (broadcastInDim S1600000x1 ![0] bcast_S1600000_S1600000x1_0 : (⟨S1600000, .i32⟩ : BufTy).Contents (Elt F) → (⟨S1600000x1, .i32⟩ : BufTy).Contents (Elt F)),
    StableHlo.ternary main_v55 main_v56 main_v54 main_v57 ((fun x i u => Host.scatterAdd scatter_S100000x4x32_S1600000x1_S1600000x4x32_12_0_0_1 x i u) : (⟨S100000x4x32, .f32⟩ : BufTy).Contents (Elt F) → (⟨S1600000x1, .i32⟩ : BufTy).Contents (Elt F) → (⟨S1600000x4x32, .f32⟩ : BufTy).Contents (Elt F) → (⟨S100000x4x32, .f32⟩ : BufTy).Contents (Elt F)),
    StableHlo.reshape main_v57 main_v58 rfl shapeCasts_S100000x4x32_S100000x128 ]

set_option maxRecDepth 4096 in
set_option maxHeartbeats 4000000 in
/-- The program is that straight line: the windows and the called functions unfolded, both sides
    are one chain of steps once sequencing is reassociated. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., reshape_bufs_sub .., unary_bufs_sub .., binary_bufs_sub .., nullary_bufs_sub .., binary_bufs_sub .., unary_bufs_sub .., binary_bufs_sub .., nullary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., reshape_bufs_sub ..⟩

end Cert.ReferenceIdeal.RefRun

end
-- ==== Proof.RefRun.lean ====
/-
  The reference's run.

  The reference program is a straight line of 80 host operations (the two calls unfolded at
  their call sites). Run from any memory with zero counters, every weakly fair execution ends, and at
  the end the result buffer holds the staged term `RefStages.result` of the five arguments' contents
  at the start, and the five arguments hold what they held.

  The contents after the line are the fold of the operations' results. At the result buffer the fold
  is rewritten operation by operation into the composed pure term of the arguments, which is the
  staged term once the stages' definitions are unfolded: the two are the same composition of the same
  operations, so the equation is closed without looking inside any reduction, gather or scatter.
-/
import proofs.«171934_j74148315398470_2_alg».proof.Proof.RefStages
import proofs.«171934_j74148315398470_2_alg».proof.Proof.RefRunOps
import proofs.«171934_j74148315398470_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

-- the reductions, gathers and scatters stay folded while the two sides are compared: the comparison
-- meets the same operation applied to the same operands on both sides and never needs their bodies
attribute [local irreducible] Host.reduce Host.gather Host.scatterAdd Host.reduceAdd in
set_option maxRecDepth 8192 in
set_option maxHeartbeats 4000000 in
/-- After the line the result buffer holds the staged term of the arguments' contents. -/
theorem out_eq (V : Valuation τ sig (Elt Ideal)) :
    after (ops (F := Ideal)) V (main_v58 : DevRef τ sig)
      = RefStages.result (V (main_arg0 : DevRef τ sig)) (V (main_arg1 : DevRef τ sig)) (V (main_arg2 : DevRef τ sig))
          (V (main_arg3 : DevRef τ sig)) (V (main_arg4 : DevRef τ sig)) := by
  after_results_simp
  rfl

set_option maxRecDepth 8192 in
set_option maxHeartbeats 4000000 in
/-- No operation of the line writes argument 0: it holds at the end what it held at the start. -/
theorem arg0_eq (V : Valuation τ sig (Elt Ideal)) :
    after (ops (F := Ideal)) V (main_arg0 : DevRef τ sig) = V (main_arg0 : DevRef τ sig) := by
  after_results_simp

set_option maxRecDepth 8192 in
set_option maxHeartbeats 4000000 in
/-- No operation of the line writes argument 1: it holds at the end what it held at the start. -/
theorem arg1_eq (V : Valuation τ sig (Elt Ideal)) :
    after (ops (F := Ideal)) V (main_arg1 : DevRef τ sig) = V (main_arg1 : DevRef τ sig) := by
  after_results_simp

set_option maxRecDepth 8192 in
set_option maxHeartbeats 4000000 in
/-- No operation of the line writes argument 2: it holds at the end what it held at the start. -/
theorem arg2_eq (V : Valuation τ sig (Elt Ideal)) :
    after (ops (F := Ideal)) V (main_arg2 : DevRef τ sig) = V (main_arg2 : DevRef τ sig) := by
  after_results_simp

set_option maxRecDepth 8192 in
set_option maxHeartbeats 4000000 in
/-- No operation of the line writes argument 3: it holds at the end what it held at the start. -/
theorem arg3_eq (V : Valuation τ sig (Elt Ideal)) :
    after (ops (F := Ideal)) V (main_arg3 : DevRef τ sig) = V (main_arg3 : DevRef τ sig) := by
  after_results_simp

set_option maxRecDepth 8192 in
set_option maxHeartbeats 4000000 in
/-- No operation of the line writes argument 4: it holds at the end what it held at the start. -/
theorem arg4_eq (V : Valuation τ sig (Elt Ideal)) :
    after (ops (F := Ideal)) V (main_arg4 : DevRef τ sig) = V (main_arg4 : DevRef τ sig) := by
  after_results_simp

/-- On the device, from any memory with zero counters: every weakly fair execution of the reference ends with
    the result buffer at the staged term of the arguments' contents at the start, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v58) = RefStages.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) :=
  (θ_run defs _ _).mono (fun _ h c => ⟨(h c main_v58).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefRun

end
-- ==== Proof.LibGatherScatter.lean ====
/-
  `stablehlo.gather` and the accumulating `stablehlo.scatter` READ AT AN INDEX, for start indices given as an `[E, 1]`
  array.

  What `x[idx]` and a segment sum lower to when the `E` start indices are the rows of an `[E, 1]` integer array, the
  index vector on axis 1 with its one component naming operand axis 0:
  * gather of a flat operand `[N]` (`vecGatherDims`, `gather_vec_apply`): result element `e` is the operand at the start
    index `idx[e, 0]`, read signed and clamped into `[0, N − 1]`;
  * gather of the rows of an operand `[N, C]` (`rowGatherDims`, `gather_row_apply`): result element `(e, j)` is the
    operand at row `idx[e, 0]` (signed, clamped into `[0, N − 1]`) and column `j`;
  * accumulating scatter of update rows `[E, C]` into an operand `[N, C]` (`rowScatterDims`, `scatterAdd_row_apply`):
    operand element `(i, j)` plus the sum of `upd[e, j]` over the update rows `e` whose start index `idx[e, 0]`, read
    signed and NOT clamped, is `i` (a row whose start index is outside `[0, N)` is dropped);
  * accumulating scatter of updates `[E]` into a flat operand `[N]` (`vecScatterDims`, `scatterAdd_vec_apply`): operand
    element `i` plus the sum of `upd[e]` over the `e` with `idx[e, 0] = i`.
  The conditions `wf` on the dimension numbers are decided on a program's literal shapes; any two proofs of them are
  equal, so a program's record with these field values is the one here.
-/
import Idealize.ShloMosaic.Lib.ValueIdx
import Idealize.ShloMosaic.PureOps.Ideal

noncomputable section

open scoped BigOperators

namespace Idealize.ShloMosaic.GatherScatter

open Idealize.ShloMosaic Idealize.ShloMosaic.ValueIdx

/-! ## The dimension numbers -/

/-- Gather of a flat operand `[N]` at start indices `[E, 1]`, result `[E]`: no offset axes, operand axis 0 collapsed,
    the index vector on axis 1 with its one component naming operand axis 0, slice size 1. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather of the rows of an operand `[N, C]` at start indices `[E, 1]`, result `[E, C]`: result axis 1 the offset axis
    (the column), operand axis 0 collapsed, the index vector on axis 1 with its one component naming operand axis 0,
    slice sizes one row by all `C` columns. -/
abbrev rowGatherDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Scatter of update rows `[E, C]` into an operand `[N, C]` at scatter indices `[E, 1]`: update axis 1 the window axis
    (the column), operand axis 0 inserted, the index vector on axis 1 with its one component naming operand axis 0. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of updates `[E]` into a flat operand `[N]` at scatter indices `[E, 1]`: no window axes, operand axis 0
    inserted, the index vector on axis 1 with its one component naming operand axis 0. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers read at an index -/

/-- THE FLAT GATHER READ AT `e`: the operand at the start index `idx[e, 0]`, read signed and clamped into
    `[0, N − 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE ROW GATHER READ AT `(e, j)`: the operand at row `idx[e, 0]`, read signed and clamped into `[0, N − 1]`, and
    column `j` (axis 0 takes the clamped start, no offset; axis 1 is not in the start index map and takes the result's
    offset coordinate). -/
theorem gather_row_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGatherDims N C E wf) x idx (ix2 e j) = x (ix2 ⟨min (idx (ix2 e 0)).toInt.toNat (N - 1), by omega⟩ j) := by
  unfold Host.gather
  congr 1
  funext a
  refine Fin.ext ?_
  match a with
  | ⟨0, _⟩ =>
    show (rowGatherDims N C E wf).start (ix2 e j) idx 0 + (rowGatherDims N C E wf).batchCoord (ix2 e j) 0
      + (rowGatherDims N C E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e j) ⟨List.idxOf (0 : Fin 2) (rowGatherDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N C E wf).start (ix2 e j) idx 1 + (rowGatherDims N C E wf).batchCoord (ix2 e j) 1
      + (rowGatherDims N C E wf).offCoord (ix2 e j) 1 = j.val
    rw [GatherDims.batchCoord_eq_zero _ _ _ List.not_mem_nil]
    have hs : (rowGatherDims N C E wf).start (ix2 e j) idx 1 = 0 := by
      unfold GatherDims.start
      rw [dif_neg (show (1 : Fin 2) ∉ (rowGatherDims N C E wf).startIndexMap from (by decide : (1 : Fin 2) ∉ [(0 : Fin 2)]))]
    rw [hs]
    simp only [Nat.add_zero, Nat.zero_add]
    have hk : (1 : Fin 2) ∈ (rowGatherDims N C E wf).sKept :=
      (GatherDims.mem_sKept _ _).mpr ⟨(by decide : (1 : Fin 2) ∉ [(0 : Fin 2)]), List.not_mem_nil⟩
    unfold GatherDims.offCoord
    rw [dif_pos hk]
    rfl

/-! ## The accumulating row scatter read at an index -/

section RowScatter
variable {N C E w : Nat} (wf : ScatterDims.WF ⟨2, ![N, C]⟩ ⟨2, ![E, 1]⟩ ⟨2, ![E, C]⟩ [1] [0] [0] 1)

/-- On operand axis 0 the window of update index `u` starts at the scatter index `idx[u₀, 0]`, read signed. -/
theorem rowScatter_start0 (idx : IVec ⟨2, ![E, 1]⟩ w) (u : (⟨2, ![E, C]⟩ : Shape).Idx) :
    (rowScatterDims N C E wf).start u idx (0 : Fin 2) = (idx (ix2 (u 0) 0)).toInt := by
  unfold ScatterDims.start
  rw [dif_pos (show (0 : Fin 2) ∈ (rowScatterDims N C E wf).scatterDimsToOperandDims from List.mem_singleton.mpr rfl)]
  have hsi : (rowScatterDims N C E wf).siIdx u ⟨List.idxOf (0 : Fin 2) (rowScatterDims N C E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- Operand axis 1 is not named by the scatter index: its window starts at `0`. -/
theorem rowScatter_start1 (idx : IVec ⟨2, ![E, 1]⟩ w) (u : (⟨2, ![E, C]⟩ : Shape).Idx) :
    (rowScatterDims N C E wf).start u idx (1 : Fin 2) = 0 := by
  unfold ScatterDims.start
  rw [dif_neg (show (1 : Fin 2) ∉ (rowScatterDims N C E wf).scatterDimsToOperandDims from
    (by decide : (1 : Fin 2) ∉ [(0 : Fin 2)]))]

/-- Operand axis 0 is an inserted axis: no window coordinate. -/
theorem rowScatter_window0 (u : (⟨2, ![E, C]⟩ : Shape).Idx) :
    (rowScatterDims N C E wf).window u (0 : Fin 2) = 0 := by
  unfold ScatterDims.window
  rw [dif_neg (show (0 : Fin 2) ∉ (rowScatterDims N C E wf).sKept from
    (by decide : (0 : Fin 2) ∉ (List.finRange 2).filter (· ∉ [(0 : Fin 2)])))]

/-- On operand axis 1 the window coordinate of update index `u` is its column. -/
theorem rowScatter_window1 (u : (⟨2, ![E, C]⟩ : Shape).Idx) :
    (rowScatterDims N C E wf).window u (1 : Fin 2) = (u 1).val := by
  unfold ScatterDims.window
  rw [dif_pos (show (1 : Fin 2) ∈ (rowScatterDims N C E wf).sKept from
    (by decide : (1 : Fin 2) ∈ (List.finRange 2).filter (· ∉ [(0 : Fin 2)])))]
  rfl

/-- Update index `u = (e, j')` lands on operand index `(i, j)` exactly when the signed start index `idx[e, 0]` is `i`
    and `j' = j`; otherwise it lands elsewhere or, with the start outside `[0, N)`, nowhere. -/
theorem rowScatter_resultIdx_iff (idx : IVec ⟨2, ![E, 1]⟩ w) (u : (⟨2, ![E, C]⟩ : Shape).Idx) (i : Fin N) (j : Fin C) :
    (rowScatterDims N C E wf).resultIdx? u idx = some (ix2 i j) ↔ (idx (ix2 (u 0) 0)).toInt = (i.val : Int) ∧ u 1 = j := by
  unfold ScatterDims.resultIdx?
  constructor
  · intro h
    split at h
    · rename_i hall
      have hf := Option.some.inj h
      have h0 := congrArg Fin.val (congrFun hf (0 : Fin 2))
      have h1 := congrArg Fin.val (congrFun hf (1 : Fin 2))
      have ha0 := hall (0 : Fin 2)
      have ha1 := hall (1 : Fin 2)
      simp only [rowScatter_start0, rowScatter_start1, rowScatter_window0, rowScatter_window1] at h0 h1 ha0 ha1
      refine ⟨?_, Fin.ext ?_⟩
      · have : (i.val : Int) = ((ix2 i j (0 : Fin 2)).val : Int) := rfl
        omega
      · have : (j.val) = ((ix2 i j (1 : Fin 2)).val) := rfl
        omega
    · exact absurd h (by simp)
  · rintro ⟨h0, h1⟩
    have hall : ∀ a : Fin 2, 0 ≤ (rowScatterDims N C E wf).start u idx a + (rowScatterDims N C E wf).window u a ∧
        (rowScatterDims N C E wf).start u idx a + (rowScatterDims N C E wf).window u a
          < ((⟨2, ![N, C]⟩ : Shape).size a : Int) := by
      intro a
      match a with
      | ⟨0, _⟩ =>
        show 0 ≤ (rowScatterDims N C E wf).start u idx (0 : Fin 2) + ((rowScatterDims N C E wf).window u (0 : Fin 2) : Int) ∧
          (rowScatterDims N C E wf).start u idx (0 : Fin 2) + ((rowScatterDims N C E wf).window u (0 : Fin 2) : Int) < (N : Int)
        rw [rowScatter_start0, rowScatter_window0, h0]
        have := i.isLt
        omega
      | ⟨1, _⟩ =>
        show 0 ≤ (rowScatterDims N C E wf).start u idx (1 : Fin 2) + ((rowScatterDims N C E wf).window u (1 : Fin 2) : Int) ∧
          (rowScatterDims N C E wf).start u idx (1 : Fin 2) + ((rowScatterDims N C E wf).window u (1 : Fin 2) : Int) < (C : Int)
        rw [rowScatter_start1, rowScatter_window1]
        have := idx2_lt1 u
        omega
    rw [dif_pos hall]
    congr 1
    funext a
    refine Fin.ext ?_
    match a with
    | ⟨0, _⟩ =>
      show ((rowScatterDims N C E wf).start u idx (0 : Fin 2) + ((rowScatterDims N C E wf).window u (0 : Fin 2) : Int)).toNat = i.val
      rw [rowScatter_start0, rowScatter_window0, h0]
      omega
    | ⟨1, _⟩ =>
      show ((rowScatterDims N C E wf).start u idx (1 : Fin 2) + ((rowScatterDims N C E wf).window u (1 : Fin 2) : Int)).toNat = j.val
      rw [rowScatter_start1, rowScatter_window1, ← h1]
      omega

/-- THE ACCUMULATING ROW SCATTER READ AT `(i, j)`: the operand's element plus the sum of `upd[e, j]` over the update
    rows `e` whose start index `idx[e, 0]`, read signed and not clamped, is `i`; a row whose start index is outside
    `[0, N)` contributes nothing. (The update indices landing on `(i, j)` are `(e, j)` for those `e`: the sum is
    re-indexed along `e ↦ (e, j)`.) -/
theorem scatterAdd_row_apply
    (x : (⟨2, ![N, C]⟩ : Shape).Idx → EReal) (idx : IVec ⟨2, ![E, 1]⟩ w) (upd : (⟨2, ![E, C]⟩ : Shape).Idx → EReal)
    (i : Fin N) (j : Fin C) :
    Ideal.hostScatterAdd (rowScatterDims N C E wf) x idx upd (ix2 i j)
      = x (ix2 i j) + ∑ e ∈ Finset.univ.filter (fun e : Fin E => (idx (ix2 e 0)).toInt = (i.val : Int)), upd (ix2 e j) := by
  unfold Ideal.hostScatterAdd
  congr 1
  refine Finset.sum_nbij' (fun u => u 0) (fun e => ix2 e j) ?_ ?_ ?_ ?_ ?_
  · intro u hu
    exact Finset.mem_filter.mpr ⟨Finset.mem_univ _, ((rowScatter_resultIdx_iff wf idx u i j).mp (Finset.mem_filter.mp hu).2).1⟩
  · intro e he
    exact Finset.mem_filter.mpr ⟨Finset.mem_univ _,
      (rowScatter_resultIdx_iff wf idx (ix2 e j) i j).mpr ⟨(Finset.mem_filter.mp he).2, rfl⟩⟩
  · intro u hu
    have h1 := ((rowScatter_resultIdx_iff wf idx u i j).mp (Finset.mem_filter.mp hu).2).2
    rw [← h1]
    exact (eq_ix2 u).symm
  · intro e _
    rfl
  · intro u hu
    have h1 := ((rowScatter_resultIdx_iff wf idx u i j).mp (Finset.mem_filter.mp hu).2).2
    rw [← h1]
    exact congrArg upd (eq_ix2 u)

end RowScatter

/-! ## The accumulating flat scatter read at an index -/

section VecScatter
variable {N E w : Nat} (wf : ScatterDims.WF ⟨1, ![N]⟩ ⟨2, ![E, 1]⟩ ⟨1, ![E]⟩ [] [0] [0] 1)

/-- On operand axis 0 the window of update index `u` starts at the scatter index `idx[u₀, 0]`, read signed. -/
theorem vecScatter_start0 (idx : IVec ⟨2, ![E, 1]⟩ w) (u : (⟨1, ![E]⟩ : Shape).Idx) :
    (vecScatterDims N E wf).start u idx (0 : Fin 1) = (idx (ix2 (u 0) 0)).toInt := by
  unfold ScatterDims.start
  rw [dif_pos (show (0 : Fin 1) ∈ (vecScatterDims N E wf).scatterDimsToOperandDims from List.mem_singleton.mpr rfl)]
  have hsi : (vecScatterDims N E wf).siIdx u ⟨List.idxOf (0 : Fin 1) (vecScatterDims N E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- Operand axis 0 is an inserted axis: no window coordinate. -/
theorem vecScatter_window0 (u : (⟨1, ![E]⟩ : Shape).Idx) :
    (vecScatterDims N E wf).window u (0 : Fin 1) = 0 := by
  unfold ScatterDims.window
  rw [dif_neg (show (0 : Fin 1) ∉ (vecScatterDims N E wf).sKept from
    (by decide : (0 : Fin 1) ∉ (List.finRange 1).filter (· ∉ [(0 : Fin 1)])))]

/-- Update index `u = (e)` lands on operand index `(i)` exactly when the signed start index `idx[e, 0]` is `i`. -/
theorem vecScatter_resultIdx_iff (idx : IVec ⟨2, ![E, 1]⟩ w) (u : (⟨1, ![E]⟩ : Shape).Idx) (i : Fin N) :
    (vecScatterDims N E wf).resultIdx? u idx = some (ix1 i) ↔ (idx (ix2 (u 0) 0)).toInt = (i.val : Int) := by
  unfold ScatterDims.resultIdx?
  constructor
  · intro h
    split at h
    · rename_i hall
      have hf := Option.some.inj h
      have h0 := congrArg Fin.val (congrFun hf (0 : Fin 1))
      have ha0 := hall (0 : Fin 1)
      simp only [vecScatter_start0, vecScatter_window0] at h0 ha0
      have : (i.val : Int) = ((ix1 i (0 : Fin 1)).val : Int) := rfl
      omega
    · exact absurd h (by simp)
  · intro h0
    have hall : ∀ a : Fin 1, 0 ≤ (vecScatterDims N E wf).start u idx a + (vecScatterDims N E wf).window u a ∧
        (vecScatterDims N E wf).start u idx a + (vecScatterDims N E wf).window u a
          < ((⟨1, ![N]⟩ : Shape).size a : Int) := by
      intro a
      match a with
      | ⟨0, _⟩ =>
        show 0 ≤ (vecScatterDims N E wf).start u idx (0 : Fin 1) + ((vecScatterDims N E wf).window u (0 : Fin 1) : Int) ∧
          (vecScatterDims N E wf).start u idx (0 : Fin 1) + ((vecScatterDims N E wf).window u (0 : Fin 1) : Int) < (N : Int)
        rw [vecScatter_start0, vecScatter_window0, h0]
        have := i.isLt
        omega
    rw [dif_pos hall]
    congr 1
    funext a
    refine Fin.ext ?_
    match a with
    | ⟨0, _⟩ =>
      show ((vecScatterDims N E wf).start u idx (0 : Fin 1) + ((vecScatterDims N E wf).window u (0 : Fin 1) : Int)).toNat = i.val
      rw [vecScatter_start0, vecScatter_window0, h0]
      omega

/-- THE ACCUMULATING FLAT SCATTER READ AT `i`: the operand's element plus the sum of `upd[e]` over the `e` whose start
    index `idx[e, 0]`, read signed and not clamped, is `i`; an update whose start index is outside `[0, N)` contributes
    nothing. -/
theorem scatterAdd_vec_apply
    (x : (⟨1, ![N]⟩ : Shape).Idx → EReal) (idx : IVec ⟨2, ![E, 1]⟩ w) (upd : (⟨1, ![E]⟩ : Shape).Idx → EReal)
    (i : Fin N) :
    Ideal.hostScatterAdd (vecScatterDims N E wf) x idx upd (ix1 i)
      = x (ix1 i) + ∑ e ∈ Finset.univ.filter (fun e : Fin E => (idx (ix2 e 0)).toInt = (i.val : Int)), upd (ix1 e) := by
  unfold Ideal.hostScatterAdd
  congr 1
  refine Finset.sum_nbij' (fun u => u 0) (fun e => ix1 e) ?_ ?_ ?_ ?_ ?_
  · intro u hu
    exact Finset.mem_filter.mpr ⟨Finset.mem_univ _, (vecScatter_resultIdx_iff wf idx u i).mp (Finset.mem_filter.mp hu).2⟩
  · intro e he
    exact Finset.mem_filter.mpr ⟨Finset.mem_univ _,
      (vecScatter_resultIdx_iff wf idx (ix1 e) i).mpr (Finset.mem_filter.mp he).2⟩
  · intro u _
    exact (eq_ix1 u).symm
  · intro e _
    rfl
  · intro u _
    exact congrArg upd (eq_ix1 u)

end VecScatter

end Idealize.ShloMosaic.GatherScatter

end
-- ==== Proof.KernelRead.lean ====
/-
  The host stages around the kernel's regions READ AT AN INDEX, at the ideal float instance.

  * the two halves of the score array: entry `(n, h)` of the source half is the array at `(n, h)`, of the destination
    half the array at `(n, h + 4)`;
  * the gathered projections: entry `(e, c)` is the projection at the row of edge `e`'s source (wrapped, then clamped
    into `[0, 99999]`) and column `c`;
  * the final sum: entry `(n, c)` is the sum of the weighted rows `(e, c)` over the edges `e` whose destination (read
    signed, not wrapped) is `n`.
-/
import proofs.«171934_j74148315398470_2_alg».proof.Proof.EdgeStages
import proofs.«171934_j74148315398470_2_alg».proof.Proof.LibGatherScatter
import Idealize.ShloMosaic.PureOps.Ideal.Laws
import Idealize.ShloMosaic.Lib.Pipeline.Value

noncomputable section

open scoped BigOperators

namespace Cert.KernelIdeal.KernelRead

open Cert.KernelIdeal Idealize.ShloMosaic Idealize.ShloMosaic.ValueIdx Idealize.ShloMosaic.GatherScatter

variable [Facts]
open Facts₀ Facts

/-! ## The two halves of the score array -/

/-- THE SOURCE HALF READ AT `(n, h)`: the score array at `(n, h)`. -/
theorem headsL_apply (s : FVec Ideal S100000x8 .f32) (n : Fin 100000) (h : Fin 4) :
    EdgeStages.headsL s (ix2 n h) = s (ix2 n ⟨h.val, by omega⟩) :=
  extractStridedSlice_apply _ s _ _ _ fun a => match a with
    | ⟨0, _⟩ => (Nat.zero_add _).symm
    | ⟨1, _⟩ => (Nat.zero_add _).symm

/-- THE DESTINATION HALF READ AT `(n, h)`: the score array at `(n, h + 4)`. -/
theorem headsR_apply (s : FVec Ideal S100000x8 .f32) (n : Fin 100000) (h : Fin 4) :
    EdgeStages.headsR s (ix2 n h) = s (ix2 n ⟨h.val + 4, by omega⟩) :=
  extractStridedSlice_apply _ s _ _ _ fun a => match a with
    | ⟨0, _⟩ => (Nat.zero_add _).symm
    | ⟨1, _⟩ => Nat.add_comm _ _

/-! ## The gathered projections -/

/-- The program's row gather record is the general one at its sizes. -/
theorem gather_eq_row :
    gather_S100000x128_S1600000x1_S1600000x128_1_0_n_n_0_1_1128
      = rowGatherDims 100000 128 1600000 gather_S100000x128_S1600000x1_S1600000x128_1_0_n_n_0_1_1128_wf := rfl

/-- THE GATHERED PROJECTIONS READ AT `(e, c)`: the projection at the row of the edge's source (wrapped, then clamped into
    `[0, 99999]`) and column `c`. -/
theorem projSrc_apply (P : FVec Ideal S100000x128 .f32) (src : IVec S1600000 32) (e : Fin 1600000) (c : Fin 128) :
    EdgeStages.projSrc P src (ix2 e c)
      = P (ix2 ⟨min (EdgeStages.normIdx src (ix2 e 0)).toInt.toNat (100000 - 1), by omega⟩ c) := by
  unfold EdgeStages.projSrc
  rw [gather_eq_row, gather_row_apply (by omega)]

/-! ## The final sum -/

/-- The program's row scatter record is the general one at its sizes. -/
theorem scatter_eq_row :
    scatter_S100000x128_S1600000x1_S1600000x128_1_0_0_1
      = rowScatterDims 100000 128 1600000 scatter_S100000x128_S1600000x1_S1600000x128_1_0_0_1_wf := rfl

/-- The final sum as the accumulating row scatter of the weighted rows into the zero array. -/
theorem aggregate_eq (wt : FVec Ideal S1600000x128 .f32) (dst : IVec S1600000 32) :
    EdgeStages.aggregate wt dst
      = Ideal.hostScatterAdd (rowScatterDims 100000 128 1600000 scatter_S100000x128_S1600000x1_S1600000x128_1_0_0_1_wf)
          (broadcastInDim S100000x128 ![] bcast_S_S100000x128 (constant (F := Ideal) S_ .f32 0x00000000#32))
          (EdgeStages.rawIdx dst) wt := by
  unfold EdgeStages.aggregate Host.scatterAdd
  rw [Ideal.hostScatterAdd_def, scatter_eq_row]

/-- THE FINAL SUM READ AT `(n, c)`: the sum of the weighted rows `(e, c)` over the edges `e` whose destination, read
    signed and not wrapped, is `n`. The accumulation starts from the constant `0`. -/
theorem aggregate_apply (wt : FVec Ideal S1600000x128 .f32) (dst : IVec S1600000 32) (n : Fin 100000) (c : Fin 128) :
    EdgeStages.aggregate wt dst (ix2 n c)
      = ∑ e ∈ Finset.univ.filter (fun e : Fin 1600000 => (EdgeStages.rawIdx dst (ix2 e 0)).toInt = (n.val : Int)),
          wt (ix2 e c) := by
  rw [aggregate_eq, scatterAdd_row_apply]
  show Ideal.ofBits .f32 0x00000000#32 + _ = _
  rw [Ideal.ofBits_zero_f32, zero_add]

end Cert.KernelIdeal.KernelRead

end
-- ==== Proof.LibSlabGatherScatter.lean ====
/-
  `stablehlo.gather` and the accumulating `stablehlo.scatter` READ AT AN INDEX for a rank-3 operand `[N, A, B]` whose
  axis 0 is indexed by the rows of an `[E, 1]` integer array and whose axes 1 and 2 are carried whole (a "slab"
  `[A, B]` per start index), and three row-major reshapes read at an index.

  * gather of the slabs of an operand `[N, A, B]` (`slabGatherDims`, `gather_slab_apply`): result element `(e, a, b)`
    is the operand at slab `idx[e, 0]` (read signed, clamped into `[0, N − 1]`) and position `(a, b)` in the slab;
  * accumulating scatter of update slabs `[E, A, B]` into an operand `[N, A, B]` (`slabScatterDims`,
    `scatterAdd_slab_apply`): operand element `(i, a, b)` plus the sum of `upd[e, a, b]` over the update slabs `e` whose
    start index `idx[e, 0]`, read signed and NOT clamped, is `i` (a slab whose start index is outside `[0, N)` is
    dropped);
  * the reshapes (`shapeCast_split_apply`, `shapeCast_merge_apply`, `shapeCast_flat_apply`): `[N, A·B] → [N, A, B]`,
    `[N, A, B] → [N, A·B]` and `[1, A, B] → [A·B]` keep the row-major position, so `(n, a, b)` corresponds to
    `(n, a·B + b)` and a flat position `r` to `(r / B, r % B)`.
  The conditions `wf` on the dimension numbers are decided on a program's literal shapes; any two proofs of them are
  equal, so a program's record with these field values is the one here.
-/
import Idealize.ShloMosaic.Lib.ValueIdx
import Idealize.ShloMosaic.PureOps.Ideal
import Idealize.ShloMosaic.Lib.Pipeline.Value

noncomputable section

open scoped BigOperators

namespace Idealize.ShloMosaic.SlabGatherScatter

open Idealize.ShloMosaic Idealize.ShloMosaic.ValueIdx

/-! ## The dimension numbers -/

/-- Gather of the slabs of an operand `[N, A, B]` at start indices `[E, 1]`, result `[E, A, B]`: result axes 1 and 2 the
    offset axes (the position in the slab), operand axis 0 collapsed, the index vector on axis 1 with its one component
    naming operand axis 0, slice sizes one slab: `1` by `A` by `B`. -/
abbrev slabGatherDims (N A B E : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- Scatter of update slabs `[E, A, B]` into an operand `[N, A, B]` at scatter indices `[E, 1]`: update axes 1 and 2 the
    window axes (the position in the slab), operand axis 0 inserted, the index vector on axis 1 with its one component
    naming operand axis 0. -/
abbrev slabScatterDims (N A B E : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

/-! ## The slab gather read at an index -/

/-- THE SLAB GATHER READ AT `(e, a, b)`: the operand at slab `idx[e, 0]`, read signed and clamped into `[0, N − 1]`, and
    position `(a, b)` (axis 0 takes the clamped start, no offset; axes 1 and 2 are not in the start index map and take
    the result's offset coordinates). -/
theorem gather_slab_apply {α : Type} {N A B E w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (slabGatherDims N A B E wf) x idx (ix3 e a b)
      = x (ix3 ⟨min (idx (ix2 e 0)).toInt.toNat (N - 1), by omega⟩ a b) := by
  unfold Host.gather
  congr 1
  funext c
  refine Fin.ext ?_
  match c with
  | ⟨0, _⟩ =>
    show (slabGatherDims N A B E wf).start (ix3 e a b) idx 0 + (slabGatherDims N A B E wf).batchCoord (ix3 e a b) 0
      + (slabGatherDims N A B E wf).offCoord (ix3 e a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabGatherDims N A B E wf).startIndexMap from List.mem_singleton.mpr rfl)]
    have hsi : (slabGatherDims N A B E wf).siIdx (ix3 e a b) ⟨List.idxOf (0 : Fin 3) (slabGatherDims N A B E wf).startIndexMap,
        List.idxOf_lt_length_iff.2 (List.mem_singleton.mpr rfl)⟩ = ix2 e 0 := by
      funext d; refine Fin.ext ?_
      match d with
      | ⟨0, _⟩ => rfl
      | ⟨1, _⟩ => rfl
    rw [hsi]
    rfl
  | ⟨1, _⟩ =>
    show (slabGatherDims N A B E wf).start (ix3 e a b) idx 1 + (slabGatherDims N A B E wf).batchCoord (ix3 e a b) 1
      + (slabGatherDims N A B E wf).offCoord (ix3 e a b) 1 = a.val
    rw [GatherDims.batchCoord_eq_zero _ _ _ List.not_mem_nil]
    have hs : (slabGatherDims N A B E wf).start (ix3 e a b) idx 1 = 0 := by
      unfold GatherDims.start
      rw [dif_neg (show (1 : Fin 3) ∉ (slabGatherDims N A B E wf).startIndexMap from (by decide : (1 : Fin 3) ∉ [(0 : Fin 3)]))]
    rw [hs]
    simp only [Nat.add_zero, Nat.zero_add]
    have hk : (1 : Fin 3) ∈ (slabGatherDims N A B E wf).sKept :=
      (GatherDims.mem_sKept _ _).mpr ⟨(by decide : (1 : Fin 3) ∉ [(0 : Fin 3)]), List.not_mem_nil⟩
    unfold GatherDims.offCoord
    rw [dif_pos hk]
    rfl
  | ⟨2, _⟩ =>
    show (slabGatherDims N A B E wf).start (ix3 e a b) idx 2 + (slabGatherDims N A B E wf).batchCoord (ix3 e a b) 2
      + (slabGatherDims N A B E wf).offCoord (ix3 e a b) 2 = b.val
    rw [GatherDims.batchCoord_eq_zero _ _ _ List.not_mem_nil]
    have hs : (slabGatherDims N A B E wf).start (ix3 e a b) idx 2 = 0 := by
      unfold GatherDims.start
      rw [dif_neg (show (2 : Fin 3) ∉ (slabGatherDims N A B E wf).startIndexMap from (by decide : (2 : Fin 3) ∉ [(0 : Fin 3)]))]
    rw [hs]
    simp only [Nat.add_zero, Nat.zero_add]
    have hk : (2 : Fin 3) ∈ (slabGatherDims N A B E wf).sKept :=
      (GatherDims.mem_sKept _ _).mpr ⟨(by decide : (2 : Fin 3) ∉ [(0 : Fin 3)]), List.not_mem_nil⟩
    unfold GatherDims.offCoord
    rw [dif_pos hk]
    rfl

/-! ## The accumulating slab scatter read at an index -/

/-- A rank-3 index's coordinates are below the extents, written as the extents themselves so that `omega` can use
    them. -/
theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

section SlabScatter
variable {N A B E w : Nat} (wf : ScatterDims.WF ⟨3, ![N, A, B]⟩ ⟨2, ![E, 1]⟩ ⟨3, ![E, A, B]⟩ [1, 2] [0] [0] 1)

/-- On operand axis 0 the window of update index `u` starts at the scatter index `idx[u₀, 0]`, read signed. -/
theorem slabScatter_start0 (idx : IVec ⟨2, ![E, 1]⟩ w) (u : (⟨3, ![E, A, B]⟩ : Shape).Idx) :
    (slabScatterDims N A B E wf).start u idx (0 : Fin 3) = (idx (ix2 (u 0) 0)).toInt := by
  unfold ScatterDims.start
  rw [dif_pos (show (0 : Fin 3) ∈ (slabScatterDims N A B E wf).scatterDimsToOperandDims from List.mem_singleton.mpr rfl)]
  have hsi : (slabScatterDims N A B E wf).siIdx u ⟨List.idxOf (0 : Fin 3) (slabScatterDims N A B E wf).scatterDimsToOperandDims,
      List.idxOf_lt_length_iff.2 (List.mem_singleton.mpr rfl)⟩ = ix2 (u 0) 0 := by
    funext d; refine Fin.ext ?_
    match d with
    | ⟨0, _⟩ => rfl
    | ⟨1, _⟩ => rfl
  rw [hsi]
  rfl

/-- Operand axis 1 is not named by the scatter index: its window starts at `0`. -/
theorem slabScatter_start1 (idx : IVec ⟨2, ![E, 1]⟩ w) (u : (⟨3, ![E, A, B]⟩ : Shape).Idx) :
    (slabScatterDims N A B E wf).start u idx (1 : Fin 3) = 0 := by
  unfold ScatterDims.start
  rw [dif_neg (show (1 : Fin 3) ∉ (slabScatterDims N A B E wf).scatterDimsToOperandDims from
    (by decide : (1 : Fin 3) ∉ [(0 : Fin 3)]))]

/-- Operand axis 2 is not named by the scatter index: its window starts at `0`. -/
theorem slabScatter_start2 (idx : IVec ⟨2, ![E, 1]⟩ w) (u : (⟨3, ![E, A, B]⟩ : Shape).Idx) :
    (slabScatterDims N A B E wf).start u idx (2 : Fin 3) = 0 := by
  unfold ScatterDims.start
  rw [dif_neg (show (2 : Fin 3) ∉ (slabScatterDims N A B E wf).scatterDimsToOperandDims from
    (by decide : (2 : Fin 3) ∉ [(0 : Fin 3)]))]

/-- Operand axis 0 is an inserted axis: no window coordinate. -/
theorem slabScatter_window0 (u : (⟨3, ![E, A, B]⟩ : Shape).Idx) :
    (slabScatterDims N A B E wf).window u (0 : Fin 3) = 0 := by
  unfold ScatterDims.window
  rw [dif_neg (show (0 : Fin 3) ∉ (slabScatterDims N A B E wf).sKept from
    (by decide : (0 : Fin 3) ∉ (List.finRange 3).filter (· ∉ [(0 : Fin 3)])))]

/-- On operand axis 1 the window coordinate of update index `u` is its coordinate on axis 1. -/
theorem slabScatter_window1 (u : (⟨3, ![E, A, B]⟩ : Shape).Idx) :
    (slabScatterDims N A B E wf).window u (1 : Fin 3) = (u 1).val := by
  unfold ScatterDims.window
  rw [dif_pos (show (1 : Fin 3) ∈ (slabScatterDims N A B E wf).sKept from
    (by decide : (1 : Fin 3) ∈ (List.finRange 3).filter (· ∉ [(0 : Fin 3)])))]
  rfl

/-- On operand axis 2 the window coordinate of update index `u` is its coordinate on axis 2. -/
theorem slabScatter_window2 (u : (⟨3, ![E, A, B]⟩ : Shape).Idx) :
    (slabScatterDims N A B E wf).window u (2 : Fin 3) = (u 2).val := by
  unfold ScatterDims.window
  rw [dif_pos (show (2 : Fin 3) ∈ (slabScatterDims N A B E wf).sKept from
    (by decide : (2 : Fin 3) ∈ (List.finRange 3).filter (· ∉ [(0 : Fin 3)])))]
  rfl

/-- Update index `u = (e, a', b')` lands on operand index `(i, a, b)` exactly when the signed start index `idx[e, 0]`
    is `i` and `(a', b') = (a, b)`; otherwise it lands elsewhere or, with the start outside `[0, N)`, nowhere. -/
theorem slabScatter_resultIdx_iff (idx : IVec ⟨2, ![E, 1]⟩ w) (u : (⟨3, ![E, A, B]⟩ : Shape).Idx)
    (i : Fin N) (a : Fin A) (b : Fin B) :
    (slabScatterDims N A B E wf).resultIdx? u idx = some (ix3 i a b)
      ↔ (idx (ix2 (u 0) 0)).toInt = (i.val : Int) ∧ u 1 = a ∧ u 2 = b := by
  unfold ScatterDims.resultIdx?
  constructor
  · intro h
    split at h
    · rename_i hall
      have hf := Option.some.inj h
      have h0 := congrArg Fin.val (congrFun hf (0 : Fin 3))
      have h1 := congrArg Fin.val (congrFun hf (1 : Fin 3))
      have h2 := congrArg Fin.val (congrFun hf (2 : Fin 3))
      have ha0 := hall (0 : Fin 3)
      have ha1 := hall (1 : Fin 3)
      have ha2 := hall (2 : Fin 3)
      simp only [slabScatter_start0, slabScatter_start1, slabScatter_start2, slabScatter_window0, slabScatter_window1,
        slabScatter_window2] at h0 h1 h2 ha0 ha1 ha2
      refine ⟨?_, Fin.ext ?_, Fin.ext ?_⟩
      · have : (i.val : Int) = ((ix3 i a b (0 : Fin 3)).val : Int) := rfl
        omega
      · have : (a.val) = ((ix3 i a b (1 : Fin 3)).val) := rfl
        omega
      · have : (b.val) = ((ix3 i a b (2 : Fin 3)).val) := rfl
        omega
    · exact absurd h (by simp)
  · rintro ⟨h0, h1, h2⟩
    have hall : ∀ c : Fin 3, 0 ≤ (slabScatterDims N A B E wf).start u idx c + (slabScatterDims N A B E wf).window u c ∧
        (slabScatterDims N A B E wf).start u idx c + (slabScatterDims N A B E wf).window u c
          < ((⟨3, ![N, A, B]⟩ : Shape).size c : Int) := by
      intro c
      match c with
      | ⟨0, _⟩ =>
        show 0 ≤ (slabScatterDims N A B E wf).start u idx (0 : Fin 3) + ((slabScatterDims N A B E wf).window u (0 : Fin 3) : Int) ∧
          (slabScatterDims N A B E wf).start u idx (0 : Fin 3) + ((slabScatterDims N A B E wf).window u (0 : Fin 3) : Int) < (N : Int)
        rw [slabScatter_start0, slabScatter_window0, h0]
        have := i.isLt
        omega
      | ⟨1, _⟩ =>
        show 0 ≤ (slabScatterDims N A B E wf).start u idx (1 : Fin 3) + ((slabScatterDims N A B E wf).window u (1 : Fin 3) : Int) ∧
          (slabScatterDims N A B E wf).start u idx (1 : Fin 3) + ((slabScatterDims N A B E wf).window u (1 : Fin 3) : Int) < (A : Int)
        rw [slabScatter_start1, slabScatter_window1]
        have := idx3_lt1 u
        omega
      | ⟨2, _⟩ =>
        show 0 ≤ (slabScatterDims N A B E wf).start u idx (2 : Fin 3) + ((slabScatterDims N A B E wf).window u (2 : Fin 3) : Int) ∧
          (slabScatterDims N A B E wf).start u idx (2 : Fin 3) + ((slabScatterDims N A B E wf).window u (2 : Fin 3) : Int) < (B : Int)
        rw [slabScatter_start2, slabScatter_window2]
        have := idx3_lt2 u
        omega
    rw [dif_pos hall]
    congr 1
    funext c
    refine Fin.ext ?_
    match c with
    | ⟨0, _⟩ =>
      show ((slabScatterDims N A B E wf).start u idx (0 : Fin 3) + ((slabScatterDims N A B E wf).window u (0 : Fin 3) : Int)).toNat = i.val
      rw [slabScatter_start0, slabScatter_window0, h0]
      omega
    | ⟨1, _⟩ =>
      show ((slabScatterDims N A B E wf).start u idx (1 : Fin 3) + ((slabScatterDims N A B E wf).window u (1 : Fin 3) : Int)).toNat = a.val
      rw [slabScatter_start1, slabScatter_window1, ← h1]
      omega
    | ⟨2, _⟩ =>
      show ((slabScatterDims N A B E wf).start u idx (2 : Fin 3) + ((slabScatterDims N A B E wf).window u (2 : Fin 3) : Int)).toNat = b.val
      rw [slabScatter_start2, slabScatter_window2, ← h2]
      omega

/-- THE ACCUMULATING SLAB SCATTER READ AT `(i, a, b)`: the operand's element plus the sum of `upd[e, a, b]` over the
    update slabs `e` whose start index `idx[e, 0]`, read signed and not clamped, is `i`; a slab whose start index is
    outside `[0, N)` contributes nothing. (The update indices landing on `(i, a, b)` are `(e, a, b)` for those `e`: the
    sum is re-indexed along `e ↦ (e, a, b)`.) -/
theorem scatterAdd_slab_apply
    (x : (⟨3, ![N, A, B]⟩ : Shape).Idx → EReal) (idx : IVec ⟨2, ![E, 1]⟩ w) (upd : (⟨3, ![E, A, B]⟩ : Shape).Idx → EReal)
    (i : Fin N) (a : Fin A) (b : Fin B) :
    Ideal.hostScatterAdd (slabScatterDims N A B E wf) x idx upd (ix3 i a b)
      = x (ix3 i a b)
        + ∑ e ∈ Finset.univ.filter (fun e : Fin E => (idx (ix2 e 0)).toInt = (i.val : Int)), upd (ix3 e a b) := by
  unfold Ideal.hostScatterAdd
  congr 1
  refine Finset.sum_nbij' (fun u => u 0) (fun e => ix3 e a b) ?_ ?_ ?_ ?_ ?_
  · intro u hu
    exact Finset.mem_filter.mpr ⟨Finset.mem_univ _,
      ((slabScatter_resultIdx_iff wf idx u i a b).mp (Finset.mem_filter.mp hu).2).1⟩
  · intro e he
    exact Finset.mem_filter.mpr ⟨Finset.mem_univ _,
      (slabScatter_resultIdx_iff wf idx (ix3 e a b) i a b).mpr ⟨(Finset.mem_filter.mp he).2, rfl, rfl⟩⟩
  · intro u hu
    have h12 := ((slabScatter_resultIdx_iff wf idx u i a b).mp (Finset.mem_filter.mp hu).2).2
    rw [← h12.1, ← h12.2]
    exact (eq_ix3 u).symm
  · intro e _
    rfl
  · intro u hu
    have h12 := ((slabScatter_resultIdx_iff wf idx u i a b).mp (Finset.mem_filter.mp hu).2).2
    rw [← h12.1, ← h12.2]
    exact congrArg upd (eq_ix3 u)

end SlabScatter

/-! ## Three row-major reshapes read at an index -/

/-- Position `a·B + b` of a slab `[A, B]` laid out row-major is below `A·B`. -/
theorem slabPos_lt {A B : Nat} (a : Fin A) (b : Fin B) : a.val * B + b.val < A * B := by
  have h1 : (a.val + 1) * B ≤ A * B := Nat.mul_le_mul_right B a.isLt
  have h2 : (a.val + 1) * B = a.val * B + B := Nat.succ_mul _ _
  have := b.isLt
  omega

/-- The row `c / B` of a flat position `c < A·B` is below `A`. -/
theorem slabRow_lt {A B : Nat} (c : Fin (A * B)) : c.val / B < A :=
  Nat.div_lt_of_lt_mul (Nat.lt_of_lt_of_eq c.isLt (Nat.mul_comm A B))

/-- The column `c % B` of a flat position `c < A·B` is below `B` (a position exists, so `B` is positive). -/
theorem slabCol_lt {A B : Nat} (c : Fin (A * B)) : c.val % B < B :=
  Nat.mod_lt _ (Nat.pos_of_ne_zero fun hB => by
    have h : c.val < A * B := c.isLt
    have h0 : A * B = 0 := by rw [hB, Nat.mul_zero]
    omega)

/-- AN `[N, A·B]` ARRAY RESHAPED TO `[N, A, B]`, READ AT `(n, a, b)`: the array at `(n, a·B + b)`. -/
theorem shapeCast_split_apply {α : Type} {N A B : Nat} (x : (⟨2, ![N, A * B]⟩ : Shape).Idx → α)
    (h : (⟨2, ![N, A * B]⟩ : Shape).ShapeCasts ⟨3, ![N, A, B]⟩) (n : Fin N) (a : Fin A) (b : Fin B) :
    shapeCast ⟨3, ![N, A, B]⟩ x h (ix3 n a b) = x (ix2 n ⟨a.val * B + b.val, slabPos_lt a b⟩) :=
  shapeCast_apply x h _ _ (by
    rw [Shape.rowMajor_val_two, Shape.rowMajor_val_three]
    show n.val * (A * B) + (a.val * B + b.val) = (n.val * A + a.val) * B + b.val
    rw [Nat.add_mul, Nat.mul_assoc, Nat.add_assoc])

/-- AN `[N, A, B]` ARRAY RESHAPED TO `[N, A·B]`, READ AT `(n, c)`: the array at `(n, c / B, c % B)`. -/
theorem shapeCast_merge_apply {α : Type} {N A B : Nat} (x : (⟨3, ![N, A, B]⟩ : Shape).Idx → α)
    (h : (⟨3, ![N, A, B]⟩ : Shape).ShapeCasts ⟨2, ![N, A * B]⟩) (n : Fin N) (c : Fin (A * B)) :
    shapeCast ⟨2, ![N, A * B]⟩ x h (ix2 n c) = x (ix3 n ⟨c.val / B, slabRow_lt c⟩ ⟨c.val % B, slabCol_lt c⟩) :=
  shapeCast_apply x h _ _ (by
    rw [Shape.rowMajor_val_two, Shape.rowMajor_val_three]
    show (n.val * A + c.val / B) * B + c.val % B = n.val * (A * B) + c.val
    rw [Nat.add_mul, Nat.mul_assoc, Nat.add_assoc, Nat.div_add_mod' c.val B])

/-- A `[1, A, B]` ARRAY RESHAPED TO `[A·B]`, READ AT `r`: the array at `(0, r / B, r % B)`. -/
theorem shapeCast_flat_apply {α : Type} {A B : Nat} (x : (⟨3, ![1, A, B]⟩ : Shape).Idx → α)
    (h : (⟨3, ![1, A, B]⟩ : Shape).ShapeCasts ⟨1, ![A * B]⟩) (r : Fin (A * B)) :
    shapeCast ⟨1, ![A * B]⟩ x h (ix1 r) = x (ix3 (0 : Fin 1) ⟨r.val / B, slabRow_lt r⟩ ⟨r.val % B, slabCol_lt r⟩) :=
  shapeCast_apply x h _ _ (by
    rw [Shape.rowMajor_val_one, Shape.rowMajor_val_three]
    show (0 * A + r.val / B) * B + r.val % B = r.val
    rw [Nat.zero_mul, Nat.zero_add, Nat.div_add_mod' r.val B])

/-! ### The same three reshapes at slab `[4, 32]`, the flat extent written as the literal `128` -/

/-- `[N, 128] → [N, 4, 32]` read at `(n, a, b)`: the array at `(n, 32·a + b)`. -/
theorem shapeCast_split_4_32_apply {α : Type} {N : Nat} (x : (⟨2, ![N, 128]⟩ : Shape).Idx → α)
    (h : (⟨2, ![N, 128]⟩ : Shape).ShapeCasts ⟨3, ![N, 4, 32]⟩) (n : Fin N) (a : Fin 4) (b : Fin 32) :
    shapeCast ⟨3, ![N, 4, 32]⟩ x h (ix3 n a b) = x (ix2 n ⟨a.val * 32 + b.val, by omega⟩) :=
  shapeCast_split_apply (A := 4) (B := 32) x h n a b

/-- `[N, 4, 32] → [N, 128]` read at `(n, c)`: the array at `(n, c / 32, c % 32)`. -/
theorem shapeCast_merge_4_32_apply {α : Type} {N : Nat} (x : (⟨3, ![N, 4, 32]⟩ : Shape).Idx → α)
    (h : (⟨3, ![N, 4, 32]⟩ : Shape).ShapeCasts ⟨2, ![N, 128]⟩) (n : Fin N) (c : Fin 128) :
    shapeCast ⟨2, ![N, 128]⟩ x h (ix2 n c) = x (ix3 n ⟨c.val / 32, by omega⟩ ⟨c.val % 32, by omega⟩) :=
  shapeCast_merge_apply (A := 4) (B := 32) x h n c

/-- `[1, 4, 32] → [128]` read at `r`: the array at `(0, r / 32, r % 32)`. -/
theorem shapeCast_flat_4_32_apply {α : Type} (x : (⟨3, ![1, 4, 32]⟩ : Shape).Idx → α)
    (h : (⟨3, ![1, 4, 32]⟩ : Shape).ShapeCasts ⟨1, ![128]⟩) (r : Fin 128) :
    shapeCast ⟨1, ![128]⟩ x h (ix1 r) = x (ix3 (0 : Fin 1) ⟨r.val / 32, by omega⟩ ⟨r.val % 32, by omega⟩) :=
  shapeCast_flat_apply (A := 4) (B := 32) x h r

end Idealize.ShloMosaic.SlabGatherScatter

end
-- ==== Proof.RefRead.lean ====
/-
  The reference's stages READ AT AN INDEX, at the ideal float instance.

  * the projection split into heads: entry `(n, h, f)` of the projection is entry `(n, 32·h + f)` of the matrix
    product `x · W`;
  * a score: entry `(n, h)` is the sum over the 32 features `f` of the projection at `(n, h, f)` times the attention
    vector at `(0, h, f)`;
  * the aggregation: entry `(n, c)` is the sum, over the edges whose destination is `n`, of the source's projection at
    head `c / 32` and feature `c % 32` times the edge's weight at head `c / 32`.
-/
import proofs.«171934_j74148315398470_2_alg».proof.Proof.RefStages
import proofs.«171934_j74148315398470_2_alg».proof.Proof.LibSlabGatherScatter
import proofs.«171934_j74148315398470_2_alg».proof.Proof.LibGatherScatter
import proofs.«171934_j74148315398470_2_alg».proof.Proof.LibMatProd
import Idealize.ShloMosaic.PureOps.Ideal.Laws
import Idealize.ShloMosaic.Lib.Pipeline.Value

noncomputable section

open scoped BigOperators

namespace Cert.ReferenceIdeal.RefRead

open Cert.ReferenceIdeal Idealize.ShloMosaic Idealize.ShloMosaic.ValueIdx Idealize.ShloMosaic.SlabGatherScatter
open Idealize.ShloMosaic.MatProd Idealize.ShloMosaic.DotPlain

variable [Facts]
open Facts₀ Facts

/-! ## The projection -/

/-- The projection's dimension numbers are a plain matrix product's: contract the left operand's columns with the right
    operand's rows. -/
theorem dot_isPlain : IsPlain dot_S100000x128_S128x128_S100000x128_1_0_0_1_n_n := ⟨rfl, rfl, rfl, rfl, rfl, rfl⟩

/-- THE PROJECTION READ AT `(n, h, f)`: entry `(n, 32·h + f)` of the matrix product `x · W`. -/
theorem proj3_apply (x : FVec Ideal S100000x128 .f32) (W : FVec Ideal S128x128 .f32)
    (n : Fin 100000) (h : Fin 4) (f : Fin 32) :
    RefStages.proj3 x W (ix3 n h f) = matProd x W (ix2 n ⟨h.val * 32 + f.val, by omega⟩) := by
  unfold RefStages.proj3
  rw [shapeCast_split_4_32_apply, MatProd.dotGeneral_eq dot_isPlain]

/-! ## A score -/

/-- The reduction of axis 2 of `[100000, 4, 32]`, as the fact that names the inserted index. -/
theorem reduces_d2 : S100000x4x32.Reduces [2] S100000x4 := by decide

/-- The index of `[100000, 4, 32]` that the reduction of axis 2 inserts feature `f` into `(n, h)` at. -/
theorem lift_d2 (n : Fin 100000) (h : Fin 4) (f : Fin 32) :
    reduces_d2.lift (ix2 n h) f = ix3 n h f := by
  funext a
  refine Fin.ext ?_
  match a with
  | ⟨0, _⟩ => rfl
  | ⟨1, _⟩ => rfl
  | ⟨2, _⟩ => rfl

/-- The attention vector `[1, 4, 32]` copied to every node, read at `(n, h, f)`: the vector at `(0, h, f)`. -/
theorem bcastAtt_apply (att : FVec Ideal S1x4x32 .f32) (n : Fin 100000) (h : Fin 4) (f : Fin 32) :
    broadcastInDim S100000x4x32 ![0, 1, 2] bcast_S1x4x32_S100000x4x32_0_1_2 att (ix3 n h f) = att (ix3 (0 : Fin 1) h f) :=
  broadcastInDim_apply _ _ att _ _ fun a => match a with
    | ⟨0, _⟩ => rfl
    | ⟨1, _⟩ => rfl
    | ⟨2, _⟩ => rfl

/-- A SCORE READ AT `(n, h)`: the sum over the 32 features `f` of the projection at `(n, h, f)` times the attention
    vector at `(0, h, f)` (the host's sum starts from the constant `0`). -/
theorem score_apply (p : FVec Ideal S100000x4x32 .f32) (att : FVec Ideal S1x4x32 .f32) (n : Fin 100000) (h : Fin 4) :
    RefStages.score p att (ix2 n h) = ∑ f : Fin 32, p (ix3 n h f) * att (ix3 (0 : Fin 1) h f) := by
  unfold RefStages.score Host.reduceAdd
  rw [Ideal.hostReduceAdd_def, Ideal.hostReduceAdd_single _ reduces_d2]
  show Ideal.ofBits .f32 0x00000000#32 + _ = _
  rw [Ideal.ofBits_zero_f32, zero_add]
  show (∑ f : Fin 32, mulf (F := Ideal) p (broadcastInDim S100000x4x32 ![0, 1, 2] bcast_S1x4x32_S100000x4x32_0_1_2 att)
    (reduces_d2.lift (ix2 n h) f)) = _
  refine Finset.sum_congr rfl fun f _ => ?_
  rw [lift_d2]
  show p (ix3 n h f) * broadcastInDim S100000x4x32 ![0, 1, 2] bcast_S1x4x32_S100000x4x32_0_1_2 att (ix3 n h f) = _
  rw [bcastAtt_apply]

/-! ## The aggregation -/

/-- The program's slab gather record is the general one at its sizes. -/
theorem gather_eq_slab :
    gather_S100000x4x32_S1600000x1_S1600000x4x32_12_0_n_n_0_1_1432
      = slabGatherDims 100000 4 32 1600000 gather_S100000x4x32_S1600000x1_S1600000x4x32_12_0_n_n_0_1_1432_wf := rfl

/-- The program's slab scatter record is the general one at its sizes. -/
theorem scatter_eq_slab :
    scatter_S100000x4x32_S1600000x1_S1600000x4x32_12_0_0_1
      = slabScatterDims 100000 4 32 1600000 scatter_S100000x4x32_S1600000x1_S1600000x4x32_12_0_0_1_wf := rfl

/-- An edge's weights `[E, 4]` copied along the 32 features (through `[E, 4, 1]`), read at `(e, h, f)`: the weight at
    `(e, h)`. -/
theorem bcastWeight_apply (a : FVec Ideal S1600000x4 .f32) (e : Fin 1600000) (h : Fin 4) (f : Fin 32) :
    broadcastInDim S1600000x4x32 ![0, 1, 2] bcast_S1600000x4x1_S1600000x4x32_0_1_2
        (broadcastInDim S1600000x4x1 ![0, 1] bcast_S1600000x4_S1600000x4x1_0_1 a) (ix3 e h f)
      = a (ix2 e h) := by
  rw [broadcastInDim_apply _ _ _ (ix3 e h f) (ix3 e h (0 : Fin 1)) fun b => match b with
    | ⟨0, _⟩ => rfl
    | ⟨1, _⟩ => rfl
    | ⟨2, _⟩ => rfl]
  exact broadcastInDim_apply _ _ a _ _ fun b => match b with
    | ⟨0, _⟩ => rfl
    | ⟨1, _⟩ => rfl

/-- THE AGGREGATION READ AT `(n, c)`: the sum, over the edges `e` whose destination (read signed, not wrapped) is `n`,
    of the projection of the edge's source (wrapped, then clamped into `[0, 99999]`) at head `c / 32` and feature
    `c % 32`, times the edge's weight at head `c / 32`. The accumulation starts from the constant `0`. -/
theorem out_apply (p : FVec Ideal S100000x4x32 .f32) (a : FVec Ideal S1600000x4 .f32) (adj : IVec S2x1600000 32)
    (n : Fin 100000) (c : Fin 128) :
    RefStages.out p a adj (ix2 n c)
      = ∑ e ∈ Finset.univ.filter (fun e : Fin 1600000 =>
            (RefStages.rawIdx (RefStages.dstRow adj) (ix2 e 0)).toInt = (n.val : Int)),
          p (ix3 ⟨min (RefStages.normIdx (RefStages.srcRow adj) (ix2 e 0)).toInt.toNat (100000 - 1), by omega⟩
              ⟨c.val / 32, by omega⟩ ⟨c.val % 32, by omega⟩)
            * a (ix2 e ⟨c.val / 32, by omega⟩) := by
  unfold RefStages.out Host.scatterAdd
  rw [shapeCast_merge_4_32_apply, Ideal.hostScatterAdd_def, scatter_eq_slab, scatterAdd_slab_apply]
  show Ideal.ofBits .f32 0x00000000#32 + _ = _
  rw [Ideal.ofBits_zero_f32, zero_add]
  refine Finset.sum_congr rfl fun e _ => ?_
  show Host.gather gather_S100000x4x32_S1600000x1_S1600000x4x32_12_0_n_n_0_1_1432 p
        (RefStages.normIdx (RefStages.srcRow adj)) (ix3 e ⟨c.val / 32, by omega⟩ ⟨c.val % 32, by omega⟩)
      * broadcastInDim S1600000x4x32 ![0, 1, 2] bcast_S1600000x4x1_S1600000x4x32_0_1_2
        (broadcastInDim S1600000x4x1 ![0, 1] bcast_S1600000x4_S1600000x4x1_0_1 a)
        (ix3 e ⟨c.val / 32, by omega⟩ ⟨c.val % 32, by omega⟩) = _
  rw [gather_eq_slab, gather_slab_apply (by omega), bcastWeight_apply]

end Cert.ReferenceIdeal.RefRead

end
-- ==== Proof.LibHeadSums.lean ====
/-
  Two finite sums against one-hot head masks, on the extended reals.

  128 columns are 4 heads of 32 consecutive columns: column r belongs to head r / 32, and head h's columns are
  32·h + f for f below 32.
  * A sum over the 128 columns whose term vanishes off head h's columns is the sum over that head's 32 columns; in
    particular a row of 128 entries against a column that is a vector masked to head h.
  * A sum over the 4 heads of a(h) times the indicator that column c belongs to head h is a(c / 32).
  On the extended reals a · 0 = 0 and a · 1 = a for every a, infinite or not, so no finiteness is needed.
-/
import Idealize.ShloMosaic.PureOps.Ideal

noncomputable section

open scoped BigOperators

namespace Idealize.ShloMosaic.HeadSums

theorem headCol_lt (h : Fin 4) (f : Fin 32) : h.val * 32 + f.val < 128 := by
  have := h.isLt; have := f.isLt; omega

theorem headOf_lt (c : Fin 128) : c.val / 32 < 4 := by
  have := c.isLt; omega

/-- A sum over the 128 columns of terms that vanish off head h's columns is the sum over those 32 columns. -/
theorem sum_head_block (h : Fin 4) (g : Fin 128 → EReal) :
    ∑ r : Fin 128, (if r.val / 32 = h.val then g r else 0) = ∑ f : Fin 32, g ⟨h.val * 32 + f.val, headCol_lt h f⟩ := by
  rw [← Finset.sum_filter]
  refine Finset.sum_nbij' (fun r => (⟨r.val % 32, Nat.mod_lt _ (by norm_num)⟩ : Fin 32))
    (fun f => (⟨h.val * 32 + f.val, headCol_lt h f⟩ : Fin 128)) ?_ ?_ ?_ ?_ ?_
  · intro r _; exact Finset.mem_univ _
  · intro f _
    refine Finset.mem_filter.mpr ⟨Finset.mem_univ _, ?_⟩
    show (h.val * 32 + f.val) / 32 = h.val
    have := f.isLt; omega
  · intro r hr
    have hr' : r.val / 32 = h.val := (Finset.mem_filter.mp hr).2
    apply Fin.ext
    show h.val * 32 + r.val % 32 = r.val
    omega
  · intro f _
    apply Fin.ext
    show (h.val * 32 + f.val) % 32 = f.val
    have := f.isLt; omega
  · intro r hr
    have hr' : r.val / 32 = h.val := (Finset.mem_filter.mp hr).2
    refine congrArg g (Fin.ext ?_)
    show r.val = h.val * 32 + r.val % 32
    omega

/-- A row of 128 entries against a column that is a vector masked to head h: only that head's 32 columns count. -/
theorem sum_mul_head_mask (h : Fin 4) (g a : Fin 128 → EReal) :
    ∑ r : Fin 128, g r * (if r.val / 32 = h.val then a r else 0)
      = ∑ f : Fin 32, g ⟨h.val * 32 + f.val, headCol_lt h f⟩ * a ⟨h.val * 32 + f.val, headCol_lt h f⟩ := by
  rw [← sum_head_block h (fun r => g r * a r)]
  refine Finset.sum_congr rfl fun r _ => ?_
  split_ifs
  · rfl
  · exact mul_zero _

/-- A sum over the 4 heads against the indicator that column c belongs to the head picks the head of c. -/
theorem sum_onehot_head (a : Fin 4 → EReal) (c : Fin 128) :
    ∑ h : Fin 4, a h * (if c.val / 32 = h.val then (1 : EReal) else 0) = a ⟨c.val / 32, headOf_lt c⟩ := by
  rw [Finset.sum_eq_single (⟨c.val / 32, headOf_lt c⟩ : Fin 4)]
  · rw [if_pos rfl, mul_one]
  · intro h _ hne
    rw [if_neg (fun e => hne (Fin.ext e.symm)), mul_zero]
  · intro hn
    exact absurd (Finset.mem_univ _) hn

end Idealize.ShloMosaic.HeadSums

end
-- ==== Proof.ScoresAgree.lean ====
/-
  The two score arrays agree.

  One program computes both attention scores at once, as the product of the projection x·W (128 columns: 4 heads of
  32 features) with a 128×8 matrix A whose column j < 4 is the source attention vector masked to head j — entry
  (r, j) is the vector's entry for head r / 32 and feature r % 32 when column r belongs to head j, and 0 otherwise —
  and whose column j ≥ 4 is the destination attention vector masked to head j − 4; the source scores are columns 0–3 of
  the product and the destination scores columns 4–7. The other program computes the score of node n and head h as
  the sum over the 32 features f of the projection at column 32·h + f times the attention vector at (h, f).

  They are equal: a row of the projection against a column masked to head h only sees that head's 32 columns. On the
  extended reals a · 0 = 0 for every a, so nothing needs to be finite.
-/
import proofs.«171934_j74148315398470_2_alg».proof.Proof.RefRead
import proofs.«171934_j74148315398470_2_alg».proof.Proof.EdgeStages
import proofs.«171934_j74148315398470_2_alg».proof.Proof.LibMatProd
import proofs.«171934_j74148315398470_2_alg».proof.Proof.LibHeadSums
import proofs.«171934_j74148315398470_2_alg».proof.Proof.Gen.KernelIdeal
import proofs.«171934_j74148315398470_2_alg».proof.Proof.Gen.ReferenceIdeal
import Idealize.ShloMosaic.Lib.Pipeline.Value

noncomputable section

open scoped BigOperators

namespace Cert.ScoresAgree

open Idealize.ShloMosaic Idealize.ShloMosaic.ValueIdx Idealize.ShloMosaic.MatProd Idealize.ShloMosaic.HeadSums
open Cert.ReferenceIdeal (RefStages.score RefStages.proj3 RefRead.score_apply RefRead.proj3_apply)

/-- Columns 0–3 of an array of 8 columns, read at (n, h): the array at (n, h). -/
theorem headsL_read (s : FVec Ideal Cert.KernelIdeal.S100000x8 .f32) (n : Fin 100000) (h : Fin 4) :
    Cert.KernelIdeal.EdgeStages.headsL s (ix2 n h) = s (ix2 n ⟨h.val, by omega⟩) :=
  extractStridedSlice_apply _ s _ _ _ fun a => match a with
    | ⟨0, _⟩ => (Nat.zero_add _).symm
    | ⟨1, _⟩ => (Nat.zero_add _).symm

/-- Columns 4–7 of an array of 8 columns, read at (n, h): the array at (n, h + 4). -/
theorem headsR_read (s : FVec Ideal Cert.KernelIdeal.S100000x8 .f32) (n : Fin 100000) (h : Fin 4) :
    Cert.KernelIdeal.EdgeStages.headsR s (ix2 n h) = s (ix2 n ⟨h.val + 4, by omega⟩) :=
  extractStridedSlice_apply _ s _ _ _ fun a => match a with
    | ⟨0, _⟩ => (Nat.zero_add _).symm
    | ⟨1, _⟩ => Nat.add_comm _ _

/-- Column 32·h + f belongs to head h and is its feature f. -/
theorem headIdx (h : Fin 4) (f : Fin 32) :
    ix3 (0 : Fin 1) (⟨(h.val * 32 + f.val) / 32, by omega⟩ : Fin 4) (⟨(h.val * 32 + f.val) % 32, by omega⟩ : Fin 32)
      = ix3 (0 : Fin 1) h f := by
  have e1 : (⟨(h.val * 32 + f.val) / 32, by omega⟩ : Fin 4) = h :=
    Fin.ext (show (h.val * 32 + f.val) / 32 = h.val by have := f.isLt; omega)
  have e2 : (⟨(h.val * 32 + f.val) % 32, by omega⟩ : Fin 32) = f :=
    Fin.ext (show (h.val * 32 + f.val) % 32 = f.val by have := f.isLt; omega)
  rw [e1, e2]

variable (x : FVec Ideal Cert.ReferenceIdeal.S100000x128 .f32) (W : FVec Ideal Cert.ReferenceIdeal.S128x128 .f32)
  (attS attD : (⟨3, ![1, 4, 32]⟩ : Shape).Idx → EReal) (A : (⟨2, ![128, 8]⟩ : Shape).Idx → EReal)

/-- THE SOURCE SCORES AGREE: columns 0–3 of (x·W)·A are the per-head sums of the projection against the source
    attention vector. -/
theorem scoreL_eq
    (hA : ∀ (r : Fin 128) (j : Fin 8), A (ix2 r j) =
      if j.val < 4 then
        (if r.val / 32 = j.val then attS (ix3 (0 : Fin 1) ⟨r.val / 32, by omega⟩ ⟨r.val % 32, by omega⟩) else 0)
      else
        (if r.val / 32 = j.val - 4 then attD (ix3 (0 : Fin 1) ⟨r.val / 32, by omega⟩ ⟨r.val % 32, by omega⟩) else 0)) :
    Cert.KernelIdeal.EdgeStages.headsL (matProd (matProd x W) A)
      = Cert.ReferenceIdeal.RefStages.score (Cert.ReferenceIdeal.RefStages.proj3 x W) attS := by
  funext i
  obtain ⟨n, h, rfl⟩ : ∃ n h, i = ix2 n h := ⟨i 0, i 1, eq_ix2 i⟩
  rw [headsL_read, RefRead.score_apply]
  -- one column of the block matrix is the attention vector masked to head h
  have key : ∀ r : Fin 128, A (ix2 r (⟨h.val, by omega⟩ : Fin 8))
      = if r.val / 32 = h.val then attS (ix3 (0 : Fin 1) ⟨r.val / 32, by omega⟩ ⟨r.val % 32, by omega⟩) else 0 := fun r => by
    rw [hA]; exact if_pos h.isLt
  show (∑ r : Fin 128, matProd x W (ix2 n r) * A (ix2 r (⟨h.val, by omega⟩ : Fin 8))) = _
  refine (Finset.sum_congr rfl fun r _ => congrArg (matProd x W (ix2 n r) * ·) (key r)).trans ?_
  refine (sum_mul_head_mask h (fun r => matProd x W (ix2 n r))
    (fun r => attS (ix3 (0 : Fin 1) ⟨r.val / 32, by omega⟩ ⟨r.val % 32, by omega⟩))).trans ?_
  refine Finset.sum_congr rfl fun f _ => ?_
  show matProd x W (ix2 n ⟨h.val * 32 + f.val, _⟩)
      * attS (ix3 (0 : Fin 1) ⟨(h.val * 32 + f.val) / 32, _⟩ ⟨(h.val * 32 + f.val) % 32, _⟩) = _
  rw [RefRead.proj3_apply, headIdx h f]

/-- THE DESTINATION SCORES AGREE: columns 4–7 of (x·W)·A are the per-head sums of the projection against the
    destination attention vector. -/
theorem scoreR_eq
    (hA : ∀ (r : Fin 128) (j : Fin 8), A (ix2 r j) =
      if j.val < 4 then
        (if r.val / 32 = j.val then attS (ix3 (0 : Fin 1) ⟨r.val / 32, by omega⟩ ⟨r.val % 32, by omega⟩) else 0)
      else
        (if r.val / 32 = j.val - 4 then attD (ix3 (0 : Fin 1) ⟨r.val / 32, by omega⟩ ⟨r.val % 32, by omega⟩) else 0)) :
    Cert.KernelIdeal.EdgeStages.headsR (matProd (matProd x W) A)
      = Cert.ReferenceIdeal.RefStages.score (Cert.ReferenceIdeal.RefStages.proj3 x W) attD := by
  funext i
  obtain ⟨n, h, rfl⟩ : ∃ n h, i = ix2 n h := ⟨i 0, i 1, eq_ix2 i⟩
  rw [headsR_read, RefRead.score_apply]
  -- one column of the block matrix is the attention vector masked to head h
  have key : ∀ r : Fin 128, A (ix2 r (⟨h.val + 4, by omega⟩ : Fin 8))
      = if r.val / 32 = h.val then attD (ix3 (0 : Fin 1) ⟨r.val / 32, by omega⟩ ⟨r.val % 32, by omega⟩) else 0 := fun r => by
    rw [hA, if_neg (show ¬ (h.val + 4 < 4) by omega)]
    show (if r.val / 32 = h.val + 4 - 4 then _ else _) = _
    rw [Nat.add_sub_cancel]
  show (∑ r : Fin 128, matProd x W (ix2 n r) * A (ix2 r (⟨h.val + 4, by omega⟩ : Fin 8))) = _
  refine (Finset.sum_congr rfl fun r _ => congrArg (matProd x W (ix2 n r) * ·) (key r)).trans ?_
  refine (sum_mul_head_mask h (fun r => matProd x W (ix2 n r))
    (fun r => attD (ix3 (0 : Fin 1) ⟨r.val / 32, by omega⟩ ⟨r.val % 32, by omega⟩))).trans ?_
  refine Finset.sum_congr rfl fun f _ => ?_
  show matProd x W (ix2 n ⟨h.val * 32 + f.val, _⟩)
      * attD (ix3 (0 : Fin 1) ⟨(h.val * 32 + f.val) / 32, _⟩ ⟨(h.val * 32 + f.val) % 32, _⟩) = _
  rw [RefRead.proj3_apply, headIdx h f]

end Cert.ScoresAgree

end
-- ==== Proof.Bridge.lean ====
/-
  The kernel's result term and the reference's result term are one function of the arguments.

  Read at node n and column c, with h = c / 32 the column's head:
  * the kernel's term is the sum over the edges e arriving at n of P[src e, c] · (Σ_{h'} α[e, h']·X[h', c]), and since
    X[h', c] is 1 for h' = h and 0 otherwise the inner sum is α[e, h];
  * the reference's term is the sum over the same edges of P₃[src e, h, c mod 32] · α[e, h], where P₃ is P = x·W with its
    128 columns read as 4 heads of 32, so P₃[i, h, c mod 32] = P[i, 32h + c mod 32] = P[i, c].
  The edges arriving at n, the source row of an edge (wrapped, clamped) and the weights α are the same terms in both
  programs once the two score arrays agree: the halves of (x·W)·A against the per-head sums of the reference.
-/
import proofs.«171934_j74148315398470_2_alg».proof.Proof.KernelRead
import proofs.«171934_j74148315398470_2_alg».proof.Proof.RefRead
import proofs.«171934_j74148315398470_2_alg».proof.Proof.ScoresAgree
import proofs.«171934_j74148315398470_2_alg».proof.Proof.EdgeRegion
import proofs.«171934_j74148315398470_2_alg».proof.Proof.LibHeadSums
import proofs.«171934_j74148315398470_2_alg».proof.Proof.Gen.KernelIdeal
import proofs.«171934_j74148315398470_2_alg».proof.Proof.Gen.ReferenceIdeal

noncomputable section

open scoped BigOperators

namespace Cert.Bridge

open Idealize.ShloMosaic Idealize.ShloMosaic.ValueIdx Idealize.ShloMosaic.MatProd Idealize.ShloMosaic.HeadSums
open Cert.KernelIdeal.EdgeRegion (weightRows)

/-- Against the indicator matrix of "column c belongs to head h" the expanded weights pick the weight of c's head. -/
theorem weightRows_onehot {M : Nat} (ps : (⟨2, ![M, 128]⟩ : Shape).Idx → EReal) (al : (⟨2, ![M, 4]⟩ : Shape).Idx → EReal)
    (X : (⟨2, ![4, 128]⟩ : Shape).Idx → EReal)
    (hX : ∀ (h : Fin 4) (c : Fin 128), X (ix2 h c) = if c.val / 32 = h.val then 1 else 0) (e : Fin M) (c : Fin 128) :
    weightRows ps al X (ix2 e c) = ps (ix2 e c) * al (ix2 e ⟨c.val / 32, headOf_lt c⟩) := by
  show ps (ix2 e c) * (∑ h : Fin 4, al (ix2 e h) * X (ix2 h c)) = _
  congr 1
  rw [Finset.sum_congr rfl (fun h _ => by rw [hX h c])]
  exact sum_onehot_head (fun h => al (ix2 e h)) c

/-- The attention weights are the same term in both programs: the same gathers, rectifier, maximum, exponential,
    per-destination sums and division, of the same rows of the edge list. -/
theorem alpha_agree (ssrc sdst : FVec Ideal Cert.ReferenceIdeal.S100000x4 .f32) (adj : IVec Cert.ReferenceIdeal.S2x1600000 32) :
    Cert.ReferenceIdeal.RefStages.alpha ssrc sdst adj = Cert.KernelIdeal.EdgeStages.alpha ssrc sdst (Cert.KernelIdeal.EdgeStages.srcRow adj) (Cert.KernelIdeal.EdgeStages.dstRow adj) := rfl

/-- THE TWO RESULTS AGREE, for any arguments, given the entries of the attention matrix A and of the expansion matrix X. -/
theorem result_agree
    (x : FVec Ideal Cert.ReferenceIdeal.S100000x128 .f32) (adj : IVec Cert.ReferenceIdeal.S2x1600000 32)
    (W : FVec Ideal Cert.ReferenceIdeal.S128x128 .f32)
    (attS attD : (⟨3, ![1, 4, 32]⟩ : Shape).Idx → EReal) (A : (⟨2, ![128, 8]⟩ : Shape).Idx → EReal)
    (X : (⟨2, ![4, 128]⟩ : Shape).Idx → EReal)
    (hA : ∀ (r : Fin 128) (j : Fin 8), A (ix2 r j) =
      if j.val < 4 then (if r.val / 32 = j.val then attS (ix3 (0 : Fin 1) ⟨r.val / 32, by omega⟩ ⟨r.val % 32, by omega⟩) else 0)
      else (if r.val / 32 = j.val - 4 then attD (ix3 (0 : Fin 1) ⟨r.val / 32, by omega⟩ ⟨r.val % 32, by omega⟩) else 0))
    (hX : ∀ (h : Fin 4) (c : Fin 128), X (ix2 h c) = if c.val / 32 = h.val then 1 else 0) :
    Cert.KernelIdeal.EdgeStages.aggregate
        (weightRows (Cert.KernelIdeal.EdgeStages.projSrc (matProd x W) (Cert.KernelIdeal.EdgeStages.srcRow adj))
          (Cert.KernelIdeal.EdgeStages.alpha (Cert.KernelIdeal.EdgeStages.headsL (matProd (matProd x W) A)) (Cert.KernelIdeal.EdgeStages.headsR (matProd (matProd x W) A))
            (Cert.KernelIdeal.EdgeStages.srcRow adj) (Cert.KernelIdeal.EdgeStages.dstRow adj)) X)
        (Cert.KernelIdeal.EdgeStages.dstRow adj)
      = Cert.ReferenceIdeal.RefStages.result x adj W attS attD := by
  funext i
  obtain ⟨n, c, rfl⟩ : ∃ (n : Fin 100000) (c : Fin 128), i = ix2 n c := ⟨i 0, i 1, eq_ix2 i⟩
  rw [Cert.KernelIdeal.KernelRead.aggregate_apply, Cert.ScoresAgree.scoreL_eq x W attS attD A hA, Cert.ScoresAgree.scoreR_eq x W attS attD A hA]
  unfold Cert.ReferenceIdeal.RefStages.result
  rw [Cert.ReferenceIdeal.RefRead.out_apply, alpha_agree]
  refine Finset.sum_congr rfl fun e _ => ?_
  rw [weightRows_onehot _ _ X hX, Cert.KernelIdeal.KernelRead.projSrc_apply, Cert.ReferenceIdeal.RefRead.proj3_apply]
  congr 1
  refine congrArg (matProd x W) ?_
  refine congrArg₂ ix2 rfl (Fin.ext ?_)
  show c.val = c.val / 32 * 32 + c.val % 32
  omega

end Cert.Bridge

end
-- ==== Proof.lean ====
/-
  A graph-attention layer: the tiled kernel program against its array-level reference, over the extended reals.

  Both programs compute, for N = 100000 nodes with 128 features in 4 heads of 32, and E = 1600000 directed edges
  (src e → dst e):
      P = x·W,     s_src[n, h] = Σ_f P[n, 32h+f]·a_src[h, f],     s_dst likewise with a_dst,
      ε[e, h] = leaky_0.2 (s_src[src e, h] + s_dst[dst e, h]),    w = exp (ε − max ε),
      α[e, h] = w[e, h] / (Σ_{e' : dst e' = dst e} w[e', h] + 1e-16),
      out[n, c] = Σ_{e : dst e = n} P[src e, c]·α[e, c / 32].
  The reference does this on [N, 4, 32] arrays with a broadcast of α over the 32 features. The kernel program computes
  P and both score arrays in one pipelined region (ten blocks of rows), the scores as P·A for the 128×8 matrix A whose
  column j holds a_src (j < 4) or a_dst (j ≥ 4) masked to head j mod 4; it computes α on the host exactly as the
  reference does; it computes the weighted rows P[src e, ·] ∘ (α[e, ·]·X) in a second region (two hundred blocks of
  edges), X the 4×128 indicator of "column c belongs to head h"; and it sums over incoming edges on the host.

  Why they agree at every extended-real input: a matrix product's row depends only on the same row of the left factor,
  so blocks of rows assemble to the whole product; a row against a column masked to one head is the sum over that
  head's 32 columns (a·0 = 0 on the extended reals, for infinite a too); α·X picks α[e, c / 32] (a·1 = a); and
  reshaping [N, 128] to [N, 4, 32] sends column c to (c / 32, c mod 32). The gathers, the rectifier, the maximum, the
  exponential, the per-destination sums and the division are the same operations of the same arrays in both programs.
  No finiteness is used, so the precondition is never opened. The idealization rewrote no operation, so the kernel's
  idealized program is its own text read over the extended reals.
-/
import proofs.«171934_j74148315398470_2_alg».proof.Defs
import proofs.«171934_j74148315398470_2_alg».proof.Proof.Gen.Kernel
import proofs.«171934_j74148315398470_2_alg».proof.Proof.Gen.Kernel.Frame
import proofs.«171934_j74148315398470_2_alg».proof.Proof.Gen.KernelIdeal
import proofs.«171934_j74148315398470_2_alg».proof.Proof.Gen.KernelIdeal.Frame
import proofs.«171934_j74148315398470_2_alg».proof.Proof.Gen.ReferenceIdeal
import proofs.«171934_j74148315398470_2_alg».proof.Proof.Gen.Pre_finite_inputs
import proofs.«171934_j74148315398470_2_alg».proof.Proof.KernelRun
import proofs.«171934_j74148315398470_2_alg».proof.Proof.KernelValue
import proofs.«171934_j74148315398470_2_alg».proof.Proof.HeadMatrices
import proofs.«171934_j74148315398470_2_alg».proof.Proof.RefRun
import proofs.«171934_j74148315398470_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run _ _ _).mono (fun _ h c => (h c).2) (Cert.ReferenceIdeal.RefRun.run m ρ)

/-- From memories agreeing on the five arguments both programs end with the same array: the kernel's result term and
    the reference's are one function of the arguments. -/
theorem algebraic : Cert.algebraic_KernelIdeal_ReferenceIdeal := by
  intro m ρ m' ρ' _ hagree
  refine ⟨fun c => Cert.KernelIdeal.Gen.W11 m ρ c (Proc.devRef .tc Cert.KernelIdeal.main_v78),
    Cert.KernelIdeal.NamedRun.run m ρ, ?_⟩
  refine (θ_run _ _ _).mono (fun _ h c => ⟨(h c).1.trans ?_, (h c).2⟩) (Cert.ReferenceIdeal.RefRun.run m' ρ')
  obtain ⟨e0, e1, e2, e3, e4⟩ := hagree c
  rw [e0, e1, e2, e3, e4]
  exact ((Cert.KernelIdeal.KernelValue.result_eq m ρ c).trans (Cert.Bridge.result_agree _ _ _ _ _ _ _
    (Cert.KernelIdeal.HeadMatrices.att_apply m ρ c) (Cert.KernelIdeal.HeadMatrices.expand_apply m ρ c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
